-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v63)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v63) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v104) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S2x3200000 : Shape := ⟨2, ![2, 3200000]⟩
abbrev S128x16 : Shape := ⟨2, ![128, 16]⟩
abbrev S16 : Shape := ⟨1, ![16]⟩
abbrev S16x8 : Shape := ⟨2, ![16, 8]⟩
abbrev S8 : Shape := ⟨1, ![8]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S128x16 : S_.BroadcastsInDim S128x16 (![] : Fin 0 → Fin S128x16.rank)
  reducesTo_S128x16_S_d0_1 : S128x16.ReducesTo [0, 1] S_
  bcast_S_S16 : S_.BroadcastsInDim S16 (![] : Fin 0 → Fin S16.rank)
  reducesTo_S16_S_d0 : S16.ReducesTo [0] S_
  bcast_S_S16x8 : S_.BroadcastsInDim S16x8 (![] : Fin 0 → Fin S16x8.rank)
  reducesTo_S16x8_S_d0_1 : S16x8.ReducesTo [0, 1] S_
  bcast_S_S8 : S_.BroadcastsInDim S8 (![] : Fin 0 → Fin S8.rank)
  reducesTo_S8_S_d0 : S8.ReducesTo [0] S_

variable [Facts]

def fn_part1 {F : FTy → Type} [FloatOps F] (main_arg5 : FVec F S8 .f32) (main_v13 : IVec S_ 1) (main_v16 : IVec S16x8 1) : IVec S_ 1 :=
  let main_c_5 : IVec S_ 1 := constantI S_ 1 1#1
  let main_v17 : IVec S_ 1 := (fun x v => Host.reduce IntOp.andi x v reducesTo_S16x8_S_d0_1 h_S_) main_v16 main_c_5
  let main_v18 : IVec S_ 1 := andi main_v13 main_v17
  let main_v19 : FVec F S8 .f32 := Host.absf main_arg5
  let main_cst_6 : FVec F S_ .f32 := constant S_ .f32 0x7F800000#32
  let main_v20 : FVec F S8 .f32 := broadcastInDim S8 ![] bcast_S_S8 main_cst_6
  let main_v21 : IVec S8 1 := cmpf .olt main_v19 main_v20
  let main_c_7 : IVec S_ 1 := constantI S_ 1 1#1
  let main_v22 : IVec S_ 1 := (fun x v => Host.reduce IntOp.andi x v reducesTo_S8_S_d0 h_S_) main_v21 main_c_7
  let main_v23 : IVec S_ 1 := andi main_v18 main_v22
  main_v23

def fn {F : FTy → Type} [FloatOps F] (main_arg0 : FVec F S100000x128 .f32) (main_arg1 : IVec S2x3200000 32) (main_arg2 : FVec F S128x16 .f32) (main_arg3 : FVec F S16 .f32) (main_arg4 : FVec F S16x8 .f32) (main_arg5 : FVec F S8 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S128x16 .f32 := Host.absf main_arg2
  let main_cst_0 : FVec F S_ .f32 := constant S_ .f32 0x7F800000#32
  let main_v5 : FVec F S128x16 .f32 := broadcastInDim S128x16 ![] bcast_S_S128x16 main_cst_0
  let main_v6 : IVec S128x16 1 := cmpf .olt main_v4 main_v5
  let main_c_1 : IVec S_ 1 := constantI S_ 1 1#1
  let main_v7 : IVec S_ 1 := (fun x v => Host.reduce IntOp.andi x v reducesTo_S128x16_S_d0_1 h_S_) main_v6 main_c_1
  let main_v8 : IVec S_ 1 := andi main_v3 main_v7
  let main_v9 : FVec F S16 .f32 := Host.absf main_arg3
  let main_cst_2 : FVec F S_ .f32 := constant S_ .f32 0x7F800000#32
  let main_v10 : FVec F S16 .f32 := broadcastInDim S16 ![] bcast_S_S16 main_cst_2
  let main_v11 : IVec S16 1 := cmpf .olt main_v9 main_v10
  let main_c_3 : IVec S_ 1 := constantI S_ 1 1#1
  let main_v12 : IVec S_ 1 := (fun x v => Host.reduce IntOp.andi x v reducesTo_S16_S_d0 h_S_) main_v11 main_c_3
  let main_v13 : IVec S_ 1 := andi main_v8 main_v12
  let main_v14 : FVec F S16x8 .f32 := Host.absf main_arg4
  let main_cst_4 : FVec F S_ .f32 := constant S_ .f32 0x7F800000#32
  let main_v15 : FVec F S16x8 .f32 := broadcastInDim S16x8 ![] bcast_S_S16x8 main_cst_4
  let main_v16 : IVec S16x8 1 := cmpf .olt main_v14 main_v15
  fn_part1 (F := F) main_arg5 main_v13 main_v16
-- ==== Kernel.lean ====
abbrev S100000x128 : Shape := ⟨2, ![100000, 128]⟩
abbrev S2x3200000 : Shape := ⟨2, ![2, 3200000]⟩
abbrev S128x16 : Shape := ⟨2, ![128, 16]⟩
abbrev S16 : Shape := ⟨1, ![16]⟩
abbrev S16x8 : Shape := ⟨2, ![16, 8]⟩
abbrev S8 : Shape := ⟨1, ![8]⟩
abbrev S100000 : Shape := ⟨1, ![100000]⟩
abbrev S1x3200000 : Shape := ⟨2, ![1, 3200000]⟩
abbrev S3200000 : Shape := ⟨1, ![3200000]⟩
abbrev S3300000 : Shape := ⟨1, ![3300000]⟩
abbrev S_ : Shape := ⟨0, ![]⟩
abbrev S3300000x1 : Shape := ⟨2, ![3300000, 1]⟩
abbrev S100000x16 : Shape := ⟨2, ![100000, 16]⟩
abbrev S10000x128 : Shape := ⟨2, ![10000, 128]⟩
abbrev S10000x16 : Shape := ⟨2, ![10000, 16]⟩
abbrev S3300000x16 : Shape := ⟨2, ![3300000, 16]⟩
abbrev S1x16 : Shape := ⟨2, ![1, 16]⟩
abbrev S100000x8 : Shape := ⟨2, ![100000, 8]⟩
abbrev S10000x8 : Shape := ⟨2, ![10000, 8]⟩
abbrev S3300000x8 : Shape := ⟨2, ![3300000, 8]⟩
abbrev S1x8 : Shape := ⟨2, ![1, 8]⟩

abbrev nBuf : Space → Nat
  | .hbm => 87
  | .vmem => 20
  | .smem => 0
  | _ => 0

abbrev bufTy : (tb : Table) → Fin (tcTables nBuf tb) → BufTy
  | .hbm, ⟨0, _⟩ => ⟨S100000x128, .f32⟩
  | .hbm, ⟨1, _⟩ => ⟨S2x3200000, .i32⟩
  | .hbm, ⟨2, _⟩ => ⟨S128x16, .f32⟩
  | .hbm, ⟨3, _⟩ => ⟨S16, .f32⟩
  | .hbm, ⟨4, _⟩ => ⟨S16x8, .f32⟩
  | .hbm, ⟨5, _⟩ => ⟨S8, .f32⟩
  | .hbm, ⟨6, _⟩ => ⟨S100000, .i32⟩
  | .hbm, ⟨7, _⟩ => ⟨S1x3200000, .i32⟩
  | .hbm, ⟨8, _⟩ => ⟨S3200000, .i32⟩
  | .hbm, ⟨9, _⟩ => ⟨S3300000, .i32⟩
  | .hbm, ⟨10, _⟩ => ⟨S1x3200000, .i32⟩
  | .hbm, ⟨11, _⟩ => ⟨S3200000, .i32⟩
  | .hbm, ⟨12, _⟩ => ⟨S3300000, .i32⟩
  | .hbm, ⟨13, _⟩ => ⟨S_, .f32⟩
  | .hbm, ⟨14, _⟩ => ⟨S3300000, .f32⟩
  | .hbm, ⟨15, _⟩ => ⟨S_, .f32⟩
  | .hbm, ⟨16, _⟩ => ⟨S100000, .f32⟩
  | .hbm, ⟨17, _⟩ => ⟨S3300000x1, .i32⟩
  | .hbm, ⟨18, _⟩ => ⟨S100000, .f32⟩
  | .hbm, ⟨19, _⟩ => ⟨S_, .f32⟩
  | .hbm, ⟨20, _⟩ => ⟨S100000, .f32⟩
  | .hbm, ⟨21, _⟩ => ⟨S100000, .f32⟩
  | .hbm, ⟨22, _⟩ => ⟨S100000, .f32⟩
  | .hbm, ⟨23, _⟩ => ⟨S_, .f32⟩
  | .hbm, ⟨24, _⟩ => ⟨S100000, .f32⟩
  | .hbm, ⟨25, _⟩ => ⟨S100000, .i1⟩
  | .hbm, ⟨26, _⟩ => ⟨S_, .f32⟩
  | .hbm, ⟨27, _⟩ => ⟨S_, .f32⟩
  | .hbm, ⟨28, _⟩ => ⟨S100000, .f32⟩
  | .hbm, ⟨29, _⟩ => ⟨S100000, .f32⟩
  | .hbm, ⟨30, _⟩ => ⟨S_, .i32⟩
  | .hbm, ⟨31, _⟩ => ⟨S3300000, .i32⟩
  | .hbm, ⟨32, _⟩ => ⟨S3300000, .i1⟩
  | .hbm, ⟨33, _⟩ => ⟨S_, .i32⟩
  | .hbm, ⟨34, _⟩ => ⟨S3300000, .i32⟩
  | .hbm, ⟨35, _⟩ => ⟨S3300000, .i32⟩
  | .hbm, ⟨36, _⟩ => ⟨S3300000, .i32⟩
  | .hbm, ⟨37, _⟩ => ⟨S3300000x1, .i32⟩
  | .hbm, ⟨38, _⟩ => ⟨S3300000, .f32⟩
  | .hbm, ⟨39, _⟩ => ⟨S_, .i32⟩
  | .hbm, ⟨40, _⟩ => ⟨S3300000, .i32⟩
  | .hbm, ⟨41, _⟩ => ⟨S3300000, .i1⟩
  | .hbm, ⟨42, _⟩ => ⟨S_, .i32⟩
  | .hbm, ⟨43, _⟩ => ⟨S3300000, .i32⟩
  | .hbm, ⟨44, _⟩ => ⟨S3300000, .i32⟩
  | .hbm, ⟨45, _⟩ => ⟨S3300000, .i32⟩
  | .hbm, ⟨46, _⟩ => ⟨S3300000x1, .i32⟩
  | .hbm, ⟨47, _⟩ => ⟨S3300000, .f32⟩
  | .hbm, ⟨48, _⟩ => ⟨S3300000, .f32⟩
  | .hbm, ⟨49, _⟩ => ⟨S100000x16, .f32⟩
  | .hbm, ⟨50, _⟩ => ⟨S_, .i32⟩
  | .hbm, ⟨51, _⟩ => ⟨S3300000, .i32⟩
  | .hbm, ⟨52, _⟩ => ⟨S3300000, .i1⟩
  | .hbm, ⟨53, _⟩ => ⟨S_, .i32⟩
  | .hbm, ⟨54, _⟩ => ⟨S3300000, .i32⟩
  | .hbm, ⟨55, _⟩ => ⟨S3300000, .i32⟩
  | .hbm, ⟨56, _⟩ => ⟨S3300000, .i32⟩
  | .hbm, ⟨57, _⟩ => ⟨S3300000x1, .i32⟩
  | .hbm, ⟨58, _⟩ => ⟨S3300000x16, .f32⟩
  | .hbm, ⟨59, _⟩ => ⟨S3300000x1, .f32⟩
  | .hbm, ⟨60, _⟩ => ⟨S3300000x16, .f32⟩
  | .hbm, ⟨61, _⟩ => ⟨S3300000x16, .f32⟩
  | .hbm, ⟨62, _⟩ => ⟨S_, .f32⟩
  | .hbm, ⟨63, _⟩ => ⟨S100000x16, .f32⟩
  | .hbm, ⟨64, _⟩ => ⟨S3300000x1, .i32⟩
  | .hbm, ⟨65, _⟩ => ⟨S100000x16, .f32⟩
  | .hbm, ⟨66, _⟩ => ⟨S1x16, .f32⟩
  | .hbm, ⟨67, _⟩ => ⟨S100000x16, .f32⟩
  | .hbm, ⟨68, _⟩ => ⟨S100000x8, .f32⟩
  | .hbm, ⟨69, _⟩ => ⟨S_, .i32⟩
  | .hbm, ⟨70, _⟩ => ⟨S3300000, .i32⟩
  | .hbm, ⟨71, _⟩ => ⟨S3300000, .i1⟩
  | .hbm, ⟨72, _⟩ => ⟨S_, .i32⟩
  | .hbm, ⟨73, _⟩ => ⟨S3300000, .i32⟩
  | .hbm, ⟨74, _⟩ => ⟨S3300000, .i32⟩
  | .hbm, ⟨75, _⟩ => ⟨S3300000, .i32⟩
  | .hbm, ⟨76, _⟩ => ⟨S3300000x1, .i32⟩
  | .hbm, ⟨77, _⟩ => ⟨S3300000x8, .f32⟩
  | .hbm, ⟨78, _⟩ => ⟨S3300000x1, .f32⟩
  | .hbm, ⟨79, _⟩ => ⟨S3300000x8, .f32⟩
  | .hbm, ⟨80, _⟩ => ⟨S3300000x8, .f32⟩
  | .hbm, ⟨81, _⟩ => ⟨S_, .f32⟩
  | .hbm, ⟨82, _⟩ => ⟨S100000x8, .f32⟩
  | .hbm, ⟨83, _⟩ => ⟨S3300000x1, .i32⟩
  | .hbm, ⟨84, _⟩ => ⟨S100000x8, .f32⟩
  | .hbm, ⟨85, _⟩ => ⟨S1x8, .f32⟩
  | .hbm, ⟨86, _⟩ => ⟨S100000x8, .f32⟩
  | .local _ .vmem, ⟨0, _⟩ => ⟨S10000x128, .f32⟩
  | .local _ .vmem, ⟨1, _⟩ => ⟨S10000x128, .f32⟩
  | .local _ .vmem, ⟨2, _⟩ => ⟨S128x16, .f32⟩
  | .local _ .vmem, ⟨3, _⟩ => ⟨S10000x16, .f32⟩
  | .local _ .vmem, ⟨4, _⟩ => ⟨S10000x16, .f32⟩
  | .local _ .vmem, ⟨5, _⟩ => ⟨S10000x16, .f32⟩
  | .local _ .vmem, ⟨6, _⟩ => ⟨S10000x16, .f32⟩
  | .local _ .vmem, ⟨7, _⟩ => ⟨S1x16, .f32⟩
  | .local _ .vmem, ⟨8, _⟩ => ⟨S10000x16, .f32⟩
  | .local _ .vmem, ⟨9, _⟩ => ⟨S10000x16, .f32⟩
  | .local _ .vmem, ⟨10, _⟩ => ⟨S10000x16, .f32⟩
  | .local _ .vmem, ⟨11, _⟩ => ⟨S10000x16, .f32⟩
  | .local _ .vmem, ⟨12, _⟩ => ⟨S16x8, .f32⟩
  | .local _ .vmem, ⟨13, _⟩ => ⟨S10000x8, .f32⟩
  | .local _ .vmem, ⟨14, _⟩ => ⟨S10000x8, .f32⟩
  | .local _ .vmem, ⟨15, _⟩ => ⟨S10000x8, .f32⟩
  | .local _ .vmem, ⟨16, _⟩ => ⟨S10000x8, .f32⟩
  | .local _ .vmem, ⟨17, _⟩ => ⟨S1x8, .f32⟩
  | .local _ .vmem, ⟨18, _⟩ => ⟨S10000x8, .f32⟩
  | .local _ .vmem, ⟨19, _⟩ => ⟨S10000x8, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst : Ref sig .tc := ⟨.hbm, 13, rfl⟩
abbrev main_v7 : Ref sig .tc := ⟨.hbm, 14, rfl⟩
abbrev main_cst_0 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_1 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_cst_2 : Ref sig .tc := ⟨.hbm, 23, rfl⟩
abbrev main_v14 : Ref sig .tc := ⟨.hbm, 24, rfl⟩
abbrev main_v15 : Ref sig .tc := ⟨.hbm, 25, rfl⟩
abbrev main_cst_3 : Ref sig .tc := ⟨.hbm, 26, rfl⟩
abbrev main_call0_v0 : Ref sig .tc := ⟨.hbm, 27, rfl⟩
abbrev main_call0_v1 : Ref sig .tc := ⟨.hbm, 28, rfl⟩
abbrev main_v16 : Ref sig .tc := ⟨.hbm, 29, rfl⟩
abbrev main_c : Ref sig .tc := ⟨.hbm, 30, rfl⟩
abbrev main_v17 : Ref sig .tc := ⟨.hbm, 31, rfl⟩
abbrev main_v18 : Ref sig .tc := ⟨.hbm, 32, rfl⟩
abbrev main_c_4 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_c_5 : Ref sig .tc := ⟨.hbm, 39, rfl⟩
abbrev main_v24 : Ref sig .tc := ⟨.hbm, 40, rfl⟩
abbrev main_v25 : Ref sig .tc := ⟨.hbm, 41, rfl⟩
abbrev main_c_6 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_c_7 : Ref sig .tc := ⟨.hbm, 50, rfl⟩
abbrev main_v33 : Ref sig .tc := ⟨.hbm, 51, rfl⟩
abbrev main_v34 : Ref sig .tc := ⟨.hbm, 52, rfl⟩
abbrev main_c_8 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev main_cst_9 : Ref sig .tc := ⟨.hbm, 62, rfl⟩
abbrev main_v43 : Ref sig .tc := ⟨.hbm, 63, rfl⟩
abbrev main_v44 : Ref sig .tc := ⟨.hbm, 64, rfl⟩
abbrev main_v45 : Ref sig .tc := ⟨.hbm, 65, rfl⟩
abbrev main_v46 : Ref sig .tc := ⟨.hbm, 66, rfl⟩
abbrev main_v47 : Ref sig .tc := ⟨.hbm, 67, rfl⟩
abbrev main_v48 : Ref sig .tc := ⟨.hbm, 68, rfl⟩
abbrev main_c_10 : Ref sig .tc := ⟨.hbm, 69, rfl⟩
abbrev main_v49 : Ref sig .tc := ⟨.hbm, 70, rfl⟩
abbrev main_v50 : Ref sig .tc := ⟨.hbm, 71, rfl⟩
abbrev main_c_11 : Ref sig .tc := ⟨.hbm, 72, rfl⟩
abbrev main_v51 : Ref sig .tc := ⟨.hbm, 73, rfl⟩
abbrev main_v52 : Ref sig .tc := ⟨.hbm, 74, rfl⟩
abbrev main_v53 : Ref sig .tc := ⟨.hbm, 75, rfl⟩
abbrev main_v54 : Ref sig .tc := ⟨.hbm, 76, rfl⟩
abbrev main_v55 : Ref sig .tc := ⟨.hbm, 77, rfl⟩
abbrev main_v56 : Ref sig .tc := ⟨.hbm, 78, rfl⟩
abbrev main_v57 : Ref sig .tc := ⟨.hbm, 79, rfl⟩
abbrev main_v58 : Ref sig .tc := ⟨.hbm, 80, rfl⟩
abbrev main_cst_12 : Ref sig .tc := ⟨.hbm, 81, rfl⟩
abbrev main_v59 : Ref sig .tc := ⟨.hbm, 82, rfl⟩
abbrev main_v60 : Ref sig .tc := ⟨.hbm, 83, rfl⟩
abbrev main_v61 : Ref sig .tc := ⟨.hbm, 84, rfl⟩
abbrev main_v62 : Ref sig .tc := ⟨.hbm, 85, rfl⟩
abbrev main_v63 : Ref sig .tc := ⟨.hbm, 86, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg2_1 : Ref sig .tc := ⟨.vmem, 9, rfl⟩
abbrev cc2_stg0_0 : Ref sig .tc := ⟨.vmem, 10, rfl⟩
abbrev cc2_stg0_1 : Ref sig .tc := ⟨.vmem, 11, rfl⟩
abbrev cc2_stg1_0 : Ref sig .tc := ⟨.vmem, 12, rfl⟩
abbrev cc2_stg2_0 : Ref sig .tc := ⟨.vmem, 13, rfl⟩
abbrev cc2_stg2_1 : Ref sig .tc := ⟨.vmem, 14, rfl⟩
abbrev cc3_stg0_0 : Ref sig .tc := ⟨.vmem, 15, rfl⟩
abbrev cc3_stg0_1 : Ref sig .tc := ⟨.vmem, 16, rfl⟩
abbrev cc3_stg1_0 : Ref sig .tc := ⟨.vmem, 17, rfl⟩
abbrev cc3_stg2_0 : Ref sig .tc := ⟨.vmem, 18, rfl⟩
abbrev cc3_stg2_1 : Ref sig .tc := ⟨.vmem, 19, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem2_1 : DmaSem sig := 9
abbrev cc2_sem0_0 : DmaSem sig := 10
abbrev cc2_sem0_1 : DmaSem sig := 11
abbrev cc2_sem1_0 : DmaSem sig := 12
abbrev cc2_sem2_0 : DmaSem sig := 13
abbrev cc2_sem2_1 : DmaSem sig := 14
abbrev cc3_sem0_0 : DmaSem sig := 15
abbrev cc3_sem0_1 : DmaSem sig := 16
abbrev cc3_sem1_0 : DmaSem sig := 17
abbrev cc3_sem2_0 : DmaSem sig := 18
abbrev cc3_sem2_1 : DmaSem sig := 19

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S10000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x16 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S10000x16 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S10000x16 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1x16 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S10000x16 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev grid2 : Pipeline.Grid := ⟨1, ![10], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S10000x16 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S16x8 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S10000x8 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev grid3 : Pipeline.Grid := ⟨1, ![10], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S10000x8 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S1x8 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 2 → Memref sig .tc .vmem S10000x8 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

class Facts₀ : Prop where
  slices_S2x3200000_S1x3200000_0_0 : S2x3200000.Slices ![0, 0] S1x3200000
  shapeCasts_S1x3200000_S3200000 : S1x3200000.ShapeCasts S3200000
  concatenates_S3200000_S100000_S3300000_d0 : Shape.Concatenates [S3200000, S100000] S3300000 0
  slices_S2x3200000_S1x3200000_1_0 : S2x3200000.Slices ![1, 0] S1x3200000
  bcast_S_S3300000 : S_.BroadcastsInDim S3300000 (![] : Fin 0 → Fin S3300000.rank)
  bcast_S_S100000 : S_.BroadcastsInDim S100000 (![] : Fin 0 → Fin S100000.rank)
  bcast_S3300000_S3300000x1_0 : S3300000.BroadcastsInDim S3300000x1 (![0] : Fin 1 → Fin S3300000x1.rank)
  inb_S10000x128_S10000x128_0_0 : ∀ a, (![0, 0] : Fin 2 → Nat) a + S10000x128.size a ≤ S10000x128.size a
  h_S10000x128 : 0 < S10000x128.numel
  bitsLt_bf16_f32 : FTy.bits .bf16 < FTy.bits .f32
  inb_S128x16_S128x16_0_0 : ∀ a, (![0, 0] : Fin 2 → Nat) a + S128x16.size a ≤ S128x16.size a
  h_S128x16 : 0 < S128x16.numel
  inb_S10000x16_S10000x16_0_0 : ∀ a, (![0, 0] : Fin 2 → Nat) a + S10000x16.size a ≤ S10000x16.size a
  h_S10000x16 : 0 < S10000x16.numel
  bcast_S3300000x1_S3300000x16_0_1 : S3300000x1.BroadcastsInDim S3300000x16 (![0, 1] : Fin 2 → Fin S3300000x16.rank)
  bcast_S_S100000x16 : S_.BroadcastsInDim S100000x16 (![] : Fin 0 → Fin S100000x16.rank)
  shapeCasts_S16_S1x16 : S16.ShapeCasts S1x16
  shapeCasts_S10000x16_S10000x16 : S10000x16.ShapeCasts S10000x16
  inb_S1x16_S1x16_0_0 : ∀ a, (![0, 0] : Fin 2 → Nat) a + S1x16.size a ≤ S1x16.size a
  h_S1x16 : 0 < S1x16.numel
  shapeCasts_S1x16_S1x16 : S1x16.ShapeCasts S1x16
  broadcasts_S1x16_S10000x16 : S1x16.Broadcasts S10000x16
  inb_S16x8_S16x8_0_0 : ∀ a, (![0, 0] : Fin 2 → Nat) a + S16x8.size a ≤ S16x8.size a
  h_S16x8 : 0 < S16x8.numel
  inb_S10000x8_S10000x8_0_0 : ∀ a, (![0, 0] : Fin 2 → Nat) a + S10000x8.size a ≤ S10000x8.size a
  h_S10000x8 : 0 < S10000x8.numel
  bcast_S3300000x1_S3300000x8_0_1 : S3300000x1.BroadcastsInDim S3300000x8 (![0, 1] : Fin 2 → Fin S3300000x8.rank)
  bcast_S_S100000x8 : S_.BroadcastsInDim S100000x8 (![] : Fin 0 → Fin S100000x8.rank)
  shapeCasts_S8_S1x8 : S8.ShapeCasts S1x8
  shapeCasts_S10000x8_S10000x8 : S10000x8.ShapeCasts S10000x8
  inb_S1x8_S1x8_0_0 : ∀ a, (![0, 0] : Fin 2 → Nat) a + S1x8.size a ≤ S1x8.size a
  h_S1x8 : 0 < S1x8.numel
  shapeCasts_S1x8_S1x8 : S1x8.ShapeCasts S1x8
  broadcasts_S1x8_S10000x8 : S1x8.Broadcasts S10000x8
  scatter_S100000_S3300000x1_S3300000_n_0_0_1_wf : ScatterDims.WF S100000 S3300000x1 S3300000 [] [0] [0] 1
  gather_S100000_S3300000x1_S3300000_n_0_n_n_0_1_1_wf : GatherDims.WF S100000 S3300000x1 S3300000 [] [0] [] [0] [] 1 ![1]
  dot_S10000x128_S128x16_S10000x16_1_0_0_1_n_n_wf : DotDims.WF S10000x128 S128x16 S10000x16 [1] [0] [0] [1] [] []
  gather_S100000x16_S3300000x1_S3300000x16_1_0_n_n_0_1_116_wf : GatherDims.WF S100000x16 S3300000x1 S3300000x16 [1] [0] [] [0] [] 1 ![1, 16]
  scatter_S100000x16_S3300000x1_S3300000x16_1_0_0_1_wf : ScatterDims.WF S100000x16 S3300000x1 S3300000x16 [1] [0] [0] 1
  dot_S10000x16_S16x8_S10000x8_1_0_0_1_n_n_wf : DotDims.WF S10000x16 S16x8 S10000x8 [1] [0] [0] [1] [] []
  gather_S100000x8_S3300000x1_S3300000x8_1_0_n_n_0_1_18_wf : GatherDims.WF S100000x8 S3300000x1 S3300000x8 [1] [0] [] [0] [] 1 ![1, 8]
  scatter_S100000x8_S3300000x1_S3300000x8_1_0_0_1_wf : ScatterDims.WF S100000x8 S3300000x1 S3300000x8 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S10000x128.size a ≤ S100000x128.size a
  hwx0_0 : ∀ i : grid0.Coords, EltTy.bits .f32 = 32 ∨ (Rect.block (s := S100000x128) S10000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x16.size a ≤ S128x16.size a
  hwx0_1 : ∀ i : grid0.Coords, EltTy.bits .f32 = 32 ∨ (Rect.block (s := S128x16) S128x16.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S10000x16.size a ≤ S100000x16.size a
  hwx0_2 : ∀ i : grid0.Coords, EltTy.bits .f32 = 32 ∨ (Rect.block (s := S100000x16) S10000x16.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S10000x16.size a ≤ S100000x16.size a
  hwx1_0 : ∀ i : grid1.Coords, EltTy.bits .f32 = 32 ∨ (Rect.block (s := S100000x16) S10000x16.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1x16.size a ≤ S1x16.size a
  hwx1_1 : ∀ i : grid1.Coords, EltTy.bits .f32 = 32 ∨ (Rect.block (s := S1x16) S1x16.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S10000x16.size a ≤ S100000x16.size a
  hwx1_2 : ∀ i : grid1.Coords, EltTy.bits .f32 = 32 ∨ (Rect.block (s := S100000x16) S10000x16.size (cc1_transform_2 i) (hinb1_2 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S10000x16.size a ≤ S100000x16.size a
  hwx2_0 : ∀ i : grid2.Coords, EltTy.bits .f32 = 32 ∨ (Rect.block (s := S100000x16) S10000x16.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S16x8.size a ≤ S16x8.size a
  hwx2_1 : ∀ i : grid2.Coords, EltTy.bits .f32 = 32 ∨ (Rect.block (s := S16x8) S16x8.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S10000x8.size a ≤ S100000x8.size a
  hwx2_2 : ∀ i : grid2.Coords, EltTy.bits .f32 = 32 ∨ (Rect.block (s := S100000x8) S10000x8.size (cc2_transform_2 i) (hinb2_2 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S10000x8.size a ≤ S100000x8.size a
  hwx3_0 : ∀ i : grid3.Coords, EltTy.bits .f32 = 32 ∨ (Rect.block (s := S100000x8) S10000x8.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S1x8.size a ≤ S1x8.size a
  hwx3_1 : ∀ i : grid3.Coords, EltTy.bits .f32 = 32 ∨ (Rect.block (s := S1x8) S1x8.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S10000x8.size a ≤ S100000x8.size a
  hwx3_2 : ∀ i : grid3.Coords, EltTy.bits .f32 = 32 ∨ (Rect.block (s := S100000x8) S10000x8.size (cc3_transform_2 i) (hinb3_2 i)).WholeWords (EltTy.packing .f32)

variable [Facts₀]

def scatter_S100000_S3300000x1_S3300000_n_0_0_1 : ScatterDims S100000 S3300000x1 S3300000 where
  updateWindowDims := []
  insertedWindowDims := [0]
  scatterDimsToOperandDims := [0]
  indexVectorDim := 1
  wf := scatter_S100000_S3300000x1_S3300000_n_0_0_1_wf
def gather_S100000_S3300000x1_S3300000_n_0_n_n_0_1_1 : GatherDims S100000 S3300000x1 S3300000 where
  offsetDims := []
  collapsedSliceDims := [0]
  operandBatchingDims := []
  startIndicesBatchingDims := []
  startIndexMap := [0]
  indexVectorDim := 1
  sliceSizes := ![1]
  wf := gather_S100000_S3300000x1_S3300000_n_0_n_n_0_1_1_wf
def dot_S10000x128_S128x16_S10000x16_1_0_0_1_n_n : DotDims S10000x128 S128x16 S10000x16 where
  lhsContracting := [1]
  rhsContracting := [0]
  lhsNonContracting := [0]
  rhsNonContracting := [1]
  lhsBatch := []
  rhsBatch := []
  wf := dot_S10000x128_S128x16_S10000x16_1_0_0_1_n_n_wf
def gather_S100000x16_S3300000x1_S3300000x16_1_0_n_n_0_1_116 : GatherDims S100000x16 S3300000x1 S3300000x16 where
  offsetDims := [1]
  collapsedSliceDims := [0]
  operandBatchingDims := []
  startIndicesBatchingDims := []
  startIndexMap := [0]
  indexVectorDim := 1
  sliceSizes := ![1, 16]
  wf := gather_S100000x16_S3300000x1_S3300000x16_1_0_n_n_0_1_116_wf
def scatter_S100000x16_S3300000x1_S3300000x16_1_0_0_1 : ScatterDims S100000x16 S3300000x1 S3300000x16 where
  updateWindowDims := [1]
  insertedWindowDims := [0]
  scatterDimsToOperandDims := [0]
  indexVectorDim := 1
  wf := scatter_S100000x16_S3300000x1_S3300000x16_1_0_0_1_wf
def dot_S10000x16_S16x8_S10000x8_1_0_0_1_n_n : DotDims S10000x16 S16x8 S10000x8 where
  lhsContracting := [1]
  rhsContracting := [0]
  lhsNonContracting := [0]
  rhsNonContracting := [1]
  lhsBatch := []
  rhsBatch := []
  wf := dot_S10000x16_S16x8_S10000x8_1_0_0_1_n_n_wf
def gather_S100000x8_S3300000x1_S3300000x8_1_0_n_n_0_1_18 : GatherDims S100000x8 S3300000x1 S3300000x8 where
  offsetDims := [1]
  collapsedSliceDims := [0]
  operandBatchingDims := []
  startIndicesBatchingDims := []
  startIndexMap := [0]
  indexVectorDim := 1
  sliceSizes := ![1, 8]
  wf := gather_S100000x8_S3300000x1_S3300000x8_1_0_n_n_0_1_18_wf
def scatter_S100000x8_S3300000x1_S3300000x8_1_0_0_1 : ScatterDims S100000x8 S3300000x1 S3300000x8 where
  updateWindowDims := [1]
  insertedWindowDims := [0]
  scatterDimsToOperandDims := [0]
  indexVectorDim := 1
  wf := scatter_S100000x8_S3300000x1_S3300000x8_1_0_0_1_wf

abbrev win0_0 : Pipeline.Window sig grid0 :=
  Pipeline.Window.ofSpec (Memref.whole main_arg0) S10000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S128x16.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v32) S10000x16.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v45) S10000x16.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v46) S1x16.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v47) S10000x16.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev win2_0 : Pipeline.Window sig grid2 :=
  Pipeline.Window.ofSpec (Memref.whole main_v47) S10000x16.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_arg4) S16x8.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v48) S10000x8.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

abbrev win3_0 : Pipeline.Window sig grid3 :=
  Pipeline.Window.ofSpec (Memref.whole main_v61) S10000x8.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v62) S1x8.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v63) S10000x8.size cc3_transform_2 reads3_2 true false 2 stage3_2 sem3_2
    hrank3 hreads3_2 hinb3_2 nbuf3_2 (Memref.isWhole_whole _) hwx3_2 hstage3_2

abbrev win3 : Fin 3 → Pipeline.Window sig grid3 := fun | 0 => win3_0 | 1 => win3_1 | 2 => win3_2 | ⟨_ + 3, h⟩ => absurd h (Nat.not_lt.2 (Nat.le_add_left _ _))
abbrev spec3 : Fin 3 → Pipeline.WinSpec sig grid3.rank := fun w => (win3 w).toWinSpec

class Facts : Prop extends Facts₀ where

variable [Facts]
-- ==== ReferenceIdeal.lean ====
abbrev S100000x128 : Shape := ⟨2, ![100000, 128]⟩
abbrev S2x3200000 : Shape := ⟨2, ![2, 3200000]⟩
abbrev S128x16 : Shape := ⟨2, ![128, 16]⟩
abbrev S16 : Shape := ⟨1, ![16]⟩
abbrev S16x8 : Shape := ⟨2, ![16, 8]⟩
abbrev S8 : Shape := ⟨1, ![8]⟩
abbrev S100000 : Shape := ⟨1, ![100000]⟩
abbrev S1x3200000 : Shape := ⟨2, ![1, 3200000]⟩
abbrev S3200000 : Shape := ⟨1, ![3200000]⟩
abbrev S3300000 : Shape := ⟨1, ![3300000]⟩
abbrev S100000x16 : Shape := ⟨2, ![100000, 16]⟩
abbrev S_ : Shape := ⟨0, ![]⟩
abbrev S3300000x1 : Shape := ⟨2, ![3300000, 1]⟩
abbrev S3300000x16 : Shape := ⟨2, ![3300000, 16]⟩
abbrev S1x16 : Shape := ⟨2, ![1, 16]⟩
abbrev S100000x8 : Shape := ⟨2, ![100000, 8]⟩
abbrev S3300000x8 : Shape := ⟨2, ![3300000, 8]⟩
abbrev S1x8 : Shape := ⟨2, ![1, 8]⟩

abbrev nBuf : Space → Nat
  | .hbm => 143
  | .vmem => 0
  | .smem => 0
  | _ => 0

abbrev hbmTy0_0 (i : Nat) : BufTy := match i % 128 with
  | 0 => ⟨S100000x128, .f32⟩
  | 1 => ⟨S2x3200000, .i32⟩
  | 2 => ⟨S128x16, .f32⟩
  | 3 => ⟨S16, .f32⟩
  | 4 => ⟨S16x8, .f32⟩
  | 5 => ⟨S8, .f32⟩
  | 6 => ⟨S100000, .i32⟩
  | 7 => ⟨S1x3200000, .i32⟩
  | 8 => ⟨S3200000, .i32⟩
  | 9 => ⟨S3300000, .i32⟩
  | 10 => ⟨S1x3200000, .i32⟩
  | 11 => ⟨S3200000, .i32⟩
  | 12 => ⟨S3300000, .i32⟩
  | 13 => ⟨S100000x16, .f32⟩
  | 14 => ⟨S_, .f32⟩
  | 15 => ⟨S3300000, .f32⟩
  | 16 => ⟨S_, .f32⟩
  | 17 => ⟨S100000, .f32⟩
  | 18 => ⟨S3300000x1, .i32⟩
  | 19 => ⟨S100000, .f32⟩
  | 20 => ⟨S_, .f32⟩
  | 21 => ⟨S100000, .f32⟩
  | 22 => ⟨S100000, .f32⟩
  | 23 => ⟨S100000, .f32⟩
  | 24 => ⟨S_, .f32⟩
  | 25 => ⟨S100000, .f32⟩
  | 26 => ⟨S100000, .i1⟩
  | 27 => ⟨S_, .f32⟩
  | 28 => ⟨S_, .f32⟩
  | 29 => ⟨S100000, .f32⟩
  | 30 => ⟨S100000, .f32⟩
  | 31 => ⟨S_, .i32⟩
  | 32 => ⟨S3300000, .i32⟩
  | 33 => ⟨S3300000, .i1⟩
  | 34 => ⟨S_, .i32⟩
  | 35 => ⟨S3300000, .i32⟩
  | 36 => ⟨S3300000, .i32⟩
  | 37 => ⟨S3300000, .i32⟩
  | 38 => ⟨S3300000x1, .i32⟩
  | 39 => ⟨S3300000, .f32⟩
  | 40 => ⟨S_, .i32⟩
  | 41 => ⟨S3300000, .i32⟩
  | 42 => ⟨S3300000, .i1⟩
  | 43 => ⟨S_, .i32⟩
  | 44 => ⟨S3300000, .i32⟩
  | 45 => ⟨S3300000, .i32⟩
  | 46 => ⟨S3300000, .i32⟩
  | 47 => ⟨S3300000x1, .i32⟩
  | 48 => ⟨S3300000, .f32⟩
  | 49 => ⟨S3300000, .f32⟩
  | 50 => ⟨S_, .i32⟩
  | 51 => ⟨S3300000, .i32⟩
  | 52 => ⟨S3300000, .i1⟩
  | 53 => ⟨S_, .i32⟩
  | 54 => ⟨S3300000, .i32⟩
  | 55 => ⟨S3300000, .i32⟩
  | 56 => ⟨S3300000, .i32⟩
  | 57 => ⟨S3300000x1, .i32⟩
  | 58 => ⟨S3300000x16, .f32⟩
  | 59 => ⟨S3300000x1, .f32⟩
  | 60 => ⟨S3300000x16, .f32⟩
  | 61 => ⟨S3300000x16, .f32⟩
  | 62 => ⟨S_, .f32⟩
  | 63 => ⟨S100000x16, .f32⟩
  | 64 => ⟨S3300000x1, .i32⟩
  | 65 => ⟨S100000x16, .f32⟩
  | 66 => ⟨S1x16, .f32⟩
  | 67 => ⟨S100000x16, .f32⟩
  | 68 => ⟨S100000x16, .f32⟩
  | 69 => ⟨S_, .f32⟩
  | 70 => ⟨S100000x16, .f32⟩
  | 71 => ⟨S100000x16, .f32⟩
  | 72 => ⟨S100000, .i32⟩
  | 73 => ⟨S1x3200000, .i32⟩
  | 74 => ⟨S3200000, .i32⟩
  | 75 => ⟨S3300000, .i32⟩
  | 76 => ⟨S1x3200000, .i32⟩
  | 77 => ⟨S3200000, .i32⟩
  | 78 => ⟨S3300000, .i32⟩
  | 79 => ⟨S100000x8, .f32⟩
  | 80 => ⟨S_, .f32⟩
  | 81 => ⟨S3300000, .f32⟩
  | 82 => ⟨S_, .f32⟩
  | 83 => ⟨S100000, .f32⟩
  | 84 => ⟨S3300000x1, .i32⟩
  | 85 => ⟨S100000, .f32⟩
  | 86 => ⟨S_, .f32⟩
  | 87 => ⟨S100000, .f32⟩
  | 88 => ⟨S100000, .f32⟩
  | 89 => ⟨S100000, .f32⟩
  | 90 => ⟨S_, .f32⟩
  | 91 => ⟨S100000, .f32⟩
  | 92 => ⟨S100000, .i1⟩
  | 93 => ⟨S_, .f32⟩
  | 94 => ⟨S_, .f32⟩
  | 95 => ⟨S100000, .f32⟩
  | 96 => ⟨S100000, .f32⟩
  | 97 => ⟨S_, .i32⟩
  | 98 => ⟨S3300000, .i32⟩
  | 99 => ⟨S3300000, .i1⟩
  | 100 => ⟨S_, .i32⟩
  | 101 => ⟨S3300000, .i32⟩
  | 102 => ⟨S3300000, .i32⟩
  | 103 => ⟨S3300000, .i32⟩
  | 104 => ⟨S3300000x1, .i32⟩
  | 105 => ⟨S3300000, .f32⟩
  | 106 => ⟨S_, .i32⟩
  | 107 => ⟨S3300000, .i32⟩
  | 108 => ⟨S3300000, .i1⟩
  | 109 => ⟨S_, .i32⟩
  | 110 => ⟨S3300000, .i32⟩
  | 111 => ⟨S3300000, .i32⟩
  | 112 => ⟨S3300000, .i32⟩
  | 113 => ⟨S3300000x1, .i32⟩
  | 114 => ⟨S3300000, .f32⟩
  | 115 => ⟨S3300000, .f32⟩
  | 116 => ⟨S_, .i32⟩
  | 117 => ⟨S3300000, .i32⟩
  | 118 => ⟨S3300000, .i1⟩
  | 119 => ⟨S_, .i32⟩
  | 120 => ⟨S3300000, .i32⟩
  | 121 => ⟨S3300000, .i32⟩
  | 122 => ⟨S3300000, .i32⟩
  | 123 => ⟨S3300000x1, .i32⟩
  | 124 => ⟨S3300000x8, .f32⟩
  | 125 => ⟨S3300000x1, .f32⟩
  | 126 => ⟨S3300000x8, .f32⟩
  | 127 => ⟨S3300000x8, .f32⟩
  | _ => ⟨S100000x128, .f32⟩

abbrev hbmTy0_1 (i : Nat) : BufTy := match i % 128 with
  | 0 => ⟨S_, .f32⟩
  | 1 => ⟨S100000x8, .f32⟩
  | 2 => ⟨S3300000x1, .i32⟩
  | 3 => ⟨S100000x8, .f32⟩
  | 4 => ⟨S1x8, .f32⟩
  | 5 => ⟨S100000x8, .f32⟩
  | 6 => ⟨S100000x8, .f32⟩
  | 7 => ⟨S100000x8, .f32⟩
  | 8 => ⟨S100000x8, .f32⟩
  | 9 => ⟨S_, .f32⟩
  | 10 => ⟨S100000x8, .f32⟩
  | 11 => ⟨S100000x8, .f32⟩
  | 12 => ⟨S_, .f32⟩
  | 13 => ⟨S100000x8, .f32⟩
  | 14 => ⟨S100000x8, .f32⟩
  | _ => ⟨S100000x128, .f32⟩

abbrev hbmTy (i : Nat) : BufTy := match i / 128 with
  | 0 => hbmTy0_0 i
  | 1 => hbmTy0_1 i
  | _ => ⟨S100000x128, .f32⟩

abbrev bufTy : (tb : Table) → Fin (tcTables nBuf tb) → BufTy
  | .hbm, ⟨i, _⟩ => hbmTy i
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_cst : Ref sig .tc := ⟨.hbm, 14, rfl⟩
abbrev main_v8 : Ref sig .tc := ⟨.hbm, 15, rfl⟩
abbrev main_cst_0 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_cst_1 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_cst_2 : Ref sig .tc := ⟨.hbm, 24, rfl⟩
abbrev main_v15 : Ref sig .tc := ⟨.hbm, 25, rfl⟩
abbrev main_v16 : Ref sig .tc := ⟨.hbm, 26, rfl⟩
abbrev main_cst_3 : Ref sig .tc := ⟨.hbm, 27, rfl⟩
abbrev main_call0_v0 : Ref sig .tc := ⟨.hbm, 28, rfl⟩
abbrev main_call0_v1 : Ref sig .tc := ⟨.hbm, 29, rfl⟩
abbrev main_v17 : Ref sig .tc := ⟨.hbm, 30, rfl⟩
abbrev main_c : Ref sig .tc := ⟨.hbm, 31, rfl⟩
abbrev main_v18 : Ref sig .tc := ⟨.hbm, 32, rfl⟩
abbrev main_v19 : Ref sig .tc := ⟨.hbm, 33, rfl⟩
abbrev main_c_4 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_c_5 : Ref sig .tc := ⟨.hbm, 40, rfl⟩
abbrev main_v25 : Ref sig .tc := ⟨.hbm, 41, rfl⟩
abbrev main_v26 : Ref sig .tc := ⟨.hbm, 42, rfl⟩
abbrev main_c_6 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_c_7 : Ref sig .tc := ⟨.hbm, 50, rfl⟩
abbrev main_v33 : Ref sig .tc := ⟨.hbm, 51, rfl⟩
abbrev main_v34 : Ref sig .tc := ⟨.hbm, 52, rfl⟩
abbrev main_c_8 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev main_cst_9 : Ref sig .tc := ⟨.hbm, 62, rfl⟩
abbrev main_v43 : Ref sig .tc := ⟨.hbm, 63, rfl⟩
abbrev main_v44 : Ref sig .tc := ⟨.hbm, 64, rfl⟩
abbrev main_v45 : Ref sig .tc := ⟨.hbm, 65, rfl⟩
abbrev main_v46 : Ref sig .tc := ⟨.hbm, 66, rfl⟩
abbrev main_v47 : Ref sig .tc := ⟨.hbm, 67, rfl⟩
abbrev main_v48 : Ref sig .tc := ⟨.hbm, 68, rfl⟩
abbrev main_call1_cst : Ref sig .tc := ⟨.hbm, 69, rfl⟩
abbrev main_call1_v0 : Ref sig .tc := ⟨.hbm, 70, rfl⟩
abbrev main_v49 : Ref sig .tc := ⟨.hbm, 71, rfl⟩
abbrev main_v50 : Ref sig .tc := ⟨.hbm, 72, rfl⟩
abbrev main_v51 : Ref sig .tc := ⟨.hbm, 73, rfl⟩
abbrev main_v52 : Ref sig .tc := ⟨.hbm, 74, rfl⟩
abbrev main_v53 : Ref sig .tc := ⟨.hbm, 75, rfl⟩
abbrev main_v54 : Ref sig .tc := ⟨.hbm, 76, rfl⟩
abbrev main_v55 : Ref sig .tc := ⟨.hbm, 77, rfl⟩
abbrev main_v56 : Ref sig .tc := ⟨.hbm, 78, rfl⟩
abbrev main_v57 : Ref sig .tc := ⟨.hbm, 79, rfl⟩
abbrev main_cst_10 : Ref sig .tc := ⟨.hbm, 80, rfl⟩
abbrev main_v58 : Ref sig .tc := ⟨.hbm, 81, rfl⟩
abbrev main_cst_11 : Ref sig .tc := ⟨.hbm, 82, rfl⟩
abbrev main_v59 : Ref sig .tc := ⟨.hbm, 83, rfl⟩
abbrev main_v60 : Ref sig .tc := ⟨.hbm, 84, rfl⟩
abbrev main_v61 : Ref sig .tc := ⟨.hbm, 85, rfl⟩
abbrev main_cst_12 : Ref sig .tc := ⟨.hbm, 86, rfl⟩
abbrev main_v62 : Ref sig .tc := ⟨.hbm, 87, rfl⟩
abbrev main_v63 : Ref sig .tc := ⟨.hbm, 88, rfl⟩
abbrev main_v64 : Ref sig .tc := ⟨.hbm, 89, rfl⟩
abbrev main_cst_13 : Ref sig .tc := ⟨.hbm, 90, rfl⟩
abbrev main_v65 : Ref sig .tc := ⟨.hbm, 91, rfl⟩
abbrev main_v66 : Ref sig .tc := ⟨.hbm, 92, rfl⟩
abbrev main_cst_14 : Ref sig .tc := ⟨.hbm, 93, rfl⟩
abbrev main_call2_v0 : Ref sig .tc := ⟨.hbm, 94, rfl⟩
abbrev main_call2_v1 : Ref sig .tc := ⟨.hbm, 95, rfl⟩
abbrev main_v67 : Ref sig .tc := ⟨.hbm, 96, rfl⟩
abbrev main_c_15 : Ref sig .tc := ⟨.hbm, 97, rfl⟩
abbrev main_v68 : Ref sig .tc := ⟨.hbm, 98, rfl⟩
abbrev main_v69 : Ref sig .tc := ⟨.hbm, 99, rfl⟩
abbrev main_c_16 : Ref sig .tc := ⟨.hbm, 100, rfl⟩
abbrev main_v70 : Ref sig .tc := ⟨.hbm, 101, rfl⟩
abbrev main_v71 : Ref sig .tc := ⟨.hbm, 102, rfl⟩
abbrev main_v72 : Ref sig .tc := ⟨.hbm, 103, rfl⟩
abbrev main_v73 : Ref sig .tc := ⟨.hbm, 104, rfl⟩
abbrev main_v74 : Ref sig .tc := ⟨.hbm, 105, rfl⟩
abbrev main_c_17 : Ref sig .tc := ⟨.hbm, 106, rfl⟩
abbrev main_v75 : Ref sig .tc := ⟨.hbm, 107, rfl⟩
abbrev main_v76 : Ref sig .tc := ⟨.hbm, 108, rfl⟩
abbrev main_c_18 : Ref sig .tc := ⟨.hbm, 109, rfl⟩
abbrev main_v77 : Ref sig .tc := ⟨.hbm, 110, rfl⟩
abbrev main_v78 : Ref sig .tc := ⟨.hbm, 111, rfl⟩
abbrev main_v79 : Ref sig .tc := ⟨.hbm, 112, rfl⟩
abbrev main_v80 : Ref sig .tc := ⟨.hbm, 113, rfl⟩
abbrev main_v81 : Ref sig .tc := ⟨.hbm, 114, rfl⟩
abbrev main_v82 : Ref sig .tc := ⟨.hbm, 115, rfl⟩
abbrev main_c_19 : Ref sig .tc := ⟨.hbm, 116, rfl⟩
abbrev main_v83 : Ref sig .tc := ⟨.hbm, 117, rfl⟩
abbrev main_v84 : Ref sig .tc := ⟨.hbm, 118, rfl⟩
abbrev main_c_20 : Ref sig .tc := ⟨.hbm, 119, rfl⟩
abbrev main_v85 : Ref sig .tc := ⟨.hbm, 120, rfl⟩
abbrev main_v86 : Ref sig .tc := ⟨.hbm, 121, rfl⟩
abbrev main_v87 : Ref sig .tc := ⟨.hbm, 122, rfl⟩
abbrev main_v88 : Ref sig .tc := ⟨.hbm, 123, rfl⟩
abbrev main_v89 : Ref sig .tc := ⟨.hbm, 124, rfl⟩
abbrev main_v90 : Ref sig .tc := ⟨.hbm, 125, rfl⟩
abbrev main_v91 : Ref sig .tc := ⟨.hbm, 126, rfl⟩
abbrev main_v92 : Ref sig .tc := ⟨.hbm, 127, rfl⟩
abbrev main_cst_21 : Ref sig .tc := ⟨.hbm, 128, rfl⟩
abbrev main_v93 : Ref sig .tc := ⟨.hbm, 129, rfl⟩
abbrev main_v94 : Ref sig .tc := ⟨.hbm, 130, rfl⟩
abbrev main_v95 : Ref sig .tc := ⟨.hbm, 131, rfl⟩
abbrev main_v96 : Ref sig .tc := ⟨.hbm, 132, rfl⟩
abbrev main_v97 : Ref sig .tc := ⟨.hbm, 133, rfl⟩
abbrev main_v98 : Ref sig .tc := ⟨.hbm, 134, rfl⟩
abbrev main_v99 : Ref sig .tc := ⟨.hbm, 135, rfl⟩
abbrev main_v100 : Ref sig .tc := ⟨.hbm, 136, rfl⟩
abbrev main_cst_22 : Ref sig .tc := ⟨.hbm, 137, rfl⟩
abbrev main_v101 : Ref sig .tc := ⟨.hbm, 138, rfl⟩
abbrev main_v102 : Ref sig .tc := ⟨.hbm, 139, rfl⟩
abbrev main_cst_23 : Ref sig .tc := ⟨.hbm, 140, rfl⟩
abbrev main_v103 : Ref sig .tc := ⟨.hbm, 141, rfl⟩
abbrev main_v104 : Ref sig .tc := ⟨.hbm, 142, rfl⟩

abbrev nD : Nat := 1
abbrev τ : Topo := Topo.v7x

variable {F : FTy → Type} [FloatOps F]

class Facts₀ : Prop where
  slices_S2x3200000_S1x3200000_0_0 : S2x3200000.Slices ![0, 0] S1x3200000
  shapeCasts_S1x3200000_S3200000 : S1x3200000.ShapeCasts S3200000
  concatenates_S3200000_S100000_S3300000_d0 : Shape.Concatenates [S3200000, S100000] S3300000 0
  slices_S2x3200000_S1x3200000_1_0 : S2x3200000.Slices ![1, 0] S1x3200000
  bcast_S_S3300000 : S_.BroadcastsInDim S3300000 (![] : Fin 0 → Fin S3300000.rank)
  bcast_S_S100000 : S_.BroadcastsInDim S100000 (![] : Fin 0 → Fin S100000.rank)
  bcast_S3300000_S3300000x1_0 : S3300000.BroadcastsInDim S3300000x1 (![0] : Fin 1 → Fin S3300000x1.rank)
  bcast_S3300000x1_S3300000x16_0_1 : S3300000x1.BroadcastsInDim S3300000x16 (![0, 1] : Fin 2 → Fin S3300000x16.rank)
  bcast_S_S100000x16 : S_.BroadcastsInDim S100000x16 (![] : Fin 0 → Fin S100000x16.rank)
  bcast_S16_S1x16_1 : S16.BroadcastsInDim S1x16 (![1] : Fin 1 → Fin S1x16.rank)
  bcast_S1x16_S100000x16_0_1 : S1x16.BroadcastsInDim S100000x16 (![0, 1] : Fin 2 → Fin S100000x16.rank)
  bcast_S3300000x1_S3300000x8_0_1 : S3300000x1.BroadcastsInDim S3300000x8 (![0, 1] : Fin 2 → Fin S3300000x8.rank)
  bcast_S_S100000x8 : S_.BroadcastsInDim S100000x8 (![] : Fin 0 → Fin S100000x8.rank)
  bcast_S8_S1x8_1 : S8.BroadcastsInDim S1x8 (![1] : Fin 1 → Fin S1x8.rank)
  bcast_S1x8_S100000x8_0_1 : S1x8.BroadcastsInDim S100000x8 (![0, 1] : Fin 2 → Fin S100000x8.rank)
  dot_S100000x128_S128x16_S100000x16_1_0_0_1_n_n_wf : DotDims.WF S100000x128 S128x16 S100000x16 [1] [0] [0] [1] [] []
  scatter_S100000_S3300000x1_S3300000_n_0_0_1_wf : ScatterDims.WF S100000 S3300000x1 S3300000 [] [0] [0] 1
  gather_S100000_S3300000x1_S3300000_n_0_n_n_0_1_1_wf : GatherDims.WF S100000 S3300000x1 S3300000 [] [0] [] [0] [] 1 ![1]
  gather_S100000x16_S3300000x1_S3300000x16_1_0_n_n_0_1_116_wf : GatherDims.WF S100000x16 S3300000x1 S3300000x16 [1] [0] [] [0] [] 1 ![1, 16]
  scatter_S100000x16_S3300000x1_S3300000x16_1_0_0_1_wf : ScatterDims.WF S100000x16 S3300000x1 S3300000x16 [1] [0] [0] 1
  dot_S100000x16_S16x8_S100000x8_1_0_0_1_n_n_wf : DotDims.WF S100000x16 S16x8 S100000x8 [1] [0] [0] [1] [] []
  gather_S100000x8_S3300000x1_S3300000x8_1_0_n_n_0_1_18_wf : GatherDims.WF S100000x8 S3300000x1 S3300000x8 [1] [0] [] [0] [] 1 ![1, 8]
  scatter_S100000x8_S3300000x1_S3300000x8_1_0_0_1_wf : ScatterDims.WF S100000x8 S3300000x1 S3300000x8 [1] [0] [0] 1

variable [Facts₀]

def dot_S100000x128_S128x16_S100000x16_1_0_0_1_n_n : DotDims S100000x128 S128x16 S100000x16 where
  lhsContracting := [1]
  rhsContracting := [0]
  lhsNonContracting := [0]
  rhsNonContracting := [1]
  lhsBatch := []
  rhsBatch := []
  wf := dot_S100000x128_S128x16_S100000x16_1_0_0_1_n_n_wf
def scatter_S100000_S3300000x1_S3300000_n_0_0_1 : ScatterDims S100000 S3300000x1 S3300000 where
  updateWindowDims := []
  insertedWindowDims := [0]
  scatterDimsToOperandDims := [0]
  indexVectorDim := 1
  wf := scatter_S100000_S3300000x1_S3300000_n_0_0_1_wf
def gather_S100000_S3300000x1_S3300000_n_0_n_n_0_1_1 : GatherDims S100000 S3300000x1 S3300000 where
  offsetDims := []
  collapsedSliceDims := [0]
  operandBatchingDims := []
  startIndicesBatchingDims := []
  startIndexMap := [0]
  indexVectorDim := 1
  sliceSizes := ![1]
  wf := gather_S100000_S3300000x1_S3300000_n_0_n_n_0_1_1_wf
def gather_S100000x16_S3300000x1_S3300000x16_1_0_n_n_0_1_116 : GatherDims S100000x16 S3300000x1 S3300000x16 where
  offsetDims := [1]
  collapsedSliceDims := [0]
  operandBatchingDims := []
  startIndicesBatchingDims := []
  startIndexMap := [0]
  indexVectorDim := 1
  sliceSizes := ![1, 16]
  wf := gather_S100000x16_S3300000x1_S3300000x16_1_0_n_n_0_1_116_wf
def scatter_S100000x16_S3300000x1_S3300000x16_1_0_0_1 : ScatterDims S100000x16 S3300000x1 S3300000x16 where
  updateWindowDims := [1]
  insertedWindowDims := [0]
  scatterDimsToOperandDims := [0]
  indexVectorDim := 1
  wf := scatter_S100000x16_S3300000x1_S3300000x16_1_0_0_1_wf
def dot_S100000x16_S16x8_S100000x8_1_0_0_1_n_n : DotDims S100000x16 S16x8 S100000x8 where
  lhsContracting := [1]
  rhsContracting := [0]
  lhsNonContracting := [0]
  rhsNonContracting := [1]
  lhsBatch := []
  rhsBatch := []
  wf := dot_S100000x16_S16x8_S100000x8_1_0_0_1_n_n_wf
def gather_S100000x8_S3300000x1_S3300000x8_1_0_n_n_0_1_18 : GatherDims S100000x8 S3300000x1 S3300000x8 where
  offsetDims := [1]
  collapsedSliceDims := [0]
  operandBatchingDims := []
  startIndicesBatchingDims := []
  startIndexMap := [0]
  indexVectorDim := 1
  sliceSizes := ![1, 8]
  wf := gather_S100000x8_S3300000x1_S3300000x8_1_0_n_n_0_1_18_wf
def scatter_S100000x8_S3300000x1_S3300000x8_1_0_0_1 : ScatterDims S100000x8 S3300000x1 S3300000x8 where
  updateWindowDims := [1]
  insertedWindowDims := [0]
  scatterDimsToOperandDims := [0]
  indexVectorDim := 1
  wf := scatter_S100000x8_S3300000x1_S3300000x8_1_0_0_1_wf

class Facts : Prop extends Facts₀ where

variable [Facts]
-- ==== Proof.KernelRun.lean ====
/-
  The kernel's run, with its result named.

  The kernel program is nine stretches in a row: host operations, then the first projection's region, host operations
  (the first aggregation), the bias-and-rectifier region, the second projection's region, host operations (the second
  aggregation) and the bias-and-logistic region. Every execution ends; the contents of every buffer at each boundary
  between stretches are a fold from the launch memory (a host stretch applies its operations, a region replaces its
  arrays by what its write-backs leave), and the final state holds the last boundary's contents. Read at the result
  buffer, this names the program's result: the last fold at that buffer. The argument arrays end as launched.
-/
import proofs.«115920_j59339268161711_1_alg».proof.Proof.Gen.KernelIdeal.Frame

set_option maxRecDepth 16384

noncomputable section

namespace Cert.KernelIdeal.Whole

open Cert.KernelIdeal Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every execution of the kernel program ends with the result buffer at the last boundary's contents and the argument
    arrays as launched. -/
theorem run_fold : θ_run defs (onTc (τ := τ) (main (F := F))) ⟨m, fun _ => 0, ρ⟩ (fun r => ∀ c : Dev nD,
      r.2.mem ((c.tc : Thread nD τ).loc main_v63) = W9 m ρ c (Proc.devRef .tc main_v63)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W9 m ρ c b)
    (hfin := fun c s' => by
      iintro ⟨⟨Hh, -⟩, HSI⟩
      unfold StableHlo.held
      imodintro
      iapply (pointsTo_read_all (Pipeline.ucRefs τ sig) (fun b => (((c : Thread nD τ)).1, b)) (W9 m ρ c) s')
      isplitl [Hh] <;> iassumption)
    (hQ := fun s h c =>
      ⟨h c _ (mem_uc main_v63 (by decide)),
       (h c _ (mem_uc main_arg0 (by decide))).trans (W9_main_arg0 m ρ c),
       (h c _ (mem_uc main_arg1 (by decide))).trans (W9_main_arg1 m ρ c),
       (h c _ (mem_uc main_arg2 (by decide))).trans (W9_main_arg2 m ρ c),
       (h c _ (mem_uc main_arg3 (by decide))).trans (W9_main_arg3 m ρ c),
       (h c _ (mem_uc main_arg4 (by decide))).trans (W9_main_arg4 m ρ c),
       (h c _ (mem_uc main_arg5 (by decide))).trans (W9_main_arg5 m ρ c)⟩)

end Cert.KernelIdeal.Whole

end
-- ==== Proof.LibConcatPair.lean ====
/-
  A concatenate of two parts as a function of the two parts.

  The concatenate operation takes its parts as a list of arrays, each paired with its shape, and a side condition
  stated over that list's shapes. A statement about one part therefore cannot be rewritten in place: the side
  condition's type mentions the list. Read as a function of the two parts, with the side condition stated over the two
  shapes alone, the parts are ordinary arguments: a term that evaluates the buffers a program's operations write, one
  rewriting pass at a time, goes on through a concatenate's operands instead of stopping at it.
-/
import Idealize.ShloMosaic.PureOps

namespace Cert.LibConcatPair

open Idealize.ShloMosaic

/-- The concatenate of two parts along axis `a` of the result shape `t`, as a function of the parts. -/
def concat2 {α : Type} (t : Shape) (a : Fin t.rank) (s₁ s₂ : Shape) (h : Shape.Concatenates [s₁, s₂] t a)
    (x₁ : s₁.Idx → α) (x₂ : s₂.Idx → α) : t.Idx → α := concatenate t a [⟨s₁, x₁⟩, ⟨s₂, x₂⟩] h

/-- A concatenate of a literal list of two parts is that function of them. -/
theorem concatenate_pair {α : Type} (t : Shape) (a : Fin t.rank) (s₁ s₂ : Shape) (x₁ : s₁.Idx → α) (x₂ : s₂.Idx → α)
    (h : Shape.Concatenates [s₁, s₂] t a) : concatenate t a [⟨s₁, x₁⟩, ⟨s₂, x₂⟩] h = concat2 t a s₁ s₂ h x₁ x₂ := rfl

end Cert.LibConcatPair
-- ==== Proof.Network.lean ====
/-
  A two-layer graph convolution as functions of whole arrays.

  The graph has 100000 nodes and 3200000 directed edges, given as a [2, 3200000] array of node numbers: row 0 holds each
  edge's source, row 1 its target. One self-loop per node is appended, so there are 3300000 edges in all. The degree of a
  node is the number of edges arriving at it; the weight of an edge from s to t is d(s) · d(t), where d is the inverse
  square root of the degree (of the degree or 1e-12, whichever is larger, and zero where the degree is not positive). One
  layer maps node features h to  agg (h · W) + b,  where agg sums, for every node t, the rows (h · W)(s) scaled by the
  edge's weight over the edges s → t. The network is  logistic (layer₂ (relu (layer₁ x))).

  Each function below is spelled with the host operations the reference program uses, in its order, so that the
  reference's result is this term by unfolding; node numbers below zero are wrapped by adding 100000 before a gather, as
  indexing an array by a negative number counts from its end.
-/
import proofs.«115920_j59339268161711_1_alg».proof.Proof.Gen.ReferenceIdeal
import proofs.«115920_j59339268161711_1_alg».proof.Proof.LibConcatPair
import Idealize.ShloMosaic.PureOps.Ideal

noncomputable section

namespace Cert.Gcn

open Idealize.ShloMosaic Cert.ReferenceIdeal Cert.ReferenceIdeal.Gen Cert.LibConcatPair

variable {F : FTy → Type} [FloatOps F]

/-- One row of the edge list followed by the node numbers 0 … 99999: that end of every edge, then of every self-loop. -/
def ends (off : Fin 2 → Nat) (h : S2x3200000.Slices off S1x3200000) (ei : IVec S2x3200000 32) : IVec S3300000 32 :=
  concat2 S3300000 0 S3200000 S100000 concatenates_S3200000_S100000_S3300000_d0
    (shapeCast S3200000 (extractStridedSlice S1x3200000 off ei h) shapeCasts_S1x3200000_S3200000) (iotaInDim S100000 32 0)

/-- The source of every edge and self-loop. -/
def sources (ei : IVec S2x3200000 32) : IVec S3300000 32 := ends ![0, 0] slices_S2x3200000_S1x3200000_0_0 ei

/-- The target of every edge and self-loop. -/
def targets (ei : IVec S2x3200000 32) : IVec S3300000 32 := ends ![1, 0] slices_S2x3200000_S1x3200000_1_0 ei

/-- A node number below zero counts from the end: 100000 is added to it. -/
def wrap (v : IVec S3300000 32) : IVec S3300000 32 :=
  select (cmpi .slt v (broadcastInDim S3300000 ![] bcast_S_S3300000 (constantI S_ 32 0#32)))
    (addi v (broadcastInDim S3300000 ![] bcast_S_S3300000 (constantI S_ 32 100000#32))) v

/-- The number of edges and self-loops arriving at each node: ones added up at the targets. -/
def degree (tgt : IVec S3300000 32) : FVec F S100000 .f32 :=
  Host.scatterAdd scatter_S100000_S3300000x1_S3300000_n_0_0_1
    (broadcastInDim S100000 ![] bcast_S_S100000 (constant S_ .f32 0x00000000#32))
    (broadcastInDim S3300000x1 ![0] bcast_S3300000_S3300000x1_0 tgt)
    (broadcastInDim S3300000 ![] bcast_S_S3300000 (constant S_ .f32 0x3F800000#32))

/-- The inverse square root of a degree, of 1e-12 at least, and zero where the degree is not positive. -/
def invSqrt (deg : FVec F S100000 .f32) : FVec F S100000 .f32 :=
  select (cmpf .ogt deg (broadcastInDim S100000 ![] bcast_S_S100000 (constant S_ .f32 0x00000000#32)))
    (Host.rsqrt (maximumf deg (broadcastInDim S100000 ![] bcast_S_S100000 (constant S_ .f32 0x2B8CBCCC#32))))
    (broadcastInDim S100000 ![] bcast_S_S100000 (id (constant S_ .f32 0x00000000#32)))

/-- The weight of every edge: the product of the inverse square roots of its two ends' degrees. -/
def edgeWeight (src tgt : IVec S3300000 32) : FVec F S3300000 .f32 :=
  mulf
    (Host.gather gather_S100000_S3300000x1_S3300000_n_0_n_n_0_1_1 (invSqrt (degree tgt))
      (broadcastInDim S3300000x1 ![0] bcast_S3300000_S3300000x1_0 (wrap src)))
    (Host.gather gather_S100000_S3300000x1_S3300000_n_0_n_n_0_1_1 (invSqrt (degree tgt))
      (broadcastInDim S3300000x1 ![0] bcast_S3300000_S3300000x1_0 (wrap tgt)))

/-- The first layer's aggregation: every node sums the weighted rows of its incoming edges' sources (16 features). -/
def aggregate16 (xw : FVec F S100000x16 .f32) (src tgt : IVec S3300000 32) (wgt : FVec F S3300000 .f32) : FVec F S100000x16 .f32 :=
  Host.scatterAdd scatter_S100000x16_S3300000x1_S3300000x16_1_0_0_1
    (broadcastInDim S100000x16 ![] bcast_S_S100000x16 (constant S_ .f32 0x00000000#32))
    (broadcastInDim S3300000x1 ![0] bcast_S3300000_S3300000x1_0 tgt)
    (mulf
      (Host.gather gather_S100000x16_S3300000x1_S3300000x16_1_0_n_n_0_1_116 xw
        (broadcastInDim S3300000x1 ![0] bcast_S3300000_S3300000x1_0 (wrap src)))
      (broadcastInDim S3300000x16 ![0, 1] bcast_S3300000x1_S3300000x16_0_1
        (broadcastInDim S3300000x1 ![0] bcast_S3300000_S3300000x1_0 wgt)))

/-- The second layer's aggregation (8 features). -/
def aggregate8 (xw : FVec F S100000x8 .f32) (src tgt : IVec S3300000 32) (wgt : FVec F S3300000 .f32) : FVec F S100000x8 .f32 :=
  Host.scatterAdd scatter_S100000x8_S3300000x1_S3300000x8_1_0_0_1
    (broadcastInDim S100000x8 ![] bcast_S_S100000x8 (constant S_ .f32 0x00000000#32))
    (broadcastInDim S3300000x1 ![0] bcast_S3300000_S3300000x1_0 tgt)
    (mulf
      (Host.gather gather_S100000x8_S3300000x1_S3300000x8_1_0_n_n_0_1_18 xw
        (broadcastInDim S3300000x1 ![0] bcast_S3300000_S3300000x1_0 (wrap src)))
      (broadcastInDim S3300000x8 ![0, 1] bcast_S3300000x1_S3300000x8_0_1
        (broadcastInDim S3300000x1 ![0] bcast_S3300000_S3300000x1_0 wgt)))

/-- The first projection: features times the first weight matrix. -/
def project1 (x : FVec F S100000x128 .f32) (w : FVec F S128x16 .f32) : FVec F S100000x16 .f32 :=
  Host.dotGeneral dot_S100000x128_S128x16_S100000x16_1_0_0_1_n_n none x w

/-- The second projection. -/
def project2 (h : FVec F S100000x16 .f32) (w : FVec F S16x8 .f32) : FVec F S100000x8 .f32 :=
  Host.dotGeneral dot_S100000x16_S16x8_S100000x8_1_0_0_1_n_n none h w

/-- A row of 16 biases added to every node's features. -/
def addRow16 (a : FVec F S100000x16 .f32) (r : FVec F S1x16 .f32) : FVec F S100000x16 .f32 :=
  addf a (broadcastInDim S100000x16 ![0, 1] bcast_S1x16_S100000x16_0_1 r)

/-- A row of 8 biases added to every node's features. -/
def addRow8 (a : FVec F S100000x8 .f32) (r : FVec F S1x8 .f32) : FVec F S100000x8 .f32 :=
  addf a (broadcastInDim S100000x8 ![0, 1] bcast_S1x8_S100000x8_0_1 r)

/-- The rectifier: the larger of each entry and zero. -/
def relu (a : FVec F S100000x16 .f32) : FVec F S100000x16 .f32 :=
  maximumf a (broadcastInDim S100000x16 ![] bcast_S_S100000x16 (constant S_ .f32 0x00000000#32))

/-- The logistic function 1 / (1 + e^(-a)) of each entry. -/
def logistic (a : FVec F S100000x8 .f32) : FVec F S100000x8 .f32 :=
  Host.divf (broadcastInDim S100000x8 ![] bcast_S_S100000x8 (constant S_ .f32 0x3F800000#32))
    (addf (broadcastInDim S100000x8 ![] bcast_S_S100000x8 (constant S_ .f32 0x3F800000#32)) (Host.exp (Host.negf a)))

/-- The hidden features: the rectified first layer. -/
def hidden (x : FVec F S100000x128 .f32) (ei : IVec S2x3200000 32) (w1 : FVec F S128x16 .f32) (b1 : FVec F S16 .f32) :
    FVec F S100000x16 .f32 :=
  relu (addRow16 (aggregate16 (project1 x w1) (sources ei) (targets ei) (edgeWeight (sources ei) (targets ei)))
    (broadcastInDim S1x16 ![1] bcast_S16_S1x16_1 b1))

/-- The network's output. -/
def net (x : FVec F S100000x128 .f32) (ei : IVec S2x3200000 32) (w1 : FVec F S128x16 .f32) (b1 : FVec F S16 .f32)
    (w2 : FVec F S16x8 .f32) (b2 : FVec F S8 .f32) : FVec F S100000x8 .f32 :=
  logistic (addRow8 (aggregate8 (project2 (hidden x ei w1 b1) w2) (sources ei) (targets ei) (edgeWeight (sources ei) (targets ei)))
    (broadcastInDim S1x8 ![1] bcast_S8_S1x8_1 b2))

end Cert.Gcn

end
-- ==== Proof.LibPlainDot.lean ====
/-
  A plain matrix product read at coordinates. For dimension numbers that contract the left operand's columns with
  the right operand's rows and have no batch axis, a product of an `[M, K]` by a `[K, N]` matrix into a zero accumulator
  is, at the extended reals and at `(p, q)`, the sum over `k` of `l (p, k) · r (k, q)`.
-/
import Idealize.ShloMosaic.PureOps.Ideal.Laws
import Idealize.ShloMosaic.Lib.ValueIdx

noncomputable section

namespace Cert.LibPlainDot

open Idealize.ShloMosaic Idealize.ShloMosaic.ValueIdx
open scoped BigOperators

variable {M K N : Nat} (d : DotDims ⟨2, ![M, K]⟩ ⟨2, ![K, N]⟩ ⟨2, ![M, N]⟩)

/-- The left operand's row coordinate is the result's row. -/
theorem lhsIdx_row (hlb : d.lhsBatch = []) (hln : d.lhsNonContracting = [0]) (j : (⟨2, ![M, N]⟩ : Shape).Idx) (k : d.contr.Idx) :
    (d.lhsIdx j k 0).val = (j 0).val := by
  have hb : (0 : Fin 2) ∉ d.lhsBatch := by rw [hlb]; exact List.not_mem_nil
  have hn : (0 : Fin 2) ∈ d.lhsNonContracting := by rw [hln]; exact List.mem_singleton.mpr rfl
  unfold DotDims.lhsIdx
  rw [dif_neg hb, dif_pos hn]
  simp only [Fin.val_cast]
  have key : ∀ (p q : Nat) (hp : p < 2) (hq : q < 2), p = q → (j ⟨p, hp⟩).val = (j ⟨q, hq⟩).val :=
    fun p q hp hq h => by subst h; rfl
  exact key _ _ _ _ (by simp [hlb, hln])

/-- The right operand's column coordinate is the result's column. -/
theorem rhsIdx_col (hlb : d.lhsBatch = []) (hrb : d.rhsBatch = []) (hln : d.lhsNonContracting = [0]) (hrn : d.rhsNonContracting = [1])
    (j : (⟨2, ![M, N]⟩ : Shape).Idx) (k : d.contr.Idx) : (d.rhsIdx j k 1).val = (j 1).val := by
  have hb : (1 : Fin 2) ∉ d.rhsBatch := by rw [hrb]; exact List.not_mem_nil
  have hn : (1 : Fin 2) ∈ d.rhsNonContracting := by rw [hrn]; exact List.mem_singleton.mpr rfl
  unfold DotDims.rhsIdx
  rw [dif_neg hb, dif_pos hn]
  simp only [Fin.val_cast]
  have key : ∀ (p q : Nat) (hp : p < 2) (hq : q < 2), p = q → (j ⟨p, hp⟩).val = (j ⟨q, hq⟩).val :=
    fun p q hp hq h => by subst h; rfl
  exact key _ _ _ _ (by simp [hlb, hln, hrn])

/-- The product at `(p, q)`. -/
theorem matmul_plain_apply {φ₁ φ₂ : FTy} (hlc : d.lhsContracting = [1]) (hrc : d.rhsContracting = [0])
    (hlb : d.lhsBatch = []) (hrb : d.rhsBatch = []) (hln : d.lhsNonContracting = [0]) (hrn : d.rhsNonContracting = [1])
    (prec : Option ContractPrecision) (l : FVec Ideal ⟨2, ![M, K]⟩ φ₁) (r : FVec Ideal ⟨2, ![K, N]⟩ φ₂) (p : Fin M) (q : Fin N) :
    FloatOps.matmul d prec l r (constant ⟨2, ![M, N]⟩ .f32 0x00000000#32) (ix2 p q) = ∑ k : Fin K, l (ix2 p k) * r (ix2 k q) := by
  have hr : d.contr.rank = 1 := by rw [d.rank_contr, hlc]; rfl
  have hs : d.contr.size ⟨0, by omega⟩ = K := by
    rw [d.size_contr 0 (by rw [hlc]; exact Nat.one_pos)]
    simp [hlc]
  rw [Ideal.matmul_constant_zero_apply, ← Equiv.sum_comp (contrEquiv1 d K hr hs).symm]
  refine Finset.sum_congr rfl fun k _ => ?_
  have e0 : (((contrEquiv1 d K hr hs).symm k) ⟨0, by omega⟩ : ℕ) = k.val := contrEquiv1_symm_val d K hr hs k
  have hl : d.lhsIdx (ix2 p q) ((contrEquiv1 d K hr hs).symm k) = ix2 p k := by
    refine funext fun a => Fin.ext ?_
    match a with
    | ⟨0, _⟩ => exact lhsIdx_row d hlb hln (ix2 p q) _
    | ⟨1, _⟩ => exact (d.lhsIdx_val_of_single (cl := 1) hlc (ix2 p q) _).trans e0
  have hrr : d.rhsIdx (ix2 p q) ((contrEquiv1 d K hr hs).symm k) = ix2 k q := by
    refine funext fun a => Fin.ext ?_
    match a with
    | ⟨0, _⟩ => exact (d.rhsIdx_val_of_single (cr := 0) hrc (ix2 p q) _).trans e0
    | ⟨1, _⟩ => exact rhsIdx_col d hlb hrb hln hrn (ix2 p q) _
  rw [hl, hrr]

end Cert.LibPlainDot

end
-- ==== Proof.LibHostDense.lean ====
/-
  A dense layer of a host program read at coordinates, at the extended reals.

  A `dot_general` of an `[M, K]` array by a `[K, N]` matrix that contracts the left operand's columns with the right
  operand's rows and has no batch axis is, at `(p, q)`, the sum over `k` of `l (p, k) · W (k, q)`: the product into a zero
  accumulator and the host's product are one sum. A length-`N` vector laid out as the row `[1, N]` (`broadcast_in_dim`
  along axis 1) and repeated over `M` rows reads, at `(p, q)`, the vector at `q`; a scalar repeated over an array reads the
  scalar at every index. Together they read a rectified dense layer, `max (l · W + b) c`, at `(p, q)`.
-/
import proofs.«115920_j59339268161711_1_alg».proof.Proof.LibPlainDot
import Idealize.ShloMosaic.Lib.Pipeline.Value

noncomputable section

namespace Cert.LibHostDense

open Idealize.ShloMosaic Idealize.ShloMosaic.ValueIdx
open scoped BigOperators

variable {α : Type}

/-- The host's product at `(p, q)`. -/
theorem hostDot_plain_apply {M K N : ℕ} (d : DotDims ⟨2, ![M, K]⟩ ⟨2, ![K, N]⟩ ⟨2, ![M, N]⟩) {φ₁ φ₂ : FTy}
    (hlc : d.lhsContracting = [1]) (hrc : d.rhsContracting = [0])
    (hlb : d.lhsBatch = []) (hrb : d.rhsBatch = []) (hln : d.lhsNonContracting = [0]) (hrn : d.rhsNonContracting = [1])
    (prec : Option ContractPrecision) (l : FVec Ideal ⟨2, ![M, K]⟩ φ₁) (r : FVec Ideal ⟨2, ![K, N]⟩ φ₂) (p : Fin M) (q : Fin N) :
    Host.dotGeneral d prec l r (ix2 p q) = ∑ k : Fin K, l (ix2 p k) * r (ix2 k q) := by
  show FloatOps.dotGeneral d prec .single l r (ix2 p q) = _
  rw [Ideal.dotGeneral_apply, ← Ideal.matmul_constant_zero_apply d prec]
  exact Cert.LibPlainDot.matmul_plain_apply d hlc hrc hlb hrb hln hrn prec l r p q

/-- A length-`n` vector laid out as the row `[1, n]` reads, at `(0, q)`, the vector at `q`. -/
theorem bcastRow_apply {n : ℕ} (x : (⟨1, ![n]⟩ : Shape).Idx → α)
    (h : (⟨1, ![n]⟩ : Shape).BroadcastsInDim ⟨2, ![1, n]⟩ (![1] : Fin 1 → Fin 2)) (u : Fin 1) (q : Fin n) :
    broadcastInDim ⟨2, ![1, n]⟩ ![1] h x (ix2 u q) = x (ix1 q) := by
  refine broadcastInDim_apply _ h x (ix2 u q) (ix1 q) fun a => ?_
  match a with
  | ⟨0, _⟩ =>
    show q.val = if n = 1 then 0 else q.val
    split
    · have := q.isLt; omega
    · rfl

/-- A row `[1, n]` repeated over `m` rows reads, at `(p, q)`, the row at `q`. -/
theorem bcastRows_apply {m n : ℕ} (x : (⟨2, ![1, n]⟩ : Shape).Idx → α)
    (h : (⟨2, ![1, n]⟩ : Shape).BroadcastsInDim ⟨2, ![m, n]⟩ (![0, 1] : Fin 2 → Fin 2)) (p : Fin m) (q : Fin n) :
    broadcastInDim ⟨2, ![m, n]⟩ ![0, 1] h x (ix2 p q) = x (ix2 (0 : Fin 1) q) := by
  refine broadcastInDim_apply _ h x (ix2 p q) (ix2 (0 : Fin 1) q) fun a => ?_
  match a with
  | ⟨0, _⟩ => show 0 = if (1 : ℕ) = 1 then 0 else p.val; rw [if_pos rfl]
  | ⟨1, _⟩ =>
    show q.val = if n = 1 then 0 else q.val
    split
    · have := q.isLt; omega
    · rfl

/-- A scalar repeated over an array reads the scalar at every index. -/
theorem bcastScalar_apply {s : Shape} (x : (⟨0, ![]⟩ : Shape).Idx → α)
    (h : (⟨0, ![]⟩ : Shape).BroadcastsInDim s (![] : Fin 0 → Fin s.rank)) (i : s.Idx) :
    broadcastInDim s ![] h x i = x ix0 :=
  broadcastInDim_apply _ h x i ix0 fun a => a.elim0

/-- A rectified dense layer of a host program at `(p, q)`: the product, the bias row repeated over the rows, the
    maximum with a repeated scalar constant. -/
theorem hostDenseMax_apply {M K N : ℕ} (d : DotDims ⟨2, ![M, K]⟩ ⟨2, ![K, N]⟩ ⟨2, ![M, N]⟩) {φ₁ φ₂ : FTy}
    (hlc : d.lhsContracting = [1]) (hrc : d.rhsContracting = [0])
    (hlb : d.lhsBatch = []) (hrb : d.rhsBatch = []) (hln : d.lhsNonContracting = [0]) (hrn : d.rhsNonContracting = [1])
    (prec : Option ContractPrecision) (l : FVec Ideal ⟨2, ![M, K]⟩ φ₁) (W : FVec Ideal ⟨2, ![K, N]⟩ φ₂)
    (b : FVec Ideal ⟨1, ![N]⟩ .f32)
    (h1 : (⟨1, ![N]⟩ : Shape).BroadcastsInDim ⟨2, ![1, N]⟩ (![1] : Fin 1 → Fin 2))
    (h2 : (⟨2, ![1, N]⟩ : Shape).BroadcastsInDim ⟨2, ![M, N]⟩ (![0, 1] : Fin 2 → Fin 2))
    (h0 : (⟨0, ![]⟩ : Shape).BroadcastsInDim ⟨2, ![M, N]⟩ (![] : Fin 0 → Fin 2)) (w : BitVec 32) (p : Fin M) (q : Fin N) :
    maximumf (addf (Host.dotGeneral d prec l W)
        (broadcastInDim ⟨2, ![M, N]⟩ ![0, 1] h2 (broadcastInDim ⟨2, ![1, N]⟩ ![1] h1 b)))
      (broadcastInDim ⟨2, ![M, N]⟩ ![] h0 (constant (F := Ideal) ⟨0, ![]⟩ .f32 w)) (ix2 p q)
      = max ((∑ k : Fin K, l (ix2 p k) * W (ix2 k q)) + b (ix1 q)) (Ideal.ofBits .f32 w) := by
  rw [maximumf_apply, addf_apply, hostDot_plain_apply d hlc hrc hlb hrb hln hrn, bcastRows_apply, bcastRow_apply,
    bcastScalar_apply, constant_apply]

end Cert.LibHostDense

end
-- ==== Proof.Project1.lean ====
/-
  The first projection, tile by tile.

  The kernel computes the product of the node features with the first weight matrix in ten tiles of 10000 rows: grid
  point t loads rows 10000·t … 10000·t + 9999 of the features and the whole weight matrix, multiplies them into a zero
  accumulator and writes the product back as the same rows of the result. At the extended reals a change of float format is
  the identity, so entry (p, q) of tile t is the sum over k of x (10000·t + p, k) · W (k, q), which is entry
  (10000·t + p, q) of the whole product. The ten tiles cover the 100000 rows, so the array the region leaves is the whole
  product of the two arrays it found.
-/
import proofs.«115920_j59339268161711_1_alg».proof.Proof.Gen.KernelIdeal.Frame
import proofs.«115920_j59339268161711_1_alg».proof.Proof.Gen.ReferenceIdeal
import proofs.«115920_j59339268161711_1_alg».proof.Proof.LibHostDense
import Idealize.ShloMosaic.Lib.Pipeline.Value
import Idealize.ShloMosaic.Lib.ValueIdx

noncomputable section

open Idealize.ShloMosaic Idealize.ShloMosaic.TcCoe Idealize.SL.Sem Idealize.ShloMosaic.ValueIdx
open Idealize.ShloMosaic.Pipeline (Dat)
open scoped BigOperators

namespace Cert.KernelIdeal.Project1

open Cert.KernelIdeal Cert.KernelIdeal.Gen

variable (V : (c : Dev nD) → (b : Ref sig .tc) → Buf (Elt Ideal) ((c : Thread nD τ).loc b))

theorem offsets_zero : (![0, 0] : Fin 2 → Nat) = fun _ => 0 := funext fun a => by fin_cases a <;> rfl

/-- The whole product of a [100000, 128] array by a [128, 16] matrix, as the host computes it. -/
abbrev product (x : FVec Ideal S100000x128 .f32) (w : FVec Ideal S128x16 .f32) : FVec Ideal S100000x16 .f32 :=
  Host.dotGeneral Cert.ReferenceIdeal.dot_S100000x128_S128x16_S100000x16_1_0_0_1_n_n none x w

/-- A tile's product at (p, q): the sum over k of the tile's row p against the matrix's column q. -/
theorem tile_apply (x0 : Vec Ideal S10000x128 .f32) (x1 : Vec Ideal S128x16 .f32) (p : Fin 10000) (q : Fin 16) :
    k0_pay1 x0 x1 (ix2 p q) = ∑ k : Fin 128, x0 (ix2 p k) * x1 (ix2 k q) := by
  unfold k0_pay1
  exact Cert.LibPlainDot.matmul_plain_apply dot_S10000x128_S128x16_S10000x16_1_0_0_1_n_n rfl rfl rfl rfl rfl rfl none _ _ p q

/-- The whole product at (P, q). -/
theorem product_apply (x : FVec Ideal S100000x128 .f32) (w : FVec Ideal S128x16 .f32) (P : Fin 100000) (q : Fin 16) :
    product x w (ix2 P q) = ∑ k : Fin 128, x (ix2 P k) * w (ix2 k q) :=
  Cert.LibHostDense.hostDot_plain_apply Cert.ReferenceIdeal.dot_S100000x128_S128x16_S100000x16_1_0_0_1_n_n rfl rfl rfl rfl rfl rfl none x w P q

/-- A tile holding rows T·10000 … of x, multiplied by a copy of w, is the same rows of the whole product. -/
theorem tile_eq_product_rows (x : FVec Ideal S100000x128 .f32) (w : FVec Ideal S128x16 .f32)
    (x0 : Vec Ideal S10000x128 .f32) (x1 : Vec Ideal S128x16 .f32) (T : Nat)
    (h0 : ∀ (p : Fin 10000) (k : Fin 128) (P : Fin 100000), P.val = T * 10000 + p.val → x0 (ix2 p k) = x (ix2 P k))
    (h1 : ∀ (k : Fin 128) (q : Fin 16), x1 (ix2 k q) = w (ix2 k q))
    (j : S10000x16.Idx) (i : S100000x16.Idx) (hi0 : (i 0).val = T * 10000 + (j 0).val) (hi1 : (i 1).val = (j 1).val) :
    k0_pay1 x0 x1 j = product x w i := by
  obtain ⟨p, q, rfl⟩ : ∃ (p : Fin 10000) (q : Fin 16), j = ix2 p q := ⟨j 0, j 1, eq_ix2 j⟩
  obtain ⟨P, Q, rfl⟩ : ∃ (P : Fin 100000) (Q : Fin 16), i = ix2 P Q := ⟨i 0, i 1, eq_ix2 i⟩
  obtain rfl : Q = q := Fin.ext hi1
  rw [tile_apply, product_apply]
  exact Finset.sum_congr rfl fun k _ => by rw [h0 p k P hi0, h1 k Q]

/-- The printed index maps over the grid: the feature tile and the result tile move down one tile per point, the matrix
    stays. -/
theorem index_maps : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- The feature tile at point t is rows 10000·t … of the feature array the region found. -/
theorem rows_tile (c : Dev nD) (t : Fin cfg0.N) (p : Fin 10000) (k : Fin 128) (P : Fin 100000) (hP : P.val = t.val * 10000 + p.val) :
    (iblk0 V c 0 t : Vec Ideal S10000x128 .f32) (ix2 p k) = (V c main_arg0 : S100000x128.Idx → EReal) (ix2 P k) := by
  obtain ⟨e0, e1, -, -, -, -⟩ := index_maps t
  unfold iblk0
  rw [View.read_apply]
  show V c main_arg0 _ = V c main_arg0 _
  congr 1
  funext a
  apply Fin.ext
  match a with
  | ⟨0, _⟩ => show win0_0.index t (0 : Fin 2) * 10000 + 1 * p.val = P.val; rw [e0, hP]; omega
  | ⟨1, _⟩ => show win0_0.index t (1 : Fin 2) * 128 + 1 * k.val = k.val; rw [e1]; omega

/-- The matrix tile at every point is the whole matrix the region found. -/
theorem matrix_tile (c : Dev nD) (t : Fin cfg0.N) (k : Fin 128) (q : Fin 16) :
    (iblk0 V c 1 t : Vec Ideal S128x16 .f32) (ix2 k q) = (V c main_arg2 : S128x16.Idx → EReal) (ix2 k q) := by
  obtain ⟨-, -, e2, e3, -, -⟩ := index_maps t
  unfold iblk0
  rw [View.read_apply]
  show V c main_arg2 _ = V c main_arg2 _
  congr 1
  funext a
  apply Fin.ext
  match a with
  | ⟨0, _⟩ => show win0_1.index t (0 : Fin 2) * 128 + 1 * k.val = k.val; rw [e2]; omega
  | ⟨1, _⟩ => show win0_1.index t (1 : Fin 2) * 16 + 1 * q.val = q.val; rw [e3]; omega

/-- What point t writes back is tile t of the whole product. -/
theorem flushed_eq (c : Dev nD) (t : Fin cfg0.N) :
    (dat0 V c).flushed 2 t = ((cfg0.win 2).blk t).view.read (Elt Ideal) (product (V c main_arg0) (V c main_arg2)) := by
  show (cfg0.win 2).cut (grid0.coords t) ((dat0 V c).after 2 t) = _
  rw [after0_2]
  unfold out0_2
  rw [View.canon_unit_zero offsets_zero]
  simp only [View.ld_unit_zero (S := S10000x128) offsets_zero, View.ld_unit_zero (S := S128x16) offsets_zero]
  obtain ⟨-, -, -, -, e4, e5⟩ := index_maps t
  funext j
  rw [View.read_apply]
  refine tile_eq_product_rows (V c main_arg0) (V c main_arg2) (iblk0 V c 0 t) (iblk0 V c 1 t) t.val
    (fun p k P hP => rows_tile V c t p k P hP) (fun k q => matrix_tile V c t k q) j _ ?_ ?_
  · show win0_2.index t (0 : Fin 2) * 10000 + 1 * (j 0).val = t.val * 10000 + (j 0).val; rw [e4]; omega
  · show win0_2.index t (1 : Fin 2) * 16 + 1 * (j 1).val = (j 1).val; rw [e5]; omega

/-- An index of the result is in point t's tile iff its row is among the tile's rows. -/
theorem mem_tile (t : Fin cfg0.N) (i : S100000x16.Idx) :
    i ∈ ((cfg0.win 2).blk t).view.set ↔ ∀ a : Fin 2, win0_2.index t a * S10000x16.size a ≤ (i a).val ∧ (i a).val < win0_2.index t a * S10000x16.size a + S10000x16.size a := by
  show i ∈ ((View.whole main_v32).slice (win0_2.rect t)).set ↔ _
  rw [View.set_slice_whole, Rect.mem_set_unit]
  exact Iff.rfl

/-- Every row of the result is in some tile: row r is in tile r / 10000. -/
theorem covered (i : S100000x16.Idx) : ∃ t : Fin cfg0.N, (cfg0.win 2).flush t = true ∧ i ∈ ((cfg0.win 2).blk t).view.set := by
  have hi0 : (i 0).val < 100000 := (i 0).isLt
  have hi1 : (i 1).val < 16 := (i 1).isLt
  have hN : cfg0.N = 10 := N_0
  refine ⟨⟨(i 0).val / 10000, by rw [hN]; omega⟩, flush0_2 _, ?_⟩
  rw [mem_tile]
  obtain ⟨-, -, -, -, e4, e5⟩ := index_maps ⟨(i 0).val / 10000, by rw [hN]; omega⟩
  intro a
  match a with
  | ⟨0, _⟩ =>
    show win0_2.index _ (0 : Fin 2) * 10000 ≤ (i 0).val ∧ (i 0).val < win0_2.index _ (0 : Fin 2) * 10000 + 10000
    rw [e4]; show (i 0).val / 10000 * 10000 ≤ (i 0).val ∧ (i 0).val < (i 0).val / 10000 * 10000 + 10000; omega
  | ⟨1, _⟩ =>
    show win0_2.index _ (1 : Fin 2) * 16 ≤ (i 1).val ∧ (i 1).val < win0_2.index _ (1 : Fin 2) * 16 + 16
    rw [e5]; omega

/-- The array the region leaves: the whole product of the two arrays it found. -/
theorem array_eq (c : Dev nD) : (dat0 V c).arrAt 2 cfg0.N = product (V c main_arg0) (V c main_arg2) :=
  (dat0 V c).arrAt_eq_of_cover 2 (product (V c main_arg0) (V c main_arg2)) (fun t _ => flushed_eq V c t) covered

end Cert.KernelIdeal.Project1

end
-- ==== Proof.Rectify.lean ====
/-
  The first layer's bias and rectifier, tile by tile.

  The kernel adds the bias row to the aggregated features and takes the larger of each entry and zero, in ten tiles of
  10000 rows: grid point t loads rows 10000·t … 10000·t + 9999 of the aggregate and the one bias row, and writes the result
  back as the same rows. Entry (p, q) of tile t is max (a (10000·t + p, q) + b (q)) 0: entry (10000·t + p, q) of the
  whole-array function "add the row to every node, then rectify". The ten tiles cover the 100000 rows, so the array the
  region leaves is that function of the two arrays it found.
-/
import proofs.«115920_j59339268161711_1_alg».proof.Proof.Gen.KernelIdeal.Frame
import proofs.«115920_j59339268161711_1_alg».proof.Proof.Network
import proofs.«115920_j59339268161711_1_alg».proof.Proof.LibHostDense
import Idealize.ShloMosaic.Lib.Pipeline.Value
import Idealize.ShloMosaic.Lib.ValueIdx

noncomputable section

open Idealize.ShloMosaic Idealize.ShloMosaic.TcCoe Idealize.SL.Sem Idealize.ShloMosaic.ValueIdx
open Idealize.ShloMosaic.Pipeline (Dat)

namespace Cert.KernelIdeal.Rectify

open Cert.KernelIdeal Cert.KernelIdeal.Gen

variable (V : (c : Dev nD) → (b : Ref sig .tc) → Buf (Elt Ideal) ((c : Thread nD τ).loc b))

theorem offsets_zero : (![0, 0] : Fin 2 → Nat) = fun _ => 0 := funext fun a => by fin_cases a <;> rfl

/-- A row [1, 16] repeated over the 10000 rows of a tile reads, at (p, q), the row at q. -/
theorem rowOverTile_apply (r : Vec Ideal S1x16 .f32) (p : Fin 10000) (q : Fin 16) :
    broadcastTo S10000x16 r broadcasts_S1x16_S10000x16 (ix2 p q) = r (ix2 (0 : Fin 1) q) := by
  refine broadcastTo_apply r _ (ix2 p q) (ix2 (0 : Fin 1) q) fun a => ?_
  match a with
  | ⟨0, _⟩ => show 0 = if (1 : ℕ) = 1 then 0 else p.val; rw [if_pos rfl]
  | ⟨1, _⟩ => show q.val = if (16 : ℕ) = 1 then 0 else q.val; rw [if_neg (by decide)]

/-- A tile's result at (p, q). -/
theorem tile_apply (x0 : Vec Ideal S10000x16 .f32) (x1 : Vec Ideal S1x16 .f32) (p : Fin 10000) (q : Fin 16) :
    k1_pay1 x0 x1 (ix2 p q) = max (x0 (ix2 p q) + x1 (ix2 (0 : Fin 1) q)) (Ideal.ofBits .f32 0x00000000#32) := by
  unfold k1_pay1
  simp only [shapeCast_self]
  rw [maximumf_apply, addf_apply, broadcast_apply, rowOverTile_apply]
  rfl

/-- The whole-array function at (P, q). -/
theorem whole_apply (a : FVec Ideal S100000x16 .f32) (r : FVec Ideal S1x16 .f32) (P : Fin 100000) (q : Fin 16) :
    Cert.Gcn.relu (F := Ideal) (Cert.Gcn.addRow16 (F := Ideal) a r) (ix2 P q) = max (a (ix2 P q) + r (ix2 (0 : Fin 1) q)) (Ideal.ofBits .f32 0x00000000#32) := by
  unfold Cert.Gcn.relu Cert.Gcn.addRow16
  rw [maximumf_apply, addf_apply, Cert.LibHostDense.bcastRows_apply, Cert.LibHostDense.bcastScalar_apply, constant_apply]

/-- A tile holding rows T·10000 … of a, with a copy of the bias row, gives the same rows of the whole-array function. -/
theorem tile_eq_whole_rows (a : FVec Ideal S100000x16 .f32) (r : FVec Ideal S1x16 .f32)
    (x0 : Vec Ideal S10000x16 .f32) (x1 : Vec Ideal S1x16 .f32) (T : Nat)
    (h0 : ∀ (p : Fin 10000) (q : Fin 16) (P : Fin 100000), P.val = T * 10000 + p.val → x0 (ix2 p q) = a (ix2 P q))
    (h1 : ∀ (q : Fin 16), x1 (ix2 (0 : Fin 1) q) = r (ix2 (0 : Fin 1) q))
    (j : S10000x16.Idx) (i : S100000x16.Idx) (hi0 : (i 0).val = T * 10000 + (j 0).val) (hi1 : (i 1).val = (j 1).val) :
    k1_pay1 x0 x1 j = Cert.Gcn.relu (F := Ideal) (Cert.Gcn.addRow16 (F := Ideal) a r) i := by
  obtain ⟨p, q, rfl⟩ : ∃ (p : Fin 10000) (q : Fin 16), j = ix2 p q := ⟨j 0, j 1, eq_ix2 j⟩
  obtain ⟨P, Q, rfl⟩ : ∃ (P : Fin 100000) (Q : Fin 16), i = ix2 P Q := ⟨i 0, i 1, eq_ix2 i⟩
  obtain rfl : Q = q := Fin.ext hi1
  rw [tile_apply, whole_apply, h0 p Q P hi0, h1 Q]

/-- The printed index maps over the grid: the input tile and the result tile move down one tile per point, the bias row
    stays. -/
theorem index_maps : ∀ t : Fin cfg1.N, win1_0.index t (0 : Fin 2) = t.val ∧ win1_0.index t (1 : Fin 2) = 0
    ∧ win1_1.index t (0 : Fin 2) = 0 ∧ win1_1.index t (1 : Fin 2) = 0
    ∧ win1_2.index t (0 : Fin 2) = t.val ∧ win1_2.index t (1 : Fin 2) = 0 :=
  (by decide +kernel : ∀ t : Fin grid1.N, _)

/-- The input tile at point t is rows 10000·t … of the array the region found. -/
theorem rows_tile (c : Dev nD) (t : Fin cfg1.N) (p : Fin 10000) (q : Fin 16) (P : Fin 100000) (hP : P.val = t.val * 10000 + p.val) :
    (iblk1 V c 0 t : Vec Ideal S10000x16 .f32) (ix2 p q) = (V c main_v45 : S100000x16.Idx → EReal) (ix2 P q) := by
  obtain ⟨e0, e1, -, -, -, -⟩ := index_maps t
  unfold iblk1
  rw [View.read_apply]
  show V c main_v45 _ = V c main_v45 _
  congr 1
  funext a
  apply Fin.ext
  match a with
  | ⟨0, _⟩ => show win1_0.index t (0 : Fin 2) * 10000 + 1 * p.val = P.val; rw [e0, hP]; omega
  | ⟨1, _⟩ => show win1_0.index t (1 : Fin 2) * 16 + 1 * q.val = q.val; rw [e1]; omega

/-- The bias tile at every point is the whole bias row the region found. -/
theorem bias_tile (c : Dev nD) (t : Fin cfg1.N) (q : Fin 16) :
    (iblk1 V c 1 t : Vec Ideal S1x16 .f32) (ix2 (0 : Fin 1) q) = (V c main_v46 : S1x16.Idx → EReal) (ix2 (0 : Fin 1) q) := by
  obtain ⟨-, -, e2, e3, -, -⟩ := index_maps t
  unfold iblk1
  rw [View.read_apply]
  show V c main_v46 _ = V c main_v46 _
  congr 1
  funext a
  apply Fin.ext
  match a with
  | ⟨0, _⟩ => show win1_1.index t (0 : Fin 2) * 1 + 1 * 0 = 0; rw [e2]
  | ⟨1, _⟩ => show win1_1.index t (1 : Fin 2) * 16 + 1 * q.val = q.val; rw [e3]; omega

/-- What point t writes back is tile t of the whole-array function. -/
theorem flushed_eq (c : Dev nD) (t : Fin cfg1.N) :
    (dat1 V c).flushed 2 t = ((cfg1.win 2).blk t).view.read (Elt Ideal) (Cert.Gcn.relu (F := Ideal) (Cert.Gcn.addRow16 (F := Ideal) (V c main_v45) (V c main_v46))) := by
  show (cfg1.win 2).cut (grid1.coords t) ((dat1 V c).after 2 t) = _
  rw [after1_2]
  unfold out1_2
  rw [View.canon_unit_zero offsets_zero]
  simp only [View.ld_unit_zero (S := S10000x16) offsets_zero, View.ld_unit_zero (S := S1x16) offsets_zero]
  obtain ⟨-, -, -, -, e4, e5⟩ := index_maps t
  funext j
  rw [View.read_apply]
  refine tile_eq_whole_rows (V c main_v45) (V c main_v46) (iblk1 V c 0 t) (iblk1 V c 1 t) t.val
    (fun p q P hP => rows_tile V c t p q P hP) (fun q => bias_tile V c t q) j _ ?_ ?_
  · show win1_2.index t (0 : Fin 2) * 10000 + 1 * (j 0).val = t.val * 10000 + (j 0).val; rw [e4]; omega
  · show win1_2.index t (1 : Fin 2) * 16 + 1 * (j 1).val = (j 1).val; rw [e5]; omega

/-- An index of the result is in point t's tile iff its row is among the tile's rows. -/
theorem mem_tile (t : Fin cfg1.N) (i : S100000x16.Idx) :
    i ∈ ((cfg1.win 2).blk t).view.set ↔ ∀ a : Fin 2, win1_2.index t a * S10000x16.size a ≤ (i a).val ∧ (i a).val < win1_2.index t a * S10000x16.size a + S10000x16.size a := by
  show i ∈ ((View.whole main_v47).slice (win1_2.rect t)).set ↔ _
  rw [View.set_slice_whole, Rect.mem_set_unit]
  exact Iff.rfl

/-- Every row of the result is in some tile: row r is in tile r / 10000. -/
theorem covered (i : S100000x16.Idx) : ∃ t : Fin cfg1.N, (cfg1.win 2).flush t = true ∧ i ∈ ((cfg1.win 2).blk t).view.set := by
  have hi0 : (i 0).val < 100000 := (i 0).isLt
  have hi1 : (i 1).val < 16 := (i 1).isLt
  have hN : cfg1.N = 10 := N_1
  refine ⟨⟨(i 0).val / 10000, by rw [hN]; omega⟩, flush1_2 _, ?_⟩
  rw [mem_tile]
  obtain ⟨-, -, -, -, e4, e5⟩ := index_maps ⟨(i 0).val / 10000, by rw [hN]; omega⟩
  intro a
  match a with
  | ⟨0, _⟩ =>
    show win1_2.index _ (0 : Fin 2) * 10000 ≤ (i 0).val ∧ (i 0).val < win1_2.index _ (0 : Fin 2) * 10000 + 10000
    rw [e4]; show (i 0).val / 10000 * 10000 ≤ (i 0).val ∧ (i 0).val < (i 0).val / 10000 * 10000 + 10000; omega
  | ⟨1, _⟩ =>
    show win1_2.index _ (1 : Fin 2) * 16 ≤ (i 1).val ∧ (i 1).val < win1_2.index _ (1 : Fin 2) * 16 + 16
    rw [e5]; omega

/-- The array the region leaves: the whole-array function of the two arrays it found. -/
theorem array_eq (c : Dev nD) : (dat1 V c).arrAt 2 cfg1.N = Cert.Gcn.relu (F := Ideal) (Cert.Gcn.addRow16 (F := Ideal) (V c main_v45) (V c main_v46)) :=
  (dat1 V c).arrAt_eq_of_cover 2 (Cert.Gcn.relu (F := Ideal) (Cert.Gcn.addRow16 (F := Ideal) (V c main_v45) (V c main_v46))) (fun t _ => flushed_eq V c t) covered

end Cert.KernelIdeal.Rectify

end
-- ==== Proof.Project2.lean ====
/-
  The second projection, tile by tile.

  The kernel computes the product of the hidden features with the second weight matrix in ten tiles of 10000 rows: grid
  point t loads rows 10000·t … 10000·t + 9999 of the hidden features and the whole weight matrix, multiplies them into a
  zero accumulator and writes the product back as the same rows of the result. At the extended reals a change of float
  format is the identity, so entry (p, q) of tile t is the sum over k of h (10000·t + p, k) · W (k, q), which is entry
  (10000·t + p, q) of the whole product. The ten tiles cover the 100000 rows, so the array the region leaves is the whole
  product of the two arrays it found.
-/
import proofs.«115920_j59339268161711_1_alg».proof.Proof.Gen.KernelIdeal.Frame
import proofs.«115920_j59339268161711_1_alg».proof.Proof.Gen.ReferenceIdeal
import proofs.«115920_j59339268161711_1_alg».proof.Proof.LibHostDense
import Idealize.ShloMosaic.Lib.Pipeline.Value
import Idealize.ShloMosaic.Lib.ValueIdx

noncomputable section

open Idealize.ShloMosaic Idealize.ShloMosaic.TcCoe Idealize.SL.Sem Idealize.ShloMosaic.ValueIdx
open Idealize.ShloMosaic.Pipeline (Dat)
open scoped BigOperators

namespace Cert.KernelIdeal.Project2

open Cert.KernelIdeal Cert.KernelIdeal.Gen

variable (V : (c : Dev nD) → (b : Ref sig .tc) → Buf (Elt Ideal) ((c : Thread nD τ).loc b))

theorem offsets_zero : (![0, 0] : Fin 2 → Nat) = fun _ => 0 := funext fun a => by fin_cases a <;> rfl

/-- The whole product of a [100000, 16] array by a [16, 8] matrix, as the host computes it. -/
abbrev product (h : FVec Ideal S100000x16 .f32) (w : FVec Ideal S16x8 .f32) : FVec Ideal S100000x8 .f32 :=
  Host.dotGeneral Cert.ReferenceIdeal.dot_S100000x16_S16x8_S100000x8_1_0_0_1_n_n none h w

/-- A tile's product at (p, q): the sum over k of the tile's row p against the matrix's column q. -/
theorem tile_apply (x0 : Vec Ideal S10000x16 .f32) (x1 : Vec Ideal S16x8 .f32) (p : Fin 10000) (q : Fin 8) :
    k2_pay1 x0 x1 (ix2 p q) = ∑ k : Fin 16, x0 (ix2 p k) * x1 (ix2 k q) := by
  unfold k2_pay1
  simp only [shapeCast_self]
  exact Cert.LibPlainDot.matmul_plain_apply dot_S10000x16_S16x8_S10000x8_1_0_0_1_n_n rfl rfl rfl rfl rfl rfl none _ _ p q

/-- The whole product at (P, q). -/
theorem product_apply (h : FVec Ideal S100000x16 .f32) (w : FVec Ideal S16x8 .f32) (P : Fin 100000) (q : Fin 8) :
    product h w (ix2 P q) = ∑ k : Fin 16, h (ix2 P k) * w (ix2 k q) :=
  Cert.LibHostDense.hostDot_plain_apply Cert.ReferenceIdeal.dot_S100000x16_S16x8_S100000x8_1_0_0_1_n_n rfl rfl rfl rfl rfl rfl none h w P q

/-- A tile holding rows T·10000 … of h, multiplied by a copy of w, is the same rows of the whole product. -/
theorem tile_eq_product_rows (h : FVec Ideal S100000x16 .f32) (w : FVec Ideal S16x8 .f32)
    (x0 : Vec Ideal S10000x16 .f32) (x1 : Vec Ideal S16x8 .f32) (T : Nat)
    (h0 : ∀ (p : Fin 10000) (k : Fin 16) (P : Fin 100000), P.val = T * 10000 + p.val → x0 (ix2 p k) = h (ix2 P k))
    (h1 : ∀ (k : Fin 16) (q : Fin 8), x1 (ix2 k q) = w (ix2 k q))
    (j : S10000x8.Idx) (i : S100000x8.Idx) (hi0 : (i 0).val = T * 10000 + (j 0).val) (hi1 : (i 1).val = (j 1).val) :
    k2_pay1 x0 x1 j = product h w i := by
  obtain ⟨p, q, rfl⟩ : ∃ (p : Fin 10000) (q : Fin 8), j = ix2 p q := ⟨j 0, j 1, eq_ix2 j⟩
  obtain ⟨P, Q, rfl⟩ : ∃ (P : Fin 100000) (Q : Fin 8), i = ix2 P Q := ⟨i 0, i 1, eq_ix2 i⟩
  obtain rfl : Q = q := Fin.ext hi1
  rw [tile_apply, product_apply]
  exact Finset.sum_congr rfl fun k _ => by rw [h0 p k P hi0, h1 k Q]

/-- The printed index maps over the grid: the feature tile and the result tile move down one tile per point, the matrix
    stays. -/
theorem index_maps : ∀ t : Fin cfg2.N, win2_0.index t (0 : Fin 2) = t.val ∧ win2_0.index t (1 : Fin 2) = 0
    ∧ win2_1.index t (0 : Fin 2) = 0 ∧ win2_1.index t (1 : Fin 2) = 0
    ∧ win2_2.index t (0 : Fin 2) = t.val ∧ win2_2.index t (1 : Fin 2) = 0 :=
  (by decide +kernel : ∀ t : Fin grid2.N, _)

/-- The feature tile at point t is rows 10000·t … of the feature array the region found. -/
theorem rows_tile (c : Dev nD) (t : Fin cfg2.N) (p : Fin 10000) (k : Fin 16) (P : Fin 100000) (hP : P.val = t.val * 10000 + p.val) :
    (iblk2 V c 0 t : Vec Ideal S10000x16 .f32) (ix2 p k) = (V c main_v47 : S100000x16.Idx → EReal) (ix2 P k) := by
  obtain ⟨e0, e1, -, -, -, -⟩ := index_maps t
  unfold iblk2
  rw [View.read_apply]
  show V c main_v47 _ = V c main_v47 _
  congr 1
  funext a
  apply Fin.ext
  match a with
  | ⟨0, _⟩ => show win2_0.index t (0 : Fin 2) * 10000 + 1 * p.val = P.val; rw [e0, hP]; omega
  | ⟨1, _⟩ => show win2_0.index t (1 : Fin 2) * 16 + 1 * k.val = k.val; rw [e1]; omega

/-- The matrix tile at every point is the whole matrix the region found. -/
theorem matrix_tile (c : Dev nD) (t : Fin cfg2.N) (k : Fin 16) (q : Fin 8) :
    (iblk2 V c 1 t : Vec Ideal S16x8 .f32) (ix2 k q) = (V c main_arg4 : S16x8.Idx → EReal) (ix2 k q) := by
  obtain ⟨-, -, e2, e3, -, -⟩ := index_maps t
  unfold iblk2
  rw [View.read_apply]
  show V c main_arg4 _ = V c main_arg4 _
  congr 1
  funext a
  apply Fin.ext
  match a with
  | ⟨0, _⟩ => show win2_1.index t (0 : Fin 2) * 16 + 1 * k.val = k.val; rw [e2]; omega
  | ⟨1, _⟩ => show win2_1.index t (1 : Fin 2) * 8 + 1 * q.val = q.val; rw [e3]; omega

/-- What point t writes back is tile t of the whole product. -/
theorem flushed_eq (c : Dev nD) (t : Fin cfg2.N) :
    (dat2 V c).flushed 2 t = ((cfg2.win 2).blk t).view.read (Elt Ideal) (product (V c main_v47) (V c main_arg4)) := by
  show (cfg2.win 2).cut (grid2.coords t) ((dat2 V c).after 2 t) = _
  rw [after2_2]
  unfold out2_2
  rw [View.canon_unit_zero offsets_zero]
  simp only [View.ld_unit_zero (S := S10000x16) offsets_zero, View.ld_unit_zero (S := S16x8) offsets_zero]
  obtain ⟨-, -, -, -, e4, e5⟩ := index_maps t
  funext j
  rw [View.read_apply]
  refine tile_eq_product_rows (V c main_v47) (V c main_arg4) (iblk2 V c 0 t) (iblk2 V c 1 t) t.val
    (fun p k P hP => rows_tile V c t p k P hP) (fun k q => matrix_tile V c t k q) j _ ?_ ?_
  · show win2_2.index t (0 : Fin 2) * 10000 + 1 * (j 0).val = t.val * 10000 + (j 0).val; rw [e4]; omega
  · show win2_2.index t (1 : Fin 2) * 8 + 1 * (j 1).val = (j 1).val; rw [e5]; omega

/-- An index of the result is in point t's tile iff its row is among the tile's rows. -/
theorem mem_tile (t : Fin cfg2.N) (i : S100000x8.Idx) :
    i ∈ ((cfg2.win 2).blk t).view.set ↔ ∀ a : Fin 2, win2_2.index t a * S10000x8.size a ≤ (i a).val ∧ (i a).val < win2_2.index t a * S10000x8.size a + S10000x8.size a := by
  show i ∈ ((View.whole main_v48).slice (win2_2.rect t)).set ↔ _
  rw [View.set_slice_whole, Rect.mem_set_unit]
  exact Iff.rfl

/-- Every row of the result is in some tile: row r is in tile r / 10000. -/
theorem covered (i : S100000x8.Idx) : ∃ t : Fin cfg2.N, (cfg2.win 2).flush t = true ∧ i ∈ ((cfg2.win 2).blk t).view.set := by
  have hi0 : (i 0).val < 100000 := (i 0).isLt
  have hi1 : (i 1).val < 8 := (i 1).isLt
  have hN : cfg2.N = 10 := N_2
  refine ⟨⟨(i 0).val / 10000, by rw [hN]; omega⟩, flush2_2 _, ?_⟩
  rw [mem_tile]
  obtain ⟨-, -, -, -, e4, e5⟩ := index_maps ⟨(i 0).val / 10000, by rw [hN]; omega⟩
  intro a
  match a with
  | ⟨0, _⟩ =>
    show win2_2.index _ (0 : Fin 2) * 10000 ≤ (i 0).val ∧ (i 0).val < win2_2.index _ (0 : Fin 2) * 10000 + 10000
    rw [e4]; show (i 0).val / 10000 * 10000 ≤ (i 0).val ∧ (i 0).val < (i 0).val / 10000 * 10000 + 10000; omega
  | ⟨1, _⟩ =>
    show win2_2.index _ (1 : Fin 2) * 8 ≤ (i 1).val ∧ (i 1).val < win2_2.index _ (1 : Fin 2) * 8 + 8
    rw [e5]; omega

/-- The array the region leaves: the whole product of the two arrays it found. -/
theorem array_eq (c : Dev nD) : (dat2 V c).arrAt 2 cfg2.N = product (V c main_v47) (V c main_arg4) :=
  (dat2 V c).arrAt_eq_of_cover 2 (product (V c main_v47) (V c main_arg4)) (fun t _ => flushed_eq V c t) covered

end Cert.KernelIdeal.Project2

end
-- ==== Proof.Squash.lean ====
/-
  The second layer's bias and logistic function, tile by tile.

  The kernel adds the bias row to the aggregated features and applies the logistic function, in ten tiles of 10000 rows:
  grid point t loads rows 10000·t … 10000·t + 9999 of the aggregate and the one bias row, and writes the result back as
  the same rows. At the extended reals the kernel's logistic operation is 1 / (1 + e^(-v)) with the host's division,
  exponential and negation, the word 0x3F800000 being the number one; so entry (p, q) of tile t is entry (10000·t + p, q) of
  the whole-array function "add the row to every node, then 1 / (1 + e^(-v))". The ten tiles cover the 100000 rows, so the
  array the region leaves is that function of the two arrays it found.
-/
import proofs.«115920_j59339268161711_1_alg».proof.Proof.Gen.KernelIdeal.Frame
import proofs.«115920_j59339268161711_1_alg».proof.Proof.Network
import proofs.«115920_j59339268161711_1_alg».proof.Proof.LibHostDense
import Idealize.ShloMosaic.Lib.Pipeline.Value
import Idealize.ShloMosaic.Lib.ValueIdx
import Idealize.ShloMosaic.Lib.IdealHost

noncomputable section

open Idealize.ShloMosaic Idealize.ShloMosaic.TcCoe Idealize.SL.Sem Idealize.ShloMosaic.ValueIdx
open Idealize.ShloMosaic.Pipeline (Dat)

namespace Cert.KernelIdeal.Squash

open Cert.KernelIdeal Cert.KernelIdeal.Gen

variable (V : (c : Dev nD) → (b : Ref sig .tc) → Buf (Elt Ideal) ((c : Thread nD τ).loc b))

theorem offsets_zero : (![0, 0] : Fin 2 → Nat) = fun _ => 0 := funext fun a => by fin_cases a <;> rfl

/-- A row [1, 8] repeated over the 10000 rows of a tile reads, at (p, q), the row at q. -/
theorem rowOverTile_apply (r : Vec Ideal S1x8 .f32) (p : Fin 10000) (q : Fin 8) :
    broadcastTo S10000x8 r broadcasts_S1x8_S10000x8 (ix2 p q) = r (ix2 (0 : Fin 1) q) := by
  refine broadcastTo_apply r _ (ix2 p q) (ix2 (0 : Fin 1) q) fun a => ?_
  match a with
  | ⟨0, _⟩ => show 0 = if (1 : ℕ) = 1 then 0 else p.val; rw [if_pos rfl]
  | ⟨1, _⟩ => show q.val = if (8 : ℕ) = 1 then 0 else q.val; rw [if_neg (by decide)]

/-- A tile's result at (p, q). -/
theorem tile_apply (x0 : Vec Ideal S10000x8 .f32) (x1 : Vec Ideal S1x8 .f32) (p : Fin 10000) (q : Fin 8) :
    k3_pay1 x0 x1 (ix2 p q) = Ideal.logistic (x0 (ix2 p q) + x1 (ix2 (0 : Fin 1) q)) := by
  unfold k3_pay1
  simp only [shapeCast_self]
  show Ideal.logistic ((addf x0 (broadcastTo S10000x8 x1 broadcasts_S1x8_S10000x8) : FVec Ideal S10000x8 .f32) (ix2 p q)) = _
  rw [addf_apply, rowOverTile_apply]

/-- The whole-array function at (P, q). -/
theorem whole_apply (a : FVec Ideal S100000x8 .f32) (r : FVec Ideal S1x8 .f32) (P : Fin 100000) (q : Fin 8) :
    Cert.Gcn.logistic (F := Ideal) (Cert.Gcn.addRow8 (F := Ideal) a r) (ix2 P q) = Ideal.logistic (a (ix2 P q) + r (ix2 (0 : Fin 1) q)) := by
  unfold Cert.Gcn.logistic Cert.Gcn.addRow8
  show FloatOps.hostDivf (broadcastInDim S100000x8 ![] Cert.ReferenceIdeal.Gen.bcast_S_S100000x8 (constant (F := Ideal) Cert.ReferenceIdeal.S_ .f32 0x3F800000#32) (ix2 P q))
      (FloatOps.addf (broadcastInDim S100000x8 ![] Cert.ReferenceIdeal.Gen.bcast_S_S100000x8 (constant (F := Ideal) Cert.ReferenceIdeal.S_ .f32 0x3F800000#32) (ix2 P q))
        (FloatOps.hostUnary .exp (FloatOps.hostNegf (addf a (broadcastInDim S100000x8 ![0, 1] Cert.ReferenceIdeal.Gen.bcast_S1x8_S100000x8_0_1 r) (ix2 P q))))) = _
  rw [Cert.LibHostDense.bcastScalar_apply, constant_apply, Ideal.ofBits_one_f32, addf_apply, Cert.LibHostDense.bcastRows_apply]
  rfl

/-- A tile holding rows T·10000 … of a, with a copy of the bias row, gives the same rows of the whole-array function. -/
theorem tile_eq_whole_rows (a : FVec Ideal S100000x8 .f32) (r : FVec Ideal S1x8 .f32)
    (x0 : Vec Ideal S10000x8 .f32) (x1 : Vec Ideal S1x8 .f32) (T : Nat)
    (h0 : ∀ (p : Fin 10000) (q : Fin 8) (P : Fin 100000), P.val = T * 10000 + p.val → x0 (ix2 p q) = a (ix2 P q))
    (h1 : ∀ (q : Fin 8), x1 (ix2 (0 : Fin 1) q) = r (ix2 (0 : Fin 1) q))
    (j : S10000x8.Idx) (i : S100000x8.Idx) (hi0 : (i 0).val = T * 10000 + (j 0).val) (hi1 : (i 1).val = (j 1).val) :
    k3_pay1 x0 x1 j = Cert.Gcn.logistic (F := Ideal) (Cert.Gcn.addRow8 (F := Ideal) a r) i := by
  obtain ⟨p, q, rfl⟩ : ∃ (p : Fin 10000) (q : Fin 8), j = ix2 p q := ⟨j 0, j 1, eq_ix2 j⟩
  obtain ⟨P, Q, rfl⟩ : ∃ (P : Fin 100000) (Q : Fin 8), i = ix2 P Q := ⟨i 0, i 1, eq_ix2 i⟩
  obtain rfl : Q = q := Fin.ext hi1
  rw [tile_apply, whole_apply, h0 p Q P hi0, h1 Q]

/-- The printed index maps over the grid: the input tile and the result tile move down one tile per point, the bias row
    stays. -/
theorem index_maps : ∀ t : Fin cfg3.N, win3_0.index t (0 : Fin 2) = t.val ∧ win3_0.index t (1 : Fin 2) = 0
    ∧ win3_1.index t (0 : Fin 2) = 0 ∧ win3_1.index t (1 : Fin 2) = 0
    ∧ win3_2.index t (0 : Fin 2) = t.val ∧ win3_2.index t (1 : Fin 2) = 0 :=
  (by decide +kernel : ∀ t : Fin grid3.N, _)

/-- The input tile at point t is rows 10000·t … of the array the region found. -/
theorem rows_tile (c : Dev nD) (t : Fin cfg3.N) (p : Fin 10000) (q : Fin 8) (P : Fin 100000) (hP : P.val = t.val * 10000 + p.val) :
    (iblk3 V c 0 t : Vec Ideal S10000x8 .f32) (ix2 p q) = (V c main_v61 : S100000x8.Idx → EReal) (ix2 P q) := by
  obtain ⟨e0, e1, -, -, -, -⟩ := index_maps t
  unfold iblk3
  rw [View.read_apply]
  show V c main_v61 _ = V c main_v61 _
  congr 1
  funext a
  apply Fin.ext
  match a with
  | ⟨0, _⟩ => show win3_0.index t (0 : Fin 2) * 10000 + 1 * p.val = P.val; rw [e0, hP]; omega
  | ⟨1, _⟩ => show win3_0.index t (1 : Fin 2) * 8 + 1 * q.val = q.val; rw [e1]; omega

/-- The bias tile at every point is the whole bias row the region found. -/
theorem bias_tile (c : Dev nD) (t : Fin cfg3.N) (q : Fin 8) :
    (iblk3 V c 1 t : Vec Ideal S1x8 .f32) (ix2 (0 : Fin 1) q) = (V c main_v62 : S1x8.Idx → EReal) (ix2 (0 : Fin 1) q) := by
  obtain ⟨-, -, e2, e3, -, -⟩ := index_maps t
  unfold iblk3
  rw [View.read_apply]
  show V c main_v62 _ = V c main_v62 _
  congr 1
  funext a
  apply Fin.ext
  match a with
  | ⟨0, _⟩ => show win3_1.index t (0 : Fin 2) * 1 + 1 * 0 = 0; rw [e2]
  | ⟨1, _⟩ => show win3_1.index t (1 : Fin 2) * 8 + 1 * q.val = q.val; rw [e3]; omega

/-- What point t writes back is tile t of the whole-array function. -/
theorem flushed_eq (c : Dev nD) (t : Fin cfg3.N) :
    (dat3 V c).flushed 2 t = ((cfg3.win 2).blk t).view.read (Elt Ideal) (Cert.Gcn.logistic (F := Ideal) (Cert.Gcn.addRow8 (F := Ideal) (V c main_v61) (V c main_v62))) := by
  show (cfg3.win 2).cut (grid3.coords t) ((dat3 V c).after 2 t) = _
  rw [after3_2]
  unfold out3_2
  rw [View.canon_unit_zero offsets_zero]
  simp only [View.ld_unit_zero (S := S10000x8) offsets_zero, View.ld_unit_zero (S := S1x8) offsets_zero]
  obtain ⟨-, -, -, -, e4, e5⟩ := index_maps t
  funext j
  rw [View.read_apply]
  refine tile_eq_whole_rows (V c main_v61) (V c main_v62) (iblk3 V c 0 t) (iblk3 V c 1 t) t.val
    (fun p q P hP => rows_tile V c t p q P hP) (fun q => bias_tile V c t q) j _ ?_ ?_
  · show win3_2.index t (0 : Fin 2) * 10000 + 1 * (j 0).val = t.val * 10000 + (j 0).val; rw [e4]; omega
  · show win3_2.index t (1 : Fin 2) * 8 + 1 * (j 1).val = (j 1).val; rw [e5]; omega

/-- An index of the result is in point t's tile iff its row is among the tile's rows. -/
theorem mem_tile (t : Fin cfg3.N) (i : S100000x8.Idx) :
    i ∈ ((cfg3.win 2).blk t).view.set ↔ ∀ a : Fin 2, win3_2.index t a * S10000x8.size a ≤ (i a).val ∧ (i a).val < win3_2.index t a * S10000x8.size a + S10000x8.size a := by
  show i ∈ ((View.whole main_v63).slice (win3_2.rect t)).set ↔ _
  rw [View.set_slice_whole, Rect.mem_set_unit]
  exact Iff.rfl

/-- Every row of the result is in some tile: row r is in tile r / 10000. -/
theorem covered (i : S100000x8.Idx) : ∃ t : Fin cfg3.N, (cfg3.win 2).flush t = true ∧ i ∈ ((cfg3.win 2).blk t).view.set := by
  have hi0 : (i 0).val < 100000 := (i 0).isLt
  have hi1 : (i 1).val < 8 := (i 1).isLt
  have hN : cfg3.N = 10 := N_3
  refine ⟨⟨(i 0).val / 10000, by rw [hN]; omega⟩, flush3_2 _, ?_⟩
  rw [mem_tile]
  obtain ⟨-, -, -, -, e4, e5⟩ := index_maps ⟨(i 0).val / 10000, by rw [hN]; omega⟩
  intro a
  match a with
  | ⟨0, _⟩ =>
    show win3_2.index _ (0 : Fin 2) * 10000 ≤ (i 0).val ∧ (i 0).val < win3_2.index _ (0 : Fin 2) * 10000 + 10000
    rw [e4]; show (i 0).val / 10000 * 10000 ≤ (i 0).val ∧ (i 0).val < (i 0).val / 10000 * 10000 + 10000; omega
  | ⟨1, _⟩ =>
    show win3_2.index _ (1 : Fin 2) * 8 ≤ (i 1).val ∧ (i 1).val < win3_2.index _ (1 : Fin 2) * 8 + 8
    rw [e5]; omega

/-- The array the region leaves: the whole-array function of the two arrays it found. -/
theorem array_eq (c : Dev nD) : (dat3 V c).arrAt 2 cfg3.N = Cert.Gcn.logistic (F := Ideal) (Cert.Gcn.addRow8 (F := Ideal) (V c main_v61) (V c main_v62)) :=
  (dat3 V c).arrAt_eq_of_cover 2 (Cert.Gcn.logistic (F := Ideal) (Cert.Gcn.addRow8 (F := Ideal) (V c main_v61) (V c main_v62))) (fun t _ => flushed_eq V c t) covered

end Cert.KernelIdeal.Squash

end
-- ==== Proof.LibTyped.lean ====
/-
  Typed references: a value carried to a buffer's own type and back.

  A host operation inside a called function is stated over references that carry the type of the tensor value they
  hold; its function is moved to the buffer's own type along the reference's type equation, on the way in and on the
  way out. Reading a chain of such operations therefore leaves, around every intermediate value, a transport to the
  buffer's type followed by the transport back. The two cancel, whatever the reference.
-/
import Idealize.ShloMosaic.Lib.StableHlo

namespace Cert.LibTyped

open Idealize.ShloMosaic Idealize.ShloMosaic.StableHlo

/-- A value moved to a typed reference's buffer type and back is the value: both moves are transports along the one
    equation between the buffer's type and the value's, in opposite directions. -/
theorem ofBuf_toBuf {sig : RefSig} {T : BufTy} {Val : EltTy → Type} (x : TRef sig T) (v : T.Contents Val) :
    x.ofBuf (x.toBuf v) = v := by
  obtain ⟨r, h, h1, h2⟩ := x
  subst h
  rfl

/-- The same the other way round: a buffer's contents read at the value's type and moved back. -/
theorem toBuf_ofBuf {sig : RefSig} {T : BufTy} {Val : EltTy → Type} (x : TRef sig T) (v : x.ref.ty.Contents Val) :
    x.toBuf (x.ofBuf v) = v := by
  obtain ⟨r, h, h1, h2⟩ := x
  subst h
  rfl

end Cert.LibTyped
-- ==== Proof.LibTypedLit.lean ====
/-
  Typed references at a literal buffer: the transport is the identity.

  A typed reference made from a buffer at that buffer's own type carries the reflexive type equation, so moving a
  value to the buffer's type, or back, along it changes nothing.
-/
import Idealize.ShloMosaic.Lib.StableHlo

namespace Cert.LibTypedLit

open Idealize.ShloMosaic Idealize.ShloMosaic.StableHlo

/-- Contents of a buffer read at the buffer's own type through its typed reference are the contents. -/
theorem ofBuf_of {sig : RefSig} {Val : EltTy → Type} (r : Ref sig .tc) (h1) (h2) (v : r.ty.Contents Val) :
    (TRef.of (T := r.ty) r rfl h1 h2).ofBuf v = v := rfl

/-- A value of the buffer's own type moved to the buffer through its typed reference is the value. -/
theorem toBuf_of {sig : RefSig} {Val : EltTy → Type} (r : Ref sig .tc) (h1) (h2) (v : r.ty.Contents Val) :
    (TRef.of (T := r.ty) r rfl h1 h2).toBuf v = v := rfl

end Cert.LibTypedLit
-- ==== Proof.LibGcnLayer.lean ====
/-
  One graph-convolution layer read at coordinates, at the extended reals.

  The layer's value at node `p` and feature `q` is `agg (p, q) + s (p) · h (p, q) + b (q)`, where `h` is the
  projected feature matrix, `s` the self-loop weight of each node laid out as a column and repeated over the
  features, `agg` the aggregated neighbour messages and `b` the bias laid out as a row and repeated over the
  nodes. Two spellings of it are compared: `(h · s + agg) + b` with the bias row cast from a vector and read
  through its one row, and `(agg + s · h) + b` with the bias row repeated over the nodes by two
  `broadcast_in_dim`s. They agree at every extended real because sum and product are commutative there; no
  finiteness is needed. The same holds after a maximum with a repeated scalar constant (the rectifier).

  Also here: a length-`n` vector laid out as the column `[n, 1]` and that column repeated over `c` columns,
  read at coordinates.
-/
import Idealize.ShloMosaic.Lib.Pipeline.Value
import Idealize.ShloMosaic.Lib.ValueIdx
import Idealize.ShloMosaic.Lib.ValueLayout

noncomputable section

namespace Cert.LibGcnLayer

open Idealize.ShloMosaic Idealize.ShloMosaic.ValueIdx

variable {α : Type}

/-- A length-`n` vector laid out as the column `[n, 1]` reads, at `(p, u)`, the vector at `p`. -/
theorem bcastCol_apply {n : ℕ} (x : (⟨1, ![n]⟩ : Shape).Idx → α)
    (h : (⟨1, ![n]⟩ : Shape).BroadcastsInDim ⟨2, ![n, 1]⟩ (![0] : Fin 1 → Fin 2)) (p : Fin n) (u : Fin 1) :
    broadcastInDim ⟨2, ![n, 1]⟩ ![0] h x (ix2 p u) = x (ix1 p) := by
  refine broadcastInDim_apply _ h x (ix2 p u) (ix1 p) fun a => ?_
  match a with
  | ⟨0, _⟩ =>
    show p.val = if n = 1 then 0 else p.val
    split
    · have := p.isLt; omega
    · rfl

/-- A column `[n, 1]` repeated over `c` columns reads, at `(p, q)`, the column at `p`. -/
theorem bcastCols_apply {n c : ℕ} (x : (⟨2, ![n, 1]⟩ : Shape).Idx → α)
    (h : (⟨2, ![n, 1]⟩ : Shape).BroadcastsInDim ⟨2, ![n, c]⟩ (![0, 1] : Fin 2 → Fin 2)) (p : Fin n) (q : Fin c) :
    broadcastInDim ⟨2, ![n, c]⟩ ![0, 1] h x (ix2 p q) = x (ix2 p (0 : Fin 1)) := by
  refine broadcastInDim_apply _ h x (ix2 p q) (ix2 p (0 : Fin 1)) fun a => ?_
  match a with
  | ⟨0, _⟩ =>
    show p.val = if n = 1 then 0 else p.val
    split
    · have := p.isLt; omega
    · rfl
  | ⟨1, _⟩ => show 0 = if (1 : ℕ) = 1 then 0 else q.val; rw [if_pos rfl]

/-- A length-`c` vector laid out as the row `[1, c]` and repeated over `n` rows reads, at `(p, q)`, the vector at `q`. -/
theorem bcastRowRows_apply {n c : ℕ} (b : (⟨1, ![c]⟩ : Shape).Idx → α)
    (h1 : (⟨1, ![c]⟩ : Shape).BroadcastsInDim ⟨2, ![1, c]⟩ (![1] : Fin 1 → Fin 2))
    (h2 : (⟨2, ![1, c]⟩ : Shape).BroadcastsInDim ⟨2, ![n, c]⟩ (![0, 1] : Fin 2 → Fin 2)) (p : Fin n) (q : Fin c) :
    broadcastInDim ⟨2, ![n, c]⟩ ![0, 1] h2 (broadcastInDim ⟨2, ![1, c]⟩ ![1] h1 b) (ix2 p q) = b (ix1 q) := by
  have e1 : broadcastInDim ⟨2, ![n, c]⟩ ![0, 1] h2 (broadcastInDim ⟨2, ![1, c]⟩ ![1] h1 b) (ix2 p q)
      = broadcastInDim ⟨2, ![1, c]⟩ ![1] h1 b (ix2 (0 : Fin 1) q) := by
    refine broadcastInDim_apply _ h2 _ (ix2 p q) (ix2 (0 : Fin 1) q) fun a => ?_
    match a with
    | ⟨0, _⟩ => show 0 = if (1 : ℕ) = 1 then 0 else p.val; rw [if_pos rfl]
    | ⟨1, _⟩ =>
      show q.val = if c = 1 then 0 else q.val
      split
      · have := q.isLt; omega
      · rfl
  rw [e1]
  refine broadcastInDim_apply _ h1 b (ix2 (0 : Fin 1) q) (ix1 q) fun a => ?_
  match a with
  | ⟨0, _⟩ =>
    show q.val = if c = 1 then 0 else q.val
    split
    · have := q.isLt; omega
    · rfl

/-- A length-`c` vector cast to the row `[1, c]` reads, at `(0, q)`, the vector at `q`. -/
theorem castRow_apply {c : ℕ} (b : (⟨1, ![c]⟩ : Shape).Idx → α) (h : (⟨1, ![c]⟩ : Shape).ShapeCasts ⟨2, ![1, c]⟩) (q : Fin c) :
    shapeCast (⟨2, ![1, c]⟩ : Shape) b h (ix2 (0 : Fin 1) q) = b (ix1 q) := by
  refine shapeCast_apply b h (ix2 (0 : Fin 1) q) (ix1 q) ?_
  rw [Shape.rowMajor_val_one, Shape.rowMajor_val_two]
  show q.val = (0 : Fin 1).val * c + q.val
  simp

/-- The layer without the rectifier: `(h · s + agg) + b` through the cast bias row is `(agg + s · h) + b` through the
    repeated bias row, at every node and feature. -/
theorem layer_eq {n c : ℕ} (hW sn agg : FVec Ideal ⟨2, ![n, c]⟩ .f32) (b : FVec Ideal ⟨1, ![c]⟩ .f32)
    (hc : (⟨1, ![c]⟩ : Shape).ShapeCasts ⟨2, ![1, c]⟩)
    (h1 : (⟨1, ![c]⟩ : Shape).BroadcastsInDim ⟨2, ![1, c]⟩ (![1] : Fin 1 → Fin 2))
    (h2 : (⟨2, ![1, c]⟩ : Shape).BroadcastsInDim ⟨2, ![n, c]⟩ (![0, 1] : Fin 2 → Fin 2)) (p : Fin n) (q : Fin c) :
    (mulf hW sn (ix2 p q) + agg (ix2 p q)) + shapeCast (⟨2, ![1, c]⟩ : Shape) b hc (ix2 (0 : Fin 1) q)
      = addf (addf agg (mulf sn hW)) (broadcastInDim ⟨2, ![n, c]⟩ ![0, 1] h2 (broadcastInDim ⟨2, ![1, c]⟩ ![1] h1 b)) (ix2 p q) := by
  rw [addf_apply, addf_apply, mulf_apply, mulf_apply, bcastRowRows_apply, castRow_apply, mul_comm (hW (ix2 p q)),
    add_comm (sn (ix2 p q) * hW (ix2 p q))]

/-- The rectified layer: the maximum of either spelling with a scalar constant, the constant repeated over the array on
    one side. -/
theorem layer_relu_eq {n c : ℕ} (hW sn agg : FVec Ideal ⟨2, ![n, c]⟩ .f32) (b : FVec Ideal ⟨1, ![c]⟩ .f32)
    (hc : (⟨1, ![c]⟩ : Shape).ShapeCasts ⟨2, ![1, c]⟩)
    (h1 : (⟨1, ![c]⟩ : Shape).BroadcastsInDim ⟨2, ![1, c]⟩ (![1] : Fin 1 → Fin 2))
    (h2 : (⟨2, ![1, c]⟩ : Shape).BroadcastsInDim ⟨2, ![n, c]⟩ (![0, 1] : Fin 2 → Fin 2))
    (h0 : (⟨0, ![]⟩ : Shape).BroadcastsInDim ⟨2, ![n, c]⟩ (![] : Fin 0 → Fin 2)) (w : BitVec 32) (p : Fin n) (q : Fin c) :
    max ((mulf hW sn (ix2 p q) + agg (ix2 p q)) + shapeCast (⟨2, ![1, c]⟩ : Shape) b hc (ix2 (0 : Fin 1) q)) (Ideal.ofBits .f32 w)
      = maximumf (addf (addf agg (mulf sn hW)) (broadcastInDim ⟨2, ![n, c]⟩ ![0, 1] h2 (broadcastInDim ⟨2, ![1, c]⟩ ![1] h1 b)))
          (broadcastInDim ⟨2, ![n, c]⟩ ![] h0 (constant (F := Ideal) ⟨0, ![]⟩ .f32 w)) (ix2 p q) := by
  rw [maximumf_apply, ← layer_eq hW sn agg b hc h1 h2 p q]
  congr 1

end Cert.LibGcnLayer

end
-- ==== Proof.KernelValue.lean ====
/-
  The kernel's result is the network.

  The kernel program interleaves host operations with four tiled regions. Read backwards from the result buffer: the
  last region leaves the logistic function of its input plus the bias row; its input is the second aggregation of the
  third region's product; that product's left factor is what the second region leaves, the rectified first aggregation
  plus the bias row; and the first aggregation gathers the first region's product. The edge list's two rows with the
  self-loops appended, and the edge weights, are computed once by the first host operations and are not written again, so
  every later stretch finds them unchanged. A bias vector reaches its region as a row [1, n] by a reshape, which holds
  the same entries as the row the reference lays out by a broadcast. Composed, the result buffer holds the two-layer graph
  convolution of the argument arrays.
-/
import proofs.«115920_j59339268161711_1_alg».proof.Proof.KernelRun
import proofs.«115920_j59339268161711_1_alg».proof.Proof.Network
import proofs.«115920_j59339268161711_1_alg».proof.Proof.Project1
import proofs.«115920_j59339268161711_1_alg».proof.Proof.Rectify
import proofs.«115920_j59339268161711_1_alg».proof.Proof.Project2
import proofs.«115920_j59339268161711_1_alg».proof.Proof.Squash
import proofs.«115920_j59339268161711_1_alg».proof.Proof.LibConcatPair
import proofs.«115920_j59339268161711_1_alg».proof.Proof.LibTyped
import proofs.«115920_j59339268161711_1_alg».proof.Proof.LibTypedLit
import proofs.«115920_j59339268161711_1_alg».proof.Proof.LibGcnLayer
import proofs.«115920_j59339268161711_1_alg».proof.Proof.LibHostDense
import Idealize.ShloMosaic.Lib.StableHlo.Run

noncomputable section

open Idealize.ShloMosaic Idealize.ShloMosaic.TcCoe Idealize.SL.Sem Idealize.ShloMosaic.ValueIdx Idealize.ShloMosaic.StableHlo

namespace Cert.KernelIdeal.Whole

open Cert.KernelIdeal Cert.KernelIdeal.Gen

/-- A vector cast to a row holds the entries of the vector laid out as a row by a broadcast. -/
theorem row_eq {α : Type} {n : ℕ} (b : (⟨1, ![n]⟩ : Shape).Idx → α) (hc : (⟨1, ![n]⟩ : Shape).ShapeCasts ⟨2, ![1, n]⟩)
    (hb : (⟨1, ![n]⟩ : Shape).BroadcastsInDim ⟨2, ![1, n]⟩ (![1] : Fin 1 → Fin 2)) :
    shapeCast (⟨2, ![1, n]⟩ : Shape) b hc = broadcastInDim ⟨2, ![1, n]⟩ ![1] hb b := by
  funext i
  obtain ⟨u, q, rfl⟩ : ∃ (u : Fin 1) (q : Fin n), i = ix2 u q := ⟨i 0, i 1, eq_ix2 i⟩
  obtain rfl : u = 0 := Subsingleton.elim _ _
  rw [Cert.LibGcnLayer.castRow_apply, Cert.LibHostDense.bcastRow_apply]

/-! ## The host stretches, from any contents of the buffers -/

section Stretches

variable (W : Valuation τ sig (Elt Ideal))

/-- The buffers when the first region is entered: the three stretches of host operations before it, in order. -/
abbrev entry : Valuation τ sig (Elt Ideal) := after hostOps0_2 (after hostOps0_1 (after hostOps0 W))

set_option maxRecDepth 8192 in
set_option maxHeartbeats 4000000 in
/-- The sources of the edges and self-loops, as the first host operations compute them. -/
theorem entry_sources : entry W (Proc.devRef .tc main_v3) = Cert.Gcn.sources (W (Proc.devRef .tc main_arg1)) := by
  simp (disch := decide) only [hostOps0, hostOps0_1, hostOps0_2, after_cons, after_nil,
      nullary_result', unary_result', binary_result', ternary_result', quaternary_result', reshape_result', nary4_result', nary_result',
      unaryIndexed_result', binaryIndexed_result',
      nullary_result_ne', unary_result_ne', binary_result_ne', ternary_result_ne', quaternary_result_ne', reshape_result_ne',
      nary_result_ne', unaryIndexed_result_ne', binaryIndexed_result_ne',
      Cert.LibConcatPair.concatenate_pair, Cert.LibTyped.ofBuf_toBuf]
  rfl

set_option maxRecDepth 8192 in
set_option maxHeartbeats 4000000 in
/-- The targets of the edges and self-loops. -/
theorem entry_targets : entry W (Proc.devRef .tc main_v6) = Cert.Gcn.targets (W (Proc.devRef .tc main_arg1)) := by
  simp (disch := decide) only [hostOps0, hostOps0_1, hostOps0_2, after_cons, after_nil,
      nullary_result', unary_result', binary_result', ternary_result', quaternary_result', reshape_result', nary4_result', nary_result',
      unaryIndexed_result', binaryIndexed_result',
      nullary_result_ne', unary_result_ne', binary_result_ne', ternary_result_ne', quaternary_result_ne', reshape_result_ne',
      nary_result_ne', unaryIndexed_result_ne', binaryIndexed_result_ne',
      Cert.LibConcatPair.concatenate_pair, Cert.LibTyped.ofBuf_toBuf]
  rfl

set_option maxRecDepth 8192 in
set_option maxHeartbeats 4000000 in
/-- The edge weights. -/
theorem entry_weights : entry W (Proc.devRef .tc main_v31)
    = Cert.Gcn.edgeWeight (F := Ideal) (Cert.Gcn.sources (W (Proc.devRef .tc main_arg1))) (Cert.Gcn.targets (W (Proc.devRef .tc main_arg1))) := by
  simp (disch := decide) only [hostOps0, hostOps0_1, hostOps0_2, after_cons, after_nil,
      nullary_result', unary_result', binary_result', ternary_result', quaternary_result', reshape_result', nary4_result', nary_result',
      unaryIndexed_result', binaryIndexed_result',
      nullary_result_ne', unary_result_ne', binary_result_ne', ternary_result_ne', quaternary_result_ne', reshape_result_ne',
      nary_result_ne', unaryIndexed_result_ne', binaryIndexed_result_ne',
      Cert.LibConcatPair.concatenate_pair, Cert.LibTyped.ofBuf_toBuf]
  repeat rw [Cert.LibTypedLit.ofBuf_of]
  repeat rw [Cert.LibTypedLit.toBuf_of]
  rfl

set_option maxRecDepth 8192 in
set_option maxHeartbeats 4000000 in
/-- The first host operations write no argument array. -/
theorem entry_args : entry W (Proc.devRef .tc main_arg0) = W (Proc.devRef .tc main_arg0)
    ∧ entry W (Proc.devRef .tc main_arg2) = W (Proc.devRef .tc main_arg2)
    ∧ entry W (Proc.devRef .tc main_arg3) = W (Proc.devRef .tc main_arg3)
    ∧ entry W (Proc.devRef .tc main_arg4) = W (Proc.devRef .tc main_arg4)
    ∧ entry W (Proc.devRef .tc main_arg5) = W (Proc.devRef .tc main_arg5) := by
  refine ⟨?_, ?_, ?_, ?_, ?_⟩ <;>
  simp (disch := decide) only [hostOps0, hostOps0_1, hostOps0_2, after_cons, after_nil,
      nullary_result', unary_result', binary_result', ternary_result', quaternary_result', reshape_result', nary4_result', nary_result',
      unaryIndexed_result', binaryIndexed_result',
      nullary_result_ne', unary_result_ne', binary_result_ne', ternary_result_ne', quaternary_result_ne', reshape_result_ne',
      nary_result_ne', unaryIndexed_result_ne', binaryIndexed_result_ne',
      Cert.LibConcatPair.concatenate_pair, Cert.LibTyped.ofBuf_toBuf]

set_option maxRecDepth 8192 in
set_option maxHeartbeats 4000000 in
/-- The host operations between the first and the second region: the first aggregation of the product they find. -/
theorem first_aggregate : after hostOps1 W (Proc.devRef .tc main_v45)
    = Cert.Gcn.aggregate16 (F := Ideal) (W (Proc.devRef .tc main_v32)) (W (Proc.devRef .tc main_v3)) (W (Proc.devRef .tc main_v6))
        (W (Proc.devRef .tc main_v31)) := by
  simp (disch := decide) only [hostOps1, after_cons, after_nil,
      nullary_result', unary_result', binary_result', ternary_result', quaternary_result', reshape_result', nary4_result', nary_result',
      unaryIndexed_result', binaryIndexed_result',
      nullary_result_ne', unary_result_ne', binary_result_ne', ternary_result_ne', quaternary_result_ne', reshape_result_ne',
      nary_result_ne', unaryIndexed_result_ne', binaryIndexed_result_ne',
      Cert.LibConcatPair.concatenate_pair, Cert.LibTyped.ofBuf_toBuf]
  rfl

set_option maxRecDepth 8192 in
set_option maxHeartbeats 4000000 in
/-- … and the first bias vector as a row. -/
theorem first_row : after hostOps1 W (Proc.devRef .tc main_v46)
    = shapeCast S1x16 (W (Proc.devRef .tc main_arg3) : S16.Idx → EReal) shapeCasts_S16_S1x16 := by
  simp (disch := decide) only [hostOps1, after_cons, after_nil,
      nullary_result', unary_result', binary_result', ternary_result', quaternary_result', reshape_result', nary4_result', nary_result',
      unaryIndexed_result', binaryIndexed_result',
      nullary_result_ne', unary_result_ne', binary_result_ne', ternary_result_ne', quaternary_result_ne', reshape_result_ne',
      nary_result_ne', unaryIndexed_result_ne', binaryIndexed_result_ne',
      Cert.LibConcatPair.concatenate_pair, Cert.LibTyped.ofBuf_toBuf]
  rfl

set_option maxRecDepth 8192 in
set_option maxHeartbeats 4000000 in
/-- They write neither the edge ends, nor the edge weights, nor an argument array. -/
theorem first_keeps : after hostOps1 W (Proc.devRef .tc main_v3) = W (Proc.devRef .tc main_v3)
    ∧ after hostOps1 W (Proc.devRef .tc main_v6) = W (Proc.devRef .tc main_v6)
    ∧ after hostOps1 W (Proc.devRef .tc main_v31) = W (Proc.devRef .tc main_v31)
    ∧ after hostOps1 W (Proc.devRef .tc main_arg4) = W (Proc.devRef .tc main_arg4)
    ∧ after hostOps1 W (Proc.devRef .tc main_arg5) = W (Proc.devRef .tc main_arg5) := by
  refine ⟨?_, ?_, ?_, ?_, ?_⟩ <;>
  simp (disch := decide) only [hostOps1, after_cons, after_nil,
      nullary_result', unary_result', binary_result', ternary_result', quaternary_result', reshape_result', nary4_result', nary_result',
      unaryIndexed_result', binaryIndexed_result',
      nullary_result_ne', unary_result_ne', binary_result_ne', ternary_result_ne', quaternary_result_ne', reshape_result_ne',
      nary_result_ne', unaryIndexed_result_ne', binaryIndexed_result_ne',
      Cert.LibConcatPair.concatenate_pair, Cert.LibTyped.ofBuf_toBuf]

set_option maxRecDepth 8192 in
set_option maxHeartbeats 4000000 in
/-- The host operations between the third and the fourth region: the second aggregation of the product they find. -/
theorem second_aggregate : after hostOps3 W (Proc.devRef .tc main_v61)
    = Cert.Gcn.aggregate8 (F := Ideal) (W (Proc.devRef .tc main_v48)) (W (Proc.devRef .tc main_v3)) (W (Proc.devRef .tc main_v6))
        (W (Proc.devRef .tc main_v31)) := by
  simp (disch := decide) only [hostOps3, after_cons, after_nil,
      nullary_result', unary_result', binary_result', ternary_result', quaternary_result', reshape_result', nary4_result', nary_result',
      unaryIndexed_result', binaryIndexed_result',
      nullary_result_ne', unary_result_ne', binary_result_ne', ternary_result_ne', quaternary_result_ne', reshape_result_ne',
      nary_result_ne', unaryIndexed_result_ne', binaryIndexed_result_ne',
      Cert.LibConcatPair.concatenate_pair, Cert.LibTyped.ofBuf_toBuf]
  rfl

set_option maxRecDepth 8192 in
set_option maxHeartbeats 4000000 in
/-- … and the second bias vector as a row. -/
theorem second_row : after hostOps3 W (Proc.devRef .tc main_v62)
    = shapeCast S1x8 (W (Proc.devRef .tc main_arg5) : S8.Idx → EReal) shapeCasts_S8_S1x8 := by
  simp (disch := decide) only [hostOps3, after_cons, after_nil,
      nullary_result', unary_result', binary_result', ternary_result', quaternary_result', reshape_result', nary4_result', nary_result',
      unaryIndexed_result', binaryIndexed_result',
      nullary_result_ne', unary_result_ne', binary_result_ne', ternary_result_ne', quaternary_result_ne', reshape_result_ne',
      nary_result_ne', unaryIndexed_result_ne', binaryIndexed_result_ne',
      Cert.LibConcatPair.concatenate_pair, Cert.LibTyped.ofBuf_toBuf]
  rfl

end Stretches

/-! ## The fold through the program -/

variable (m : (ℓ : Loc nD τ sig) → Buf (Elt Ideal) ℓ) (ρ : Dev nD → PrngReg)

/-- The last boundary's contents at the result buffer: the network of the launch contents of the arguments. -/
theorem result_eq (c : Dev nD) :
    W9 m ρ c (Proc.devRef .tc main_v63)
      = Cert.Gcn.net (F := Ideal) (m ((c.tc : Thread nD τ).loc main_arg0)) (m ((c.tc : Thread nD τ).loc main_arg1))
          (m ((c.tc : Thread nD τ).loc main_arg2)) (m ((c.tc : Thread nD τ).loc main_arg3))
          (m ((c.tc : Thread nD τ).loc main_arg4)) (m ((c.tc : Thread nD τ).loc main_arg5)) := by
  -- the first region's entry
  obtain ⟨a0, a2, a3, a4, a5⟩ := entry_args (W0 m ρ c)
  have s3 := entry_sources (W0 m ρ c)
  have t3 := entry_targets (W0 m ρ c)
  have w3 := entry_weights (W0 m ρ c)
  -- the first region: the first projection
  have p4 : W4 m ρ c (Proc.devRef .tc main_v32)
      = Cert.Gcn.project1 (F := Ideal) (m ((c.tc : Thread nD τ).loc main_arg0)) (m ((c.tc : Thread nD τ).loc main_arg2)) :=
    (W4_arr m ρ c 2).trans ((Cert.KernelIdeal.Project1.array_eq (V3 m ρ) c).trans
      (congrArg₂ (Cert.KernelIdeal.Project1.product) a0 a2))
  have s4 := (W4_of_ne m ρ c main_v3 (by decide)).trans s3
  have t4 := (W4_of_ne m ρ c main_v6 (by decide)).trans t3
  have w4 := (W4_of_ne m ρ c main_v31 (by decide)).trans w3
  have b4 := (W4_of_ne m ρ c main_arg3 (by decide)).trans a3
  have c4 := (W4_of_ne m ρ c main_arg4 (by decide)).trans a4
  have d4 := (W4_of_ne m ρ c main_arg5 (by decide)).trans a5
  -- the host operations after it: the first aggregation
  obtain ⟨k3, k6, k31, k4, k5⟩ := first_keeps (W4 m ρ c)
  have g5 : W5 m ρ c (Proc.devRef .tc main_v45)
      = Cert.Gcn.aggregate16 (F := Ideal) (W4 m ρ c (Proc.devRef .tc main_v32)) (W4 m ρ c (Proc.devRef .tc main_v3))
          (W4 m ρ c (Proc.devRef .tc main_v6)) (W4 m ρ c (Proc.devRef .tc main_v31)) := first_aggregate (W4 m ρ c)
  have r5 : W5 m ρ c (Proc.devRef .tc main_v46)
      = shapeCast S1x16 (W4 m ρ c (Proc.devRef .tc main_arg3) : S16.Idx → EReal) shapeCasts_S16_S1x16 := first_row (W4 m ρ c)
  rw [p4, s4, t4, w4] at g5
  rw [b4] at r5
  -- the second region: bias and rectifier
  have h6 : W6 m ρ c (Proc.devRef .tc main_v47) = Cert.Gcn.hidden (F := Ideal) (m ((c.tc : Thread nD τ).loc main_arg0))
      (m ((c.tc : Thread nD τ).loc main_arg1)) (m ((c.tc : Thread nD τ).loc main_arg2)) (m ((c.tc : Thread nD τ).loc main_arg3)) := by
    refine (W6_arr m ρ c 2).trans ((Cert.KernelIdeal.Rectify.array_eq (V5 m ρ) c).trans ?_)
    show Cert.Gcn.relu (F := Ideal) (Cert.Gcn.addRow16 (F := Ideal) (W5 m ρ c (Proc.devRef .tc main_v45)) (W5 m ρ c (Proc.devRef .tc main_v46))) = _
    rw [g5, r5, row_eq _ _ Cert.ReferenceIdeal.Gen.bcast_S16_S1x16_1]
    rfl
  have s6 := (W6_of_ne m ρ c main_v3 (by decide)).trans (k3.trans s4)
  have t6 := (W6_of_ne m ρ c main_v6 (by decide)).trans (k6.trans t4)
  have w6 := (W6_of_ne m ρ c main_v31 (by decide)).trans (k31.trans w4)
  have c6 := (W6_of_ne m ρ c main_arg4 (by decide)).trans (k4.trans c4)
  have d6 := (W6_of_ne m ρ c main_arg5 (by decide)).trans (k5.trans d4)
  -- the third region: the second projection
  have p7 : W7 m ρ c (Proc.devRef .tc main_v48) = Cert.Gcn.project2 (F := Ideal) (Cert.Gcn.hidden (F := Ideal) (m ((c.tc : Thread nD τ).loc main_arg0))
      (m ((c.tc : Thread nD τ).loc main_arg1)) (m ((c.tc : Thread nD τ).loc main_arg2)) (m ((c.tc : Thread nD τ).loc main_arg3)))
      (m ((c.tc : Thread nD τ).loc main_arg4)) :=
    (W7_arr m ρ c 2).trans ((Cert.KernelIdeal.Project2.array_eq (V6 m ρ) c).trans
      (congrArg₂ (Cert.KernelIdeal.Project2.product) h6 c6))
  have s7 := (W7_of_ne m ρ c main_v3 (by decide)).trans s6
  have t7 := (W7_of_ne m ρ c main_v6 (by decide)).trans t6
  have w7 := (W7_of_ne m ρ c main_v31 (by decide)).trans w6
  have d7 := (W7_of_ne m ρ c main_arg5 (by decide)).trans d6
  -- the host operations after it: the second aggregation
  have g8 : W8 m ρ c (Proc.devRef .tc main_v61)
      = Cert.Gcn.aggregate8 (F := Ideal) (W7 m ρ c (Proc.devRef .tc main_v48)) (W7 m ρ c (Proc.devRef .tc main_v3))
          (W7 m ρ c (Proc.devRef .tc main_v6)) (W7 m ρ c (Proc.devRef .tc main_v31)) := second_aggregate (W7 m ρ c)
  have r8 : W8 m ρ c (Proc.devRef .tc main_v62)
      = shapeCast S1x8 (W7 m ρ c (Proc.devRef .tc main_arg5) : S8.Idx → EReal) shapeCasts_S8_S1x8 := second_row (W7 m ρ c)
  rw [p7, s7, t7, w7] at g8
  rw [d7] at r8
  -- the fourth region: bias and logistic function
  refine (W9_arr m ρ c 2).trans ((Cert.KernelIdeal.Squash.array_eq (V8 m ρ) c).trans ?_)
  show Cert.Gcn.logistic (F := Ideal) (Cert.Gcn.addRow8 (F := Ideal) (W8 m ρ c (Proc.devRef .tc main_v61)) (W8 m ρ c (Proc.devRef .tc main_v62))) = _
  rw [g8, r8, row_eq _ _ Cert.ReferenceIdeal.Gen.bcast_S8_S1x8_1]
  rfl

end Cert.KernelIdeal.Whole

end
-- ==== Proof.RefOps.lean ====
/-
  The reference program as a straight line of host operations.

  The reference is a two-layer graph convolution written with array operations only: the edge list is extended by one
  self-loop per node, the degree of each node is a scatter-add of ones over the targets, the weight of an edge is the
  product of the guarded inverse square roots of its two ends' degrees, and each layer is a matrix product, a gather of the
  projected rows at the sources, a scaling by the edge weights, a scatter-add at the targets and a bias; a rectifier follows
  the first layer and the logistic function the second. Listed here are its operations in program order (a called
  function's operations stand in its call's place), that the program is that line of operations, and that each of them
  touches only buffers of the one core.
-/
import proofs.«115920_j59339268161711_1_alg».proof.Proof.Gen.ReferenceIdeal
import Idealize.ShloMosaic.Lib.StableHlo.Run

noncomputable section

namespace Cert.ReferenceIdeal.Hand

open Cert.ReferenceIdeal Cert.ReferenceIdeal.Gen Idealize.ShloMosaic Idealize.ShloMosaic.TcCoe Idealize.SL.Sem Idealize.ShloMosaic.StableHlo

variable {F : FTy → Type} [FloatOps F]

/-- The program's operations, in order. -/
abbrev ops : List (HloOp τ sig (Elt F)) :=
  [ nullary main_v0 (iotaInDim S100000 32 0),
    unary main_arg1 main_v1 ((extractStridedSlice S1x3200000 ![0, 0] · slices_S2x3200000_S1x3200000_0_0) : (⟨S2x3200000, .i32⟩ : BufTy).Contents (Elt F) → (⟨S1x3200000, .i32⟩ : BufTy).Contents (Elt F)),
    reshape main_v1 main_v2 rfl shapeCasts_S1x3200000_S3200000,
    binary main_v2 main_v0 main_v3 ((fun a b => concatenate S3300000 0 [⟨S3200000, a⟩, ⟨S100000, b⟩] concatenates_S3200000_S100000_S3300000_d0) : (⟨S3200000, .i32⟩ : BufTy).Contents (Elt F) → (⟨S100000, .i32⟩ : BufTy).Contents (Elt F) → (⟨S3300000, .i32⟩ : BufTy).Contents (Elt F)),
    unary main_arg1 main_v4 ((extractStridedSlice S1x3200000 ![1, 0] · slices_S2x3200000_S1x3200000_1_0) : (⟨S2x3200000, .i32⟩ : BufTy).Contents (Elt F) → (⟨S1x3200000, .i32⟩ : BufTy).Contents (Elt F)),
    reshape main_v4 main_v5 rfl shapeCasts_S1x3200000_S3200000,
    binary main_v5 main_v0 main_v6 ((fun a b => concatenate S3300000 0 [⟨S3200000, a⟩, ⟨S100000, b⟩] concatenates_S3200000_S100000_S3300000_d0) : (⟨S3200000, .i32⟩ : BufTy).Contents (Elt F) → (⟨S100000, .i32⟩ : BufTy).Contents (Elt F) → (⟨S3300000, .i32⟩ : BufTy).Contents (Elt F)),
    binary main_arg0 main_arg2 main_v7 ((fun l r => Host.dotGeneral dot_S100000x128_S128x16_S100000x16_1_0_0_1_n_n none l r) : (⟨S100000x128, .f32⟩ : BufTy).Contents (Elt F) → (⟨S128x16, .f32⟩ : BufTy).Contents (Elt F) → (⟨S100000x16, .f32⟩ : BufTy).Contents (Elt F)),
    nullary main_cst (constant S_ .f32 0x3F800000#32),
    unary main_cst main_v8 (broadcastInDim S3300000 ![] bcast_S_S3300000 : (⟨S_, .f32⟩ : BufTy).Contents (Elt F) → (⟨S3300000, .f32⟩ : BufTy).Contents (Elt F)),
    nullary main_cst_0 (constant S_ .f32 0x00000000#32),
    unary main_cst_0 main_v9 (broadcastInDim S100000 ![] bcast_S_S100000 : (⟨S_, .f32⟩ : BufTy).Contents (Elt F) → (⟨S100000, .f32⟩ : BufTy).Contents (Elt F)),
    unary main_v6 main_v10 (broadcastInDim S3300000x1 ![0] bcast_S3300000_S3300000x1_0 : (⟨S3300000, .i32⟩ : BufTy).Contents (Elt F) → (⟨S3300000x1, .i32⟩ : BufTy).Contents (Elt F)),
    ternary main_v9 main_v10 main_v8 main_v11 ((fun x i u => Host.scatterAdd scatter_S100000_S3300000x1_S3300000_n_0_0_1 x i u) : (⟨S100000, .f32⟩ : BufTy).Contents (Elt F) → (⟨S3300000x1, .i32⟩ : BufTy).Contents (Elt F) → (⟨S3300000, .f32⟩ : BufTy).Contents (Elt F) → (⟨S100000, .f32⟩ : BufTy).Contents (Elt F)),
    nullary main_cst_1 (constant S_ .f32 0x2B8CBCCC#32),
    unary main_cst_1 main_v12 (broadcastInDim S100000 ![] bcast_S_S100000 : (⟨S_, .f32⟩ : BufTy).Contents (Elt F) → (⟨S100000, .f32⟩ : BufTy).Contents (Elt F)),
    binary main_v11 main_v12 main_v13 (maximumf : (⟨S100000, .f32⟩ : BufTy).Contents (Elt F) → (⟨S100000, .f32⟩ : BufTy).Contents (Elt F) → (⟨S100000, .f32⟩ : BufTy).Contents (Elt F)),
    unary main_v13 main_v14 (Host.rsqrt : (⟨S100000, .f32⟩ : BufTy).Contents (Elt F) → (⟨S100000, .f32⟩ : BufTy).Contents (Elt F)),
    nullary main_cst_2 (constant S_ .f32 0x00000000#32),
    unary main_cst_2 main_v15 (broadcastInDim S100000 ![] bcast_S_S100000 : (⟨S_, .f32⟩ : BufTy).Contents (Elt F) → (⟨S100000, .f32⟩ : BufTy).Contents (Elt F)),
    binary main_v11 main_v15 main_v16 (cmpf .ogt : (⟨S100000, .f32⟩ : BufTy).Contents (Elt F) → (⟨S100000, .f32⟩ : BufTy).Contents (Elt F) → (⟨S100000, .i1⟩ : BufTy).Contents (Elt F)),
    nullary main_cst_3 (constant S_ .f32 0x00000000#32),
    TRef.unary (TRef.of (T := ⟨S_, .f32⟩) main_cst_3) (TRef.of (T := ⟨S_, .f32⟩) main_call0_v0) id,
    TRef.unary (TRef.of (T := ⟨S_, .f32⟩) main_call0_v0) (TRef.of (T := ⟨S100000, .f32⟩) main_call0_v1) (broadcastInDim S100000 ![] bcast_S_S100000),
    TRef.ternary (TRef.of (T := ⟨S100000, .i1⟩) main_v16) (TRef.of (T := ⟨S100000, .f32⟩) main_v14) (TRef.of (T := ⟨S100000, .f32⟩) main_call0_v1) (TRef.of (T := ⟨S100000, .f32⟩) main_v17) select,
    nullary main_c (constantI S_ 32 0#32),
    unary main_c main_v18 (broadcastInDim S3300000 ![] bcast_S_S3300000 : (⟨S_, .i32⟩ : BufTy).Contents (Elt F) → (⟨S3300000, .i32⟩ : BufTy).Contents (Elt F)),
    binary main_v3 main_v18 main_v19 (cmpi .slt : (⟨S3300000, .i32⟩ : BufTy).Contents (Elt F) → (⟨S3300000, .i32⟩ : BufTy).Contents (Elt F) → (⟨S3300000, .i1⟩ : BufTy).Contents (Elt F)),
    nullary main_c_4 (constantI S_ 32 100000#32),
    unary main_c_4 main_v20 (broadcastInDim S3300000 ![] bcast_S_S3300000 : (⟨S_, .i32⟩ : BufTy).Contents (Elt F) → (⟨S3300000, .i32⟩ : BufTy).Contents (Elt F)),
    binary main_v3 main_v20 main_v21 (addi : (⟨S3300000, .i32⟩ : BufTy).Contents (Elt F) → (⟨S3300000, .i32⟩ : BufTy).Contents (Elt F) → (⟨S3300000, .i32⟩ : BufTy).Contents (Elt F)),
    ternary main_v19 main_v21 main_v3 main_v22 (select : (⟨S3300000, .i1⟩ : BufTy).Contents (Elt F) → (⟨S3300000, .i32⟩ : BufTy).Contents (Elt F) → (⟨S3300000, .i32⟩ : BufTy).Contents (Elt F) → (⟨S3300000, .i32⟩ : BufTy).Contents (Elt F)),
    unary main_v22 main_v23 (broadcastInDim S3300000x1 ![0] bcast_S3300000_S3300000x1_0 : (⟨S3300000, .i32⟩ : BufTy).Contents (Elt F) → (⟨S3300000x1, .i32⟩ : BufTy).Contents (Elt F)),
    binary main_v17 main_v23 main_v24 ((fun x i => Host.gather gather_S100000_S3300000x1_S3300000_n_0_n_n_0_1_1 x i) : (⟨S100000, .f32⟩ : BufTy).Contents (Elt F) → (⟨S3300000x1, .i32⟩ : BufTy).Contents (Elt F) → (⟨S3300000, .f32⟩ : BufTy).Contents (Elt F)),
    nullary main_c_5 (constantI S_ 32 0#32),
    unary main_c_5 main_v25 (broadcastInDim S3300000 ![] bcast_S_S3300000 : (⟨S_, .i32⟩ : BufTy).Contents (Elt F) → (⟨S3300000, .i32⟩ : BufTy).Contents (Elt F)),
    binary main_v6 main_v25 main_v26 (cmpi .slt : (⟨S3300000, .i32⟩ : BufTy).Contents (Elt F) → (⟨S3300000, .i32⟩ : BufTy).Contents (Elt F) → (⟨S3300000, .i1⟩ : BufTy).Contents (Elt F)),
    nullary main_c_6 (constantI S_ 32 100000#32),
    unary main_c_6 main_v27 (broadcastInDim S3300000 ![] bcast_S_S3300000 : (⟨S_, .i32⟩ : BufTy).Contents (Elt F) → (⟨S3300000, .i32⟩ : BufTy).Contents (Elt F)),
    binary main_v6 main_v27 main_v28 (addi : (⟨S3300000, .i32⟩ : BufTy).Contents (Elt F) → (⟨S3300000, .i32⟩ : BufTy).Contents (Elt F) → (⟨S3300000, .i32⟩ : BufTy).Contents (Elt F)),
    ternary main_v26 main_v28 main_v6 main_v29 (select : (⟨S3300000, .i1⟩ : BufTy).Contents (Elt F) → (⟨S3300000, .i32⟩ : BufTy).Contents (Elt F) → (⟨S3300000, .i32⟩ : BufTy).Contents (Elt F) → (⟨S3300000, .i32⟩ : BufTy).Contents (Elt F)),
    unary main_v29 main_v30 (broadcastInDim S3300000x1 ![0] bcast_S3300000_S3300000x1_0 : (⟨S3300000, .i32⟩ : BufTy).Contents (Elt F) → (⟨S3300000x1, .i32⟩ : BufTy).Contents (Elt F)),
    binary main_v17 main_v30 main_v31 ((fun x i => Host.gather gather_S100000_S3300000x1_S3300000_n_0_n_n_0_1_1 x i) : (⟨S100000, .f32⟩ : BufTy).Contents (Elt F) → (⟨S3300000x1, .i32⟩ : BufTy).Contents (Elt F) → (⟨S3300000, .f32⟩ : BufTy).Contents (Elt F)),
    binary main_v24 main_v31 main_v32 (mulf : (⟨S3300000, .f32⟩ : BufTy).Contents (Elt F) → (⟨S3300000, .f32⟩ : BufTy).Contents (Elt F) → (⟨S3300000, .f32⟩ : BufTy).Contents (Elt F)),
    nullary main_c_7 (constantI S_ 32 0#32),
    unary main_c_7 main_v33 (broadcastInDim S3300000 ![] bcast_S_S3300000 : (⟨S_, .i32⟩ : BufTy).Contents (Elt F) → (⟨S3300000, .i32⟩ : BufTy).Contents (Elt F)),
    binary main_v3 main_v33 main_v34 (cmpi .slt : (⟨S3300000, .i32⟩ : BufTy).Contents (Elt F) → (⟨S3300000, .i32⟩ : BufTy).Contents (Elt F) → (⟨S3300000, .i1⟩ : BufTy).Contents (Elt F)),
    nullary main_c_8 (constantI S_ 32 100000#32),
    unary main_c_8 main_v35 (broadcastInDim S3300000 ![] bcast_S_S3300000 : (⟨S_, .i32⟩ : BufTy).Contents (Elt F) → (⟨S3300000, .i32⟩ : BufTy).Contents (Elt F)),
    binary main_v3 main_v35 main_v36 (addi : (⟨S3300000, .i32⟩ : BufTy).Contents (Elt F) → (⟨S3300000, .i32⟩ : BufTy).Contents (Elt F) → (⟨S3300000, .i32⟩ : BufTy).Contents (Elt F)),
    ternary main_v34 main_v36 main_v3 main_v37 (select : (⟨S3300000, .i1⟩ : BufTy).Contents (Elt F) → (⟨S3300000, .i32⟩ : BufTy).Contents (Elt F) → (⟨S3300000, .i32⟩ : BufTy).Contents (Elt F) → (⟨S3300000, .i32⟩ : BufTy).Contents (Elt F)),
    unary main_v37 main_v38 (broadcastInDim S3300000x1 ![0] bcast_S3300000_S3300000x1_0 : (⟨S3300000, .i32⟩ : BufTy).Contents (Elt F) → (⟨S3300000x1, .i32⟩ : BufTy).Contents (Elt F)),
    binary main_v7 main_v38 main_v39 ((fun x i => Host.gather gather_S100000x16_S3300000x1_S3300000x16_1_0_n_n_0_1_116 x i) : (⟨S100000x16, .f32⟩ : BufTy).Contents (Elt F) → (⟨S3300000x1, .i32⟩ : BufTy).Contents (Elt F) → (⟨S3300000x16, .f32⟩ : BufTy).Contents (Elt F)),
    unary main_v32 main_v40 (broadcastInDim S3300000x1 ![0] bcast_S3300000_S3300000x1_0 : (⟨S3300000, .f32⟩ : BufTy).Contents (Elt F) → (⟨S3300000x1, .f32⟩ : BufTy).Contents (Elt F)),
    unary main_v40 main_v41 (broadcastInDim S3300000x16 ![0, 1] bcast_S3300000x1_S3300000x16_0_1 : (⟨S3300000x1, .f32⟩ : BufTy).Contents (Elt F) → (⟨S3300000x16, .f32⟩ : BufTy).Contents (Elt F)),
    binary main_v39 main_v41 main_v42 (mulf : (⟨S3300000x16, .f32⟩ : BufTy).Contents (Elt F) → (⟨S3300000x16, .f32⟩ : BufTy).Contents (Elt F) → (⟨S3300000x16, .f32⟩ : BufTy).Contents (Elt F)),
    nullary main_cst_9 (constant S_ .f32 0x00000000#32),
    unary main_cst_9 main_v43 (broadcastInDim S100000x16 ![] bcast_S_S100000x16 : (⟨S_, .f32⟩ : BufTy).Contents (Elt F) → (⟨S100000x16, .f32⟩ : BufTy).Contents (Elt F)),
    unary main_v6 main_v44 (broadcastInDim S3300000x1 ![0] bcast_S3300000_S3300000x1_0 : (⟨S3300000, .i32⟩ : BufTy).Contents (Elt F) → (⟨S3300000x1, .i32⟩ : BufTy).Contents (Elt F)),
    ternary main_v43 main_v44 main_v42 main_v45 ((fun x i u => Host.scatterAdd scatter_S100000x16_S3300000x1_S3300000x16_1_0_0_1 x i u) : (⟨S100000x16, .f32⟩ : BufTy).Contents (Elt F) → (⟨S3300000x1, .i32⟩ : BufTy).Contents (Elt F) → (⟨S3300000x16, .f32⟩ : BufTy).Contents (Elt F) → (⟨S100000x16, .f32⟩ : BufTy).Contents (Elt F)),
    unary main_arg3 main_v46 (broadcastInDim S1x16 ![1] bcast_S16_S1x16_1 : (⟨S16, .f32⟩ : BufTy).Contents (Elt F) → (⟨S1x16, .f32⟩ : BufTy).Contents (Elt F)),
    unary main_v46 main_v47 (broadcastInDim S100000x16 ![0, 1] bcast_S1x16_S100000x16_0_1 : (⟨S1x16, .f32⟩ : BufTy).Contents (Elt F) → (⟨S100000x16, .f32⟩ : BufTy).Contents (Elt F)),
    binary main_v45 main_v47 main_v48 (addf : (⟨S100000x16, .f32⟩ : BufTy).Contents (Elt F) → (⟨S100000x16, .f32⟩ : BufTy).Contents (Elt F) → (⟨S100000x16, .f32⟩ : BufTy).Contents (Elt F)),
    TRef.nullary (TRef.of (T := ⟨S_, .f32⟩) main_call1_cst) (constant S_ .f32 0x00000000#32),
    TRef.unary (TRef.of (T := ⟨S_, .f32⟩) main_call1_cst) (TRef.of (T := ⟨S100000x16, .f32⟩) main_call1_v0) (broadcastInDim S100000x16 ![] bcast_S_S100000x16),
    TRef.binary (TRef.of (T := ⟨S100000x16, .f32⟩) main_v48) (TRef.of (T := ⟨S100000x16, .f32⟩) main_call1_v0) (TRef.of (T := ⟨S100000x16, .f32⟩) main_v49) maximumf,
    nullary main_v50 (iotaInDim S100000 32 0),
    unary main_arg1 main_v51 ((extractStridedSlice S1x3200000 ![0, 0] · slices_S2x3200000_S1x3200000_0_0) : (⟨S2x3200000, .i32⟩ : BufTy).Contents (Elt F) → (⟨S1x3200000, .i32⟩ : BufTy).Contents (Elt F)),
    reshape main_v51 main_v52 rfl shapeCasts_S1x3200000_S3200000,
    binary main_v52 main_v50 main_v53 ((fun a b => concatenate S3300000 0 [⟨S3200000, a⟩, ⟨S100000, b⟩] concatenates_S3200000_S100000_S3300000_d0) : (⟨S3200000, .i32⟩ : BufTy).Contents (Elt F) → (⟨S100000, .i32⟩ : BufTy).Contents (Elt F) → (⟨S3300000, .i32⟩ : BufTy).Contents (Elt F)),
    unary main_arg1 main_v54 ((extractStridedSlice S1x3200000 ![1, 0] · slices_S2x3200000_S1x3200000_1_0) : (⟨S2x3200000, .i32⟩ : BufTy).Contents (Elt F) → (⟨S1x3200000, .i32⟩ : BufTy).Contents (Elt F)),
    reshape main_v54 main_v55 rfl shapeCasts_S1x3200000_S3200000,
    binary main_v55 main_v50 main_v56 ((fun a b => concatenate S3300000 0 [⟨S3200000, a⟩, ⟨S100000, b⟩] concatenates_S3200000_S100000_S3300000_d0) : (⟨S3200000, .i32⟩ : BufTy).Contents (Elt F) → (⟨S100000, .i32⟩ : BufTy).Contents (Elt F) → (⟨S3300000, .i32⟩ : BufTy).Contents (Elt F)),
    binary main_v49 main_arg4 main_v57 ((fun l r => Host.dotGeneral dot_S100000x16_S16x8_S100000x8_1_0_0_1_n_n none l r) : (⟨S100000x16, .f32⟩ : BufTy).Contents (Elt F) → (⟨S16x8, .f32⟩ : BufTy).Contents (Elt F) → (⟨S100000x8, .f32⟩ : BufTy).Contents (Elt F)),
    nullary main_cst_10 (constant S_ .f32 0x3F800000#32),
    unary main_cst_10 main_v58 (broadcastInDim S3300000 ![] bcast_S_S3300000 : (⟨S_, .f32⟩ : BufTy).Contents (Elt F) → (⟨S3300000, .f32⟩ : BufTy).Contents (Elt F)),
    nullary main_cst_11 (constant S_ .f32 0x00000000#32),
    unary main_cst_11 main_v59 (broadcastInDim S100000 ![] bcast_S_S100000 : (⟨S_, .f32⟩ : BufTy).Contents (Elt F) → (⟨S100000, .f32⟩ : BufTy).Contents (Elt F)),
    unary main_v56 main_v60 (broadcastInDim S3300000x1 ![0] bcast_S3300000_S3300000x1_0 : (⟨S3300000, .i32⟩ : BufTy).Contents (Elt F) → (⟨S3300000x1, .i32⟩ : BufTy).Contents (Elt F)),
    ternary main_v59 main_v60 main_v58 main_v61 ((fun x i u => Host.scatterAdd scatter_S100000_S3300000x1_S3300000_n_0_0_1 x i u) : (⟨S100000, .f32⟩ : BufTy).Contents (Elt F) → (⟨S3300000x1, .i32⟩ : BufTy).Contents (Elt F) → (⟨S3300000, .f32⟩ : BufTy).Contents (Elt F) → (⟨S100000, .f32⟩ : BufTy).Contents (Elt F)),
    nullary main_cst_12 (constant S_ .f32 0x2B8CBCCC#32),
    unary main_cst_12 main_v62 (broadcastInDim S100000 ![] bcast_S_S100000 : (⟨S_, .f32⟩ : BufTy).Contents (Elt F) → (⟨S100000, .f32⟩ : BufTy).Contents (Elt F)),
    binary main_v61 main_v62 main_v63 (maximumf : (⟨S100000, .f32⟩ : BufTy).Contents (Elt F) → (⟨S100000, .f32⟩ : BufTy).Contents (Elt F) → (⟨S100000, .f32⟩ : BufTy).Contents (Elt F)),
    unary main_v63 main_v64 (Host.rsqrt : (⟨S100000, .f32⟩ : BufTy).Contents (Elt F) → (⟨S100000, .f32⟩ : BufTy).Contents (Elt F)),
    nullary main_cst_13 (constant S_ .f32 0x00000000#32),
    unary main_cst_13 main_v65 (broadcastInDim S100000 ![] bcast_S_S100000 : (⟨S_, .f32⟩ : BufTy).Contents (Elt F) → (⟨S100000, .f32⟩ : BufTy).Contents (Elt F)),
    binary main_v61 main_v65 main_v66 (cmpf .ogt : (⟨S100000, .f32⟩ : BufTy).Contents (Elt F) → (⟨S100000, .f32⟩ : BufTy).Contents (Elt F) → (⟨S100000, .i1⟩ : BufTy).Contents (Elt F)),
    nullary main_cst_14 (constant S_ .f32 0x00000000#32),
    TRef.unary (TRef.of (T := ⟨S_, .f32⟩) main_cst_14) (TRef.of (T := ⟨S_, .f32⟩) main_call2_v0) id,
    TRef.unary (TRef.of (T := ⟨S_, .f32⟩) main_call2_v0) (TRef.of (T := ⟨S100000, .f32⟩) main_call2_v1) (broadcastInDim S100000 ![] bcast_S_S100000),
    TRef.ternary (TRef.of (T := ⟨S100000, .i1⟩) main_v66) (TRef.of (T := ⟨S100000, .f32⟩) main_v64) (TRef.of (T := ⟨S100000, .f32⟩) main_call2_v1) (TRef.of (T := ⟨S100000, .f32⟩) main_v67) select,
    nullary main_c_15 (constantI S_ 32 0#32),
    unary main_c_15 main_v68 (broadcastInDim S3300000 ![] bcast_S_S3300000 : (⟨S_, .i32⟩ : BufTy).Contents (Elt F) → (⟨S3300000, .i32⟩ : BufTy).Contents (Elt F)),
    binary main_v53 main_v68 main_v69 (cmpi .slt : (⟨S3300000, .i32⟩ : BufTy).Contents (Elt F) → (⟨S3300000, .i32⟩ : BufTy).Contents (Elt F) → (⟨S3300000, .i1⟩ : BufTy).Contents (Elt F)),
    nullary main_c_16 (constantI S_ 32 100000#32),
    unary main_c_16 main_v70 (broadcastInDim S3300000 ![] bcast_S_S3300000 : (⟨S_, .i32⟩ : BufTy).Contents (Elt F) → (⟨S3300000, .i32⟩ : BufTy).Contents (Elt F)),
    binary main_v53 main_v70 main_v71 (addi : (⟨S3300000, .i32⟩ : BufTy).Contents (Elt F) → (⟨S3300000, .i32⟩ : BufTy).Contents (Elt F) → (⟨S3300000, .i32⟩ : BufTy).Contents (Elt F)),
    ternary main_v69 main_v71 main_v53 main_v72 (select : (⟨S3300000, .i1⟩ : BufTy).Contents (Elt F) → (⟨S3300000, .i32⟩ : BufTy).Contents (Elt F) → (⟨S3300000, .i32⟩ : BufTy).Contents (Elt F) → (⟨S3300000, .i32⟩ : BufTy).Contents (Elt F)),
    unary main_v72 main_v73 (broadcastInDim S3300000x1 ![0] bcast_S3300000_S3300000x1_0 : (⟨S3300000, .i32⟩ : BufTy).Contents (Elt F) → (⟨S3300000x1, .i32⟩ : BufTy).Contents (Elt F)),
    binary main_v67 main_v73 main_v74 ((fun x i => Host.gather gather_S100000_S3300000x1_S3300000_n_0_n_n_0_1_1 x i) : (⟨S100000, .f32⟩ : BufTy).Contents (Elt F) → (⟨S3300000x1, .i32⟩ : BufTy).Contents (Elt F) → (⟨S3300000, .f32⟩ : BufTy).Contents (Elt F)),
    nullary main_c_17 (constantI S_ 32 0#32),
    unary main_c_17 main_v75 (broadcastInDim S3300000 ![] bcast_S_S3300000 : (⟨S_, .i32⟩ : BufTy).Contents (Elt F) → (⟨S3300000, .i32⟩ : BufTy).Contents (Elt F)),
    binary main_v56 main_v75 main_v76 (cmpi .slt : (⟨S3300000, .i32⟩ : BufTy).Contents (Elt F) → (⟨S3300000, .i32⟩ : BufTy).Contents (Elt F) → (⟨S3300000, .i1⟩ : BufTy).Contents (Elt F)),
    nullary main_c_18 (constantI S_ 32 100000#32),
    unary main_c_18 main_v77 (broadcastInDim S3300000 ![] bcast_S_S3300000 : (⟨S_, .i32⟩ : BufTy).Contents (Elt F) → (⟨S3300000, .i32⟩ : BufTy).Contents (Elt F)),
    binary main_v56 main_v77 main_v78 (addi : (⟨S3300000, .i32⟩ : BufTy).Contents (Elt F) → (⟨S3300000, .i32⟩ : BufTy).Contents (Elt F) → (⟨S3300000, .i32⟩ : BufTy).Contents (Elt F)),
    ternary main_v76 main_v78 main_v56 main_v79 (select : (⟨S3300000, .i1⟩ : BufTy).Contents (Elt F) → (⟨S3300000, .i32⟩ : BufTy).Contents (Elt F) → (⟨S3300000, .i32⟩ : BufTy).Contents (Elt F) → (⟨S3300000, .i32⟩ : BufTy).Contents (Elt F)),
    unary main_v79 main_v80 (broadcastInDim S3300000x1 ![0] bcast_S3300000_S3300000x1_0 : (⟨S3300000, .i32⟩ : BufTy).Contents (Elt F) → (⟨S3300000x1, .i32⟩ : BufTy).Contents (Elt F)),
    binary main_v67 main_v80 main_v81 ((fun x i => Host.gather gather_S100000_S3300000x1_S3300000_n_0_n_n_0_1_1 x i) : (⟨S100000, .f32⟩ : BufTy).Contents (Elt F) → (⟨S3300000x1, .i32⟩ : BufTy).Contents (Elt F) → (⟨S3300000, .f32⟩ : BufTy).Contents (Elt F)),
    binary main_v74 main_v81 main_v82 (mulf : (⟨S3300000, .f32⟩ : BufTy).Contents (Elt F) → (⟨S3300000, .f32⟩ : BufTy).Contents (Elt F) → (⟨S3300000, .f32⟩ : BufTy).Contents (Elt F)),
    nullary main_c_19 (constantI S_ 32 0#32),
    unary main_c_19 main_v83 (broadcastInDim S3300000 ![] bcast_S_S3300000 : (⟨S_, .i32⟩ : BufTy).Contents (Elt F) → (⟨S3300000, .i32⟩ : BufTy).Contents (Elt F)),
    binary main_v53 main_v83 main_v84 (cmpi .slt : (⟨S3300000, .i32⟩ : BufTy).Contents (Elt F) → (⟨S3300000, .i32⟩ : BufTy).Contents (Elt F) → (⟨S3300000, .i1⟩ : BufTy).Contents (Elt F)),
    nullary main_c_20 (constantI S_ 32 100000#32),
    unary main_c_20 main_v85 (broadcastInDim S3300000 ![] bcast_S_S3300000 : (⟨S_, .i32⟩ : BufTy).Contents (Elt F) → (⟨S3300000, .i32⟩ : BufTy).Contents (Elt F)),
    binary main_v53 main_v85 main_v86 (addi : (⟨S3300000, .i32⟩ : BufTy).Contents (Elt F) → (⟨S3300000, .i32⟩ : BufTy).Contents (Elt F) → (⟨S3300000, .i32⟩ : BufTy).Contents (Elt F)),
    ternary main_v84 main_v86 main_v53 main_v87 (select : (⟨S3300000, .i1⟩ : BufTy).Contents (Elt F) → (⟨S3300000, .i32⟩ : BufTy).Contents (Elt F) → (⟨S3300000, .i32⟩ : BufTy).Contents (Elt F) → (⟨S3300000, .i32⟩ : BufTy).Contents (Elt F)),
    unary main_v87 main_v88 (broadcastInDim S3300000x1 ![0] bcast_S3300000_S3300000x1_0 : (⟨S3300000, .i32⟩ : BufTy).Contents (Elt F) → (⟨S3300000x1, .i32⟩ : BufTy).Contents (Elt F)),
    binary main_v57 main_v88 main_v89 ((fun x i => Host.gather gather_S100000x8_S3300000x1_S3300000x8_1_0_n_n_0_1_18 x i) : (⟨S100000x8, .f32⟩ : BufTy).Contents (Elt F) → (⟨S3300000x1, .i32⟩ : BufTy).Contents (Elt F) → (⟨S3300000x8, .f32⟩ : BufTy).Contents (Elt F)),
    unary main_v82 main_v90 (broadcastInDim S3300000x1 ![0] bcast_S3300000_S3300000x1_0 : (⟨S3300000, .f32⟩ : BufTy).Contents (Elt F) → (⟨S3300000x1, .f32⟩ : BufTy).Contents (Elt F)),
    unary main_v90 main_v91 (broadcastInDim S3300000x8 ![0, 1] bcast_S3300000x1_S3300000x8_0_1 : (⟨S3300000x1, .f32⟩ : BufTy).Contents (Elt F) → (⟨S3300000x8, .f32⟩ : BufTy).Contents (Elt F)),
    binary main_v89 main_v91 main_v92 (mulf : (⟨S3300000x8, .f32⟩ : BufTy).Contents (Elt F) → (⟨S3300000x8, .f32⟩ : BufTy).Contents (Elt F) → (⟨S3300000x8, .f32⟩ : BufTy).Contents (Elt F)),
    nullary main_cst_21 (constant S_ .f32 0x00000000#32),
    unary main_cst_21 main_v93 (broadcastInDim S100000x8 ![] bcast_S_S100000x8 : (⟨S_, .f32⟩ : BufTy).Contents (Elt F) → (⟨S100000x8, .f32⟩ : BufTy).Contents (Elt F)),
    unary main_v56 main_v94 (broadcastInDim S3300000x1 ![0] bcast_S3300000_S3300000x1_0 : (⟨S3300000, .i32⟩ : BufTy).Contents (Elt F) → (⟨S3300000x1, .i32⟩ : BufTy).Contents (Elt F)),
    ternary main_v93 main_v94 main_v92 main_v95 ((fun x i u => Host.scatterAdd scatter_S100000x8_S3300000x1_S3300000x8_1_0_0_1 x i u) : (⟨S100000x8, .f32⟩ : BufTy).Contents (Elt F) → (⟨S3300000x1, .i32⟩ : BufTy).Contents (Elt F) → (⟨S3300000x8, .f32⟩ : BufTy).Contents (Elt F) → (⟨S100000x8, .f32⟩ : BufTy).Contents (Elt F)),
    unary main_arg5 main_v96 (broadcastInDim S1x8 ![1] bcast_S8_S1x8_1 : (⟨S8, .f32⟩ : BufTy).Contents (Elt F) → (⟨S1x8, .f32⟩ : BufTy).Contents (Elt F)),
    unary main_v96 main_v97 (broadcastInDim S100000x8 ![0, 1] bcast_S1x8_S100000x8_0_1 : (⟨S1x8, .f32⟩ : BufTy).Contents (Elt F) → (⟨S100000x8, .f32⟩ : BufTy).Contents (Elt F)),
    binary main_v95 main_v97 main_v98 (addf : (⟨S100000x8, .f32⟩ : BufTy).Contents (Elt F) → (⟨S100000x8, .f32⟩ : BufTy).Contents (Elt F) → (⟨S100000x8, .f32⟩ : BufTy).Contents (Elt F)),
    unary main_v98 main_v99 (Host.negf : (⟨S100000x8, .f32⟩ : BufTy).Contents (Elt F) → (⟨S100000x8, .f32⟩ : BufTy).Contents (Elt F)),
    unary main_v99 main_v100 (Host.exp : (⟨S100000x8, .f32⟩ : BufTy).Contents (Elt F) → (⟨S100000x8, .f32⟩ : BufTy).Contents (Elt F)),
    nullary main_cst_22 (constant S_ .f32 0x3F800000#32),
    unary main_cst_22 main_v101 (broadcastInDim S100000x8 ![] bcast_S_S100000x8 : (⟨S_, .f32⟩ : BufTy).Contents (Elt F) → (⟨S100000x8, .f32⟩ : BufTy).Contents (Elt F)),
    binary main_v101 main_v100 main_v102 (addf : (⟨S100000x8, .f32⟩ : BufTy).Contents (Elt F) → (⟨S100000x8, .f32⟩ : BufTy).Contents (Elt F) → (⟨S100000x8, .f32⟩ : BufTy).Contents (Elt F)),
    nullary main_cst_23 (constant S_ .f32 0x3F800000#32),
    unary main_cst_23 main_v103 (broadcastInDim S100000x8 ![] bcast_S_S100000x8 : (⟨S_, .f32⟩ : BufTy).Contents (Elt F) → (⟨S100000x8, .f32⟩ : BufTy).Contents (Elt F)),
    binary main_v103 main_v102 main_v104 (Host.divf : (⟨S100000x8, .f32⟩ : BufTy).Contents (Elt F) → (⟨S100000x8, .f32⟩ : BufTy).Contents (Elt F) → (⟨S100000x8, .f32⟩ : BufTy).Contents (Elt F)) ]

set_option maxRecDepth 8192 in
set_option maxHeartbeats 4000000 in
theorem main_eq (c : Dev nD) : main (F := F) c = seq ops := rfl
theorem scopedRefs_eq : (Finset.univ.filter fun b : Ref sig .tc => b.isScoped) = ∅ := by decide
theorem scopedSems_eq : (Finset.univ.filter fun sm : SemLoc sig => sm.isScoped .tc) = ∅ := by decide
set_option maxRecDepth 8192 in
theorem ops_sub : (ops : List (HloOp τ sig (Elt F))).Forall fun op => op.bufs ⊆ tcRefs τ sig :=
  ⟨nullary_bufs_sub .., unary_bufs_sub .., reshape_bufs_sub .., binary_bufs_sub .., unary_bufs_sub .., reshape_bufs_sub .., binary_bufs_sub .., binary_bufs_sub .., nullary_bufs_sub .., unary_bufs_sub .., nullary_bufs_sub .., unary_bufs_sub .., unary_bufs_sub .., ternary_bufs_sub .., nullary_bufs_sub .., unary_bufs_sub .., binary_bufs_sub .., unary_bufs_sub .., nullary_bufs_sub .., unary_bufs_sub .., binary_bufs_sub .., nullary_bufs_sub .., unary_bufs_sub .., unary_bufs_sub .., ternary_bufs_sub .., nullary_bufs_sub .., unary_bufs_sub .., binary_bufs_sub .., nullary_bufs_sub .., unary_bufs_sub .., binary_bufs_sub .., ternary_bufs_sub .., unary_bufs_sub .., binary_bufs_sub .., nullary_bufs_sub .., unary_bufs_sub .., binary_bufs_sub .., nullary_bufs_sub .., unary_bufs_sub .., binary_bufs_sub .., ternary_bufs_sub .., unary_bufs_sub .., binary_bufs_sub .., binary_bufs_sub .., nullary_bufs_sub .., unary_bufs_sub .., binary_bufs_sub .., nullary_bufs_sub .., unary_bufs_sub .., binary_bufs_sub .., ternary_bufs_sub .., unary_bufs_sub .., binary_bufs_sub .., unary_bufs_sub .., unary_bufs_sub .., binary_bufs_sub .., nullary_bufs_sub .., unary_bufs_sub .., unary_bufs_sub .., ternary_bufs_sub .., unary_bufs_sub .., unary_bufs_sub .., binary_bufs_sub .., nullary_bufs_sub .., unary_bufs_sub .., binary_bufs_sub .., nullary_bufs_sub .., unary_bufs_sub .., reshape_bufs_sub .., binary_bufs_sub .., unary_bufs_sub .., reshape_bufs_sub .., binary_bufs_sub .., binary_bufs_sub .., nullary_bufs_sub .., unary_bufs_sub .., nullary_bufs_sub .., unary_bufs_sub .., unary_bufs_sub .., ternary_bufs_sub .., nullary_bufs_sub .., unary_bufs_sub .., binary_bufs_sub .., unary_bufs_sub .., nullary_bufs_sub .., unary_bufs_sub .., binary_bufs_sub .., nullary_bufs_sub .., unary_bufs_sub .., unary_bufs_sub .., ternary_bufs_sub .., nullary_bufs_sub .., unary_bufs_sub .., binary_bufs_sub .., nullary_bufs_sub .., unary_bufs_sub .., binary_bufs_sub .., ternary_bufs_sub .., unary_bufs_sub .., binary_bufs_sub .., nullary_bufs_sub .., unary_bufs_sub .., binary_bufs_sub .., nullary_bufs_sub .., unary_bufs_sub .., binary_bufs_sub .., ternary_bufs_sub .., unary_bufs_sub .., binary_bufs_sub .., binary_bufs_sub .., nullary_bufs_sub .., unary_bufs_sub .., binary_bufs_sub .., nullary_bufs_sub .., unary_bufs_sub .., binary_bufs_sub .., ternary_bufs_sub .., unary_bufs_sub .., binary_bufs_sub .., unary_bufs_sub .., unary_bufs_sub .., binary_bufs_sub .., nullary_bufs_sub .., unary_bufs_sub .., unary_bufs_sub .., ternary_bufs_sub .., unary_bufs_sub .., unary_bufs_sub .., binary_bufs_sub .., unary_bufs_sub .., unary_bufs_sub .., nullary_bufs_sub .., unary_bufs_sub .., binary_bufs_sub .., nullary_bufs_sub .., unary_bufs_sub .., binary_bufs_sub ..⟩

end Cert.ReferenceIdeal.Hand

end
-- ==== Proof.RefValue.lean ====
/-
  The reference's result is the network.

  Every execution of the reference program ends, with the result buffer holding the two-layer graph convolution of the
  argument arrays and the arguments unchanged: the program is a straight line of host operations, each writing one buffer
  from buffers written before it, and reading the last buffer back through the line gives the network's term operation by
  operation. (The reference computes the self-looped edge list and the edge weights once per layer; both computations are
  the same term of the edge list. A called function's operations move their values to their buffers' types and back; at a
  buffer's own type such a move is the identity.)
-/
import proofs.«115920_j59339268161711_1_alg».proof.Proof.RefOps
import proofs.«115920_j59339268161711_1_alg».proof.Proof.Network
import proofs.«115920_j59339268161711_1_alg».proof.Proof.LibConcatPair
import proofs.«115920_j59339268161711_1_alg».proof.Proof.LibTyped
import proofs.«115920_j59339268161711_1_alg».proof.Proof.LibTypedLit

noncomputable section

namespace Cert.ReferenceIdeal.Hand

open Cert.ReferenceIdeal Cert.ReferenceIdeal.Gen Idealize.ShloMosaic Idealize.ShloMosaic.TcCoe Idealize.SL.Sem Idealize.ShloMosaic.StableHlo

set_option maxRecDepth 8192 in
set_option maxHeartbeats 4000000 in
/-- The result buffer after the program's operations, from any contents of the buffers: the network of the arguments. -/
theorem result_eq (V : Valuation τ sig (Elt Ideal)) :
    after (ops (F := Ideal)) V (Proc.devRef .tc main_v104)
      = Cert.Gcn.net (F := Ideal) (V (Proc.devRef .tc main_arg0)) (V (Proc.devRef .tc main_arg1)) (V (Proc.devRef .tc main_arg2))
          (V (Proc.devRef .tc main_arg3)) (V (Proc.devRef .tc main_arg4)) (V (Proc.devRef .tc main_arg5)) := by
  simp (disch := decide) only [after_cons, after_nil,
      nullary_result', unary_result', binary_result', ternary_result', quaternary_result', reshape_result', nary4_result', nary_result',
      unaryIndexed_result', binaryIndexed_result',
      nullary_result_ne', unary_result_ne', binary_result_ne', ternary_result_ne', quaternary_result_ne', reshape_result_ne',
      nary_result_ne', unaryIndexed_result_ne', binaryIndexed_result_ne',
      Cert.LibConcatPair.concatenate_pair, Cert.LibTyped.ofBuf_toBuf]
  repeat rw [Cert.LibTypedLit.ofBuf_of]
  repeat rw [Cert.LibTypedLit.toBuf_of]
  rfl

set_option maxRecDepth 8192 in
set_option maxHeartbeats 54800000 in
/-- Every execution of the reference ends with the result buffer at the network of the launch contents of the arguments,
    and the arguments unchanged. -/
theorem run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v104)
        = Cert.Gcn.net (F := Ideal) (m ((c.tc : Thread nD τ).loc main_arg0)) (m ((c.tc : Thread nD τ).loc main_arg1))
            (m ((c.tc : Thread nD τ).loc main_arg2)) (m ((c.tc : Thread nD τ).loc main_arg3))
            (m ((c.tc : Thread nD τ).loc main_arg4)) (m ((c.tc : Thread nD τ).loc main_arg5))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5) :=
  (θ_run defs _ _).mono (fun _ h c => ⟨(h c main_v104).trans (result_eq _),
      (h c main_arg0).trans (by after_results_simp <;> rfl),
      (h c main_arg1).trans (by after_results_simp <;> rfl),
      (h c main_arg2).trans (by after_results_simp <;> rfl),
      (h c main_arg3).trans (by after_results_simp <;> rfl),
      (h c main_arg4).trans (by after_results_simp <;> rfl),
      (h c main_arg5).trans (by after_results_simp <;> rfl)⟩)
    (run_seq scopedRefs_eq scopedSems_eq defs main (fun _ => ops) main_eq (fun _ => ops_sub) m ρ)

end Cert.ReferenceIdeal.Hand

end
-- ==== Proof.lean ====
/-
  A two-layer graph convolution computed by a tiled kernel program equals its array-operation reference on the extended
  reals.

  Both programs extend the edge list by one self-loop per node, count each node's incoming edges, weight an edge by the
  product of the guarded inverse square roots of its two ends' degrees, and apply two layers  agg (h · W) + b,  a rectifier
  after the first and the logistic function after the second. They spell the irregular part — the gathers at the sources
  and the scatter-adds at the targets — with the same host operations. They differ in the regular part: where the reference
  multiplies, adds the bias and applies the activation on whole arrays, the kernel program does each of these in ten tiles
  of 10000 rows, the operands of a product changed to a narrower float format first. On the extended reals a change of
  format is the identity and a tile's entries are the whole array's entries at the tile's rows (a product's entry is the
  same sum over the shared axis; bias and activation act entry by entry; the kernel's logistic operation is the
  reference's 1 / (1 + e^(-v))), and the tiles cover every row. So each region leaves the whole-array function of what it
  found, and reading the kernel program's buffers from the result back to the arguments gives the reference's term. No
  law of arithmetic beyond these identities is used, so the inputs' finiteness is never needed.

  The three frames: the two kernel programs' by their stretch-by-stretch runs, the reference's by its run as a line of
  host operations. The idealized kernel is the kernel's own text read on the extended reals: nothing was rewritten.
-/
import proofs.«115920_j59339268161711_1_alg».proof.Defs
import proofs.«115920_j59339268161711_1_alg».proof.Proof.Gen.Kernel
import proofs.«115920_j59339268161711_1_alg».proof.Proof.Gen.Kernel.Skeleton
import proofs.«115920_j59339268161711_1_alg».proof.Proof.Gen.Kernel.Launch
import proofs.«115920_j59339268161711_1_alg».proof.Proof.Gen.Kernel.Points
import proofs.«115920_j59339268161711_1_alg».proof.Proof.Gen.Kernel.Frame
import proofs.«115920_j59339268161711_1_alg».proof.Proof.Gen.KernelIdeal
import proofs.«115920_j59339268161711_1_alg».proof.Proof.Gen.KernelIdeal.Skeleton
import proofs.«115920_j59339268161711_1_alg».proof.Proof.Gen.KernelIdeal.Launch
import proofs.«115920_j59339268161711_1_alg».proof.Proof.Gen.KernelIdeal.Points
import proofs.«115920_j59339268161711_1_alg».proof.Proof.Gen.KernelIdeal.Frame
import proofs.«115920_j59339268161711_1_alg».proof.Proof.Gen.ReferenceIdeal
import proofs.«115920_j59339268161711_1_alg».proof.Proof.Gen.Pre_finite_inputs
import proofs.«115920_j59339268161711_1_alg».proof.Proof.KernelRun
import proofs.«115920_j59339268161711_1_alg».proof.Proof.KernelValue
import proofs.«115920_j59339268161711_1_alg».proof.Proof.RefValue
import Idealize.ShloMosaic.Adequacy
import Idealize.ShloMosaic.Init

noncomputable section

namespace Cert.Proof

open Idealize.ShloMosaic Idealize.ShloMosaic.TcCoe Idealize.SL.Sem

/-- The kernel program runs and leaves its arguments as launched. -/
theorem frame_kernel : Cert.frame_Kernel := fun m ρ _ => Cert.Kernel.Gen.frame m ρ

/-- So does the same program read on the extended reals. -/
theorem frame_kernelIdeal : Cert.frame_KernelIdeal := fun m ρ _ => Cert.KernelIdeal.Gen.frame m ρ

/-- The reference runs and leaves its arguments as launched: its run, the result dropped. -/
theorem frame_reference : Cert.frame_ReferenceIdeal := fun m ρ _ =>
  (θ_run Cert.ReferenceIdeal.defs _ _).mono (fun _ h c => (h c).2) (Cert.ReferenceIdeal.Hand.run m ρ)

/-- On the extended reals both programs end with the network of the arguments in their result buffers. -/
theorem algebraic : Cert.algebraic_KernelIdeal_ReferenceIdeal := by
  intro m ρ m' ρ' _ hagree
  refine ⟨fun c => Cert.Gcn.net (F := Ideal)
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4))
      (m ((c.tc : Thread Cert.KernelIdeal.nD Cert.KernelIdeal.τ).loc Cert.KernelIdeal.main_arg5)), ?_, ?_⟩
  · exact (θ_run Cert.KernelIdeal.defs _ _).mono
      (fun _ h c => ⟨(h c).1.trans (Cert.KernelIdeal.Whole.result_eq m ρ c), (h c).2⟩)
      (Cert.KernelIdeal.Whole.run_fold (F := Ideal) m ρ)
  · refine (θ_run Cert.ReferenceIdeal.defs _ _).mono (fun _ h c => ⟨(h c).1.trans ?_, (h c).2⟩)
      (Cert.ReferenceIdeal.Hand.run m' ρ')
    obtain ⟨e0, e1, e2, e3, e4, e5⟩ := hagree c
    rw [e0, e1, e2, e3, e4, e5]

theorem claim : Cert.Claim :=
  ⟨Cert.Kernel.Gen.facts, Cert.KernelIdeal.Gen.facts, Cert.ReferenceIdeal.Gen.facts, Cert.Pre_finite_inputs.Gen.facts,
    frame_kernel, frame_kernelIdeal, frame_reference, trivial, algebraic⟩

end Cert.Proof

end
